-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v102)) (v3 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_v104) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S4000000x3 : Shape := ⟨2, ![4000000, 3]⟩
abbrev S4000000x1 : Shape := ⟨2, ![4000000, 1]⟩
abbrev S8000x4 : Shape := ⟨2, ![8000, 4]⟩
abbrev S8000x3 : Shape := ⟨2, ![8000, 3]⟩
abbrev S8000x1 : Shape := ⟨2, ![8000, 1]⟩
abbrev S8000 : Shape := ⟨1, ![8000]⟩
abbrev S4000000 : Shape := ⟨1, ![4000000]⟩
abbrev S_ : Shape := ⟨0, ![]⟩
abbrev S220001 : Shape := ⟨1, ![220001]⟩
abbrev S1 : Shape := ⟨1, ![1]⟩
abbrev S3999999 : Shape := ⟨1, ![3999999]⟩
abbrev S40001x32x4 : Shape := ⟨3, ![40001, 32, 4]⟩
abbrev S4000000x2 : Shape := ⟨2, ![4000000, 2]⟩
abbrev S40000x32x4 : Shape := ⟨3, ![40000, 32, 4]⟩
abbrev S40001x3 : Shape := ⟨2, ![40001, 3]⟩
abbrev S40000x3 : Shape := ⟨2, ![40000, 3]⟩
abbrev S40001 : Shape := ⟨1, ![40001]⟩
abbrev S40000 : Shape := ⟨1, ![40000]⟩

abbrev nBuf : Space → Nat
  | .hbm => 157
  | .vmem => 6
  | .smem => 0
  | _ => 0

abbrev hbmTy0_0 (i : Nat) : BufTy := match i % 128 with
  | 0 => ⟨S4000000x4, .f32⟩
  | 1 => ⟨S4000000x3, .i32⟩
  | 2 => ⟨S4000000x1, .i32⟩
  | 3 => ⟨S4000000, .i32⟩
  | 4 => ⟨S_, .i32⟩
  | 5 => ⟨S4000000, .i32⟩
  | 6 => ⟨S4000000, .i1⟩
  | 7 => ⟨S4000000, .i32⟩
  | 8 => ⟨S_, .i32⟩
  | 9 => ⟨S_, .i32⟩
  | 10 => ⟨S4000000, .i32⟩
  | 11 => ⟨S4000000, .i32⟩
  | 12 => ⟨S_, .i32⟩
  | 13 => ⟨S220001, .i32⟩
  | 14 => ⟨S4000000x1, .i32⟩
  | 15 => ⟨S220001, .i32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S4000000x1, .i32⟩
  | 24 => ⟨S4000000, .i32⟩
  | 25 => ⟨S_, .i32⟩
  | 26 => ⟨S4000000, .i32⟩
  | 27 => ⟨S4000000, .i32⟩
  | 28 => ⟨S4000000, .i1⟩
  | 29 => ⟨S4000000, .i1⟩
  | 30 => ⟨S4000000, .i32⟩
  | 31 => ⟨S_, .i32⟩
  | 32 => ⟨S_, .i32⟩
  | 33 => ⟨S4000000, .i32⟩
  | 34 => ⟨S_, .i32⟩
  | 35 => ⟨S4000000, .i32⟩
  | 36 => ⟨S4000000, .i32⟩
  | 37 => ⟨S_, .i32⟩
  | 38 => ⟨S4000000, .i32⟩
  | 39 => ⟨S4000000, .i1⟩
  | 40 => ⟨S_, .i32⟩
  | 41 => ⟨S4000000, .i32⟩
  | 42 => ⟨S4000000, .i32⟩
  | 43 => ⟨S4000000, .i32⟩
  | 44 => ⟨S4000000x1, .i32⟩
  | 45 => ⟨S4000000, .i32⟩
  | 46 => ⟨S4000000, .i32⟩
  | 47 => ⟨S4000000, .i32⟩
  | 48 => ⟨S4000000, .i32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000, .i32⟩
  | 58 => ⟨S4000000, .i32⟩
  | 59 => ⟨S_, .i1⟩
  | 60 => ⟨S1, .i1⟩
  | 61 => ⟨S3999999, .i32⟩
  | 62 => ⟨S3999999, .i32⟩
  | 63 => ⟨S3999999, .i1⟩
  | 64 => ⟨S4000000, .i1⟩
  | 65 => ⟨S_, .i32⟩
  | 66 => ⟨S_, .i32⟩
  | 67 => ⟨S4000000, .i32⟩
  | 68 => ⟨S4000000, .i32⟩
  | 69 => ⟨S_, .i32⟩
  | 70 => ⟨S_, .i32⟩
  | 71 => ⟨S4000000, .i32⟩
  | 72 => ⟨S_, .i32⟩
  | 73 => ⟨S4000000, .i32⟩
  | 74 => ⟨S4000000, .i32⟩
  | 75 => ⟨S_, .i32⟩
  | 76 => ⟨S4000000, .i32⟩
  | 77 => ⟨S4000000, .i1⟩
  | 78 => ⟨S_, .i32⟩
  | 79 => ⟨S4000000, .i32⟩
  | 80 => ⟨S4000000, .i32⟩
  | 81 => ⟨S4000000, .i32⟩
  | 82 => ⟨S4000000x1, .i32⟩
  | 83 => ⟨S4000000, .i32⟩
  | 84 => ⟨S_, .i32⟩
  | 85 => ⟨S4000000, .i32⟩
  | 86 => ⟨S4000000, .i1⟩
  | 87 => ⟨S4000000, .i1⟩
  | 88 => ⟨S_, .i32⟩
  | 89 => ⟨S4000000, .i32⟩
  | 90 => ⟨S4000000, .i1⟩
  | 91 => ⟨S4000000, .i1⟩
  | 92 => ⟨S_, .i32⟩
  | 93 => ⟨S_, .i32⟩
  | 94 => ⟨S4000000, .i32⟩
  | 95 => ⟨S4000000, .i32⟩
  | 96 => ⟨S_, .i32⟩
  | 97 => ⟨S_, .i32⟩
  | 98 => ⟨S4000000, .i32⟩
  | 99 => ⟨S4000000, .i32⟩
  | 100 => ⟨S_, .f32⟩
  | 101 => ⟨S40001x32x4, .f32⟩
  | 102 => ⟨S_, .i32⟩
  | 103 => ⟨S4000000, .i32⟩
  | 104 => ⟨S4000000, .i1⟩
  | 105 => ⟨S_, .i32⟩
  | 106 => ⟨S4000000, .i32⟩
  | 107 => ⟨S4000000, .i32⟩
  | 108 => ⟨S4000000, .i32⟩
  | 109 => ⟨S_, .i32⟩
  | 110 => ⟨S4000000, .i32⟩
  | 111 => ⟨S4000000, .i1⟩
  | 112 => ⟨S_, .i32⟩
  | 113 => ⟨S4000000, .i32⟩
  | 114 => ⟨S4000000, .i32⟩
  | 115 => ⟨S4000000, .i32⟩
  | 116 => ⟨S4000000x1, .i32⟩
  | 117 => ⟨S4000000x1, .i32⟩
  | 118 => ⟨S4000000x2, .i32⟩
  | 119 => ⟨S40001x32x4, .f32⟩
  | 120 => ⟨S40000x32x4, .f32⟩
  | 121 => ⟨S_, .i32⟩
  | 122 => ⟨S4000000, .i32⟩
  | 123 => ⟨S4000000, .i1⟩
  | 124 => ⟨S4000000, .i1⟩
  | 125 => ⟨S_, .i32⟩
  | 126 => ⟨S_, .i32⟩
  | 127 => ⟨S4000000, .i32⟩
  | _ => ⟨S4000000x4, .f32⟩

abbrev hbmTy0_1 (i : Nat) : BufTy := match i % 128 with
  | 0 => ⟨S4000000, .i32⟩
  | 1 => ⟨S_, .i32⟩
  | 2 => ⟨S40001x3, .i32⟩
  | 3 => ⟨S_, .i32⟩
  | 4 => ⟨S4000000, .i32⟩
  | 5 => ⟨S4000000, .i1⟩
  | 6 => ⟨S_, .i32⟩
  | 7 => ⟨S4000000, .i32⟩
  | 8 => ⟨S4000000, .i32⟩
  | 9 => ⟨S4000000, .i32⟩
  | 10 => ⟨S4000000x1, .i32⟩
  | 11 => ⟨S40001x3, .i32⟩
  | 12 => ⟨S40000x3, .i32⟩
  | 13 => ⟨S_, .i32⟩
  | 14 => ⟨S40001, .i32⟩
  | 15 => ⟨S4000000, .i32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S4000000x1, .i32⟩
  | 24 => ⟨S40001, .i32⟩
  | 25 => ⟨S40000, .i32⟩
  | 26 => ⟨S4000000, .i32⟩
  | 27 => ⟨S_, .i32⟩
  | 28 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | .local _ .vmem, ⟨0, _⟩ => ⟨S8000x4, .f32⟩
  | .local _ .vmem, ⟨1, _⟩ => ⟨S8000x4, .f32⟩
  | .local _ .vmem, ⟨2, _⟩ => ⟨S8000x3, .i32⟩
  | .local _ .vmem, ⟨3, _⟩ => ⟨S8000x3, .i32⟩
  | .local _ .vmem, ⟨4, _⟩ => ⟨S8000x1, .i32⟩
  | .local _ .vmem, ⟨5, _⟩ => ⟨S8000x1, .i32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_call0_c : Ref sig .tc := ⟨.hbm, 31, rfl⟩
abbrev main_call1_call0_v0 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call2_v0 : Ref sig .tc := ⟨.hbm, 46, rfl⟩
abbrev main_call2_v1_0 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_call3_v0 : Ref sig .tc := ⟨.hbm, 66, rfl⟩
abbrev main_call3_v1 : Ref sig .tc := ⟨.hbm, 67, rfl⟩
abbrev main_v45 : Ref sig .tc := ⟨.hbm, 68, rfl⟩
abbrev main_call4_c : Ref sig .tc := ⟨.hbm, 69, rfl⟩
abbrev main_call4_v0 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_17 : Ref sig .tc := ⟨.hbm, 92, rfl⟩
abbrev main_call5_v0 : Ref sig .tc := ⟨.hbm, 93, rfl⟩
abbrev main_call5_v1 : Ref sig .tc := ⟨.hbm, 94, rfl⟩
abbrev main_v62 : Ref sig .tc := ⟨.hbm, 95, rfl⟩
abbrev main_c_18 : Ref sig .tc := ⟨.hbm, 96, rfl⟩
abbrev main_call6_v0 : Ref sig .tc := ⟨.hbm, 97, rfl⟩
abbrev main_call6_v1 : Ref sig .tc := ⟨.hbm, 98, rfl⟩
abbrev main_v63 : Ref sig .tc := ⟨.hbm, 99, rfl⟩
abbrev main_cst : Ref sig .tc := ⟨.hbm, 100, rfl⟩
abbrev main_v64 : Ref sig .tc := ⟨.hbm, 101, rfl⟩
abbrev main_c_19 : Ref sig .tc := ⟨.hbm, 102, rfl⟩
abbrev main_v65 : Ref sig .tc := ⟨.hbm, 103, rfl⟩
abbrev main_v66 : Ref sig .tc := ⟨.hbm, 104, rfl⟩
abbrev main_c_20 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_21 : Ref sig .tc := ⟨.hbm, 109, rfl⟩
abbrev main_v70 : Ref sig .tc := ⟨.hbm, 110, rfl⟩
abbrev main_v71 : Ref sig .tc := ⟨.hbm, 111, rfl⟩
abbrev main_c_22 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_23 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_24 : Ref sig .tc := ⟨.hbm, 125, rfl⟩
abbrev main_call7_v0 : Ref sig .tc := ⟨.hbm, 126, rfl⟩
abbrev main_call7_v1 : Ref sig .tc := ⟨.hbm, 127, rfl⟩
abbrev main_v83 : Ref sig .tc := ⟨.hbm, 128, rfl⟩
abbrev main_c_25 : Ref sig .tc := ⟨.hbm, 129, rfl⟩
abbrev main_v84 : Ref sig .tc := ⟨.hbm, 130, rfl⟩
abbrev main_c_26 : Ref sig .tc := ⟨.hbm, 131, rfl⟩
abbrev main_v85 : Ref sig .tc := ⟨.hbm, 132, rfl⟩
abbrev main_v86 : Ref sig .tc := ⟨.hbm, 133, rfl⟩
abbrev main_c_27 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_28 : Ref sig .tc := ⟨.hbm, 141, rfl⟩
abbrev main_v93 : Ref sig .tc := ⟨.hbm, 142, rfl⟩
abbrev main_v94 : Ref sig .tc := ⟨.hbm, 143, rfl⟩
abbrev main_c_29 : Ref sig .tc := ⟨.hbm, 144, rfl⟩
abbrev main_v95 : Ref sig .tc := ⟨.hbm, 145, rfl⟩
abbrev main_v96 : Ref sig .tc := ⟨.hbm, 146, rfl⟩
abbrev main_c_30 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_c_31 : Ref sig .tc := ⟨.hbm, 155, rfl⟩
abbrev main_v104 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8000x4_S8000x4_0_0 : ∀ a, (![0, 0] : Fin 2 → Nat) a + S8000x4.size a ≤ S8000x4.size a
  h_S8000x4 : 0 < S8000x4.numel
  slices_S8000x4_o0_0_S8000x1 : S8000x4.Slices ![0, 0] S8000x1
  shapeCasts_S8000x1_S8000 : S8000x1.ShapeCasts S8000
  slices_S8000x4_o0_1_S8000x1 : S8000x4.Slices ![0, 1] S8000x1
  slices_S8000x4_o0_2_S8000x1 : S8000x4.Slices ![0, 2] S8000x1
  shapeCasts_S8000_S8000x1 : S8000.ShapeCasts S8000x1
  concatenates_S8000x1_S8000x1_S8000x1_S8000x3_d1 : Shape.Concatenates [S8000x1, S8000x1, S8000x1] S8000x3 1
  inb_S8000x3_S8000x3_0_0 : ∀ a, (![0, 0] : Fin 2 → Nat) a + S8000x3.size a ≤ S8000x3.size a
  h_S8000x3 : 0 < S8000x3.numel
  inb_S8000x1_S8000x1_0_0 : ∀ a, (![0, 0] : Fin 2 → Nat) a + S8000x1.size a ≤ S8000x1.size a
  h_S8000x1 : 0 < S8000x1.numel
  shapeCasts_S4000000x1_S4000000 : S4000000x1.ShapeCasts S4000000
  bcast_S_S4000000 : S_.BroadcastsInDim S4000000 (![] : Fin 0 → Fin S4000000.rank)
  bcast_S_S220001 : S_.BroadcastsInDim S220001 (![] : Fin 0 → Fin S220001.rank)
  bcast_S4000000_S4000000x1_0 : S4000000.BroadcastsInDim S4000000x1 (![0] : Fin 1 → Fin S4000000x1.rank)
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  bcast_S_S40001x32x4 : S_.BroadcastsInDim S40001x32x4 (![] : Fin 0 → Fin S40001x32x4.rank)
  concatenates_S4000000x1_S4000000x1_S4000000x2_d1 : Shape.Concatenates [S4000000x1, S4000000x1] S4000000x2 1
  slices_S40001x32x4_S40000x32x4_0_0_0 : S40001x32x4.Slices ![0, 0, 0] S40000x32x4
  bcast_S_S40001x3 : S_.BroadcastsInDim S40001x3 (![] : Fin 0 → Fin S40001x3.rank)
  slices_S40001x3_S40000x3_0_0 : S40001x3.Slices ![0, 0] S40000x3
  bcast_S_S40001 : S_.BroadcastsInDim S40001 (![] : Fin 0 → Fin S40001.rank)
  slices_S40001_S40000_0 : S40001.Slices ![0] S40000
  reducesTo_S4000000_S_d0 : S4000000.ReducesTo [0] S_
  scatter_S220001_S4000000x1_S4000000_n_0_0_1_wf : ScatterDims.WF S220001 S4000000x1 S4000000 [] [0] [0] 1
  gather_S220001_S4000000x1_S4000000_n_0_n_n_0_1_1_wf : GatherDims.WF S220001 S4000000x1 S4000000 [] [0] [] [0] [] 1 ![1]
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  scatter_S40001x32x4_S4000000x2_S4000000x4_1_01_01_1_wf : ScatterDims.WF S40001x32x4 S4000000x2 S4000000x4 [1] [0, 1] [0, 1] 1
  scatter_S40001x3_S4000000x1_S4000000x3_1_0_0_1_wf : ScatterDims.WF S40001x3 S4000000x1 S4000000x3 [1] [0] [0] 1
  scatter_S40001_S4000000x1_S4000000_n_0_0_1_wf : ScatterDims.WF S40001 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S4000000x4.size a
  hwx0_0 : ∀ i : grid0.Coords, EltTy.bits .f32 = 32 ∨ (Rect.block (s := S4000000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S4000000x3.size a
  hwx0_1 : ∀ i : grid0.Coords, EltTy.bits .i32 = 32 ∨ (Rect.block (s := S4000000x3) S8000x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S4000000x1.size a
  hwx0_2 : ∀ i : grid0.Coords, EltTy.bits .i32 = 32 ∨ (Rect.block (s := S4000000x1) S8000x1.size (cc0_transform_2 i) (hinb0_2 i)).WholeWords (EltTy.packing .i32)

variable [Facts₀]

def scatter_S220001_S4000000x1_S4000000_n_0_0_1 : ScatterDims S220001 S4000000x1 S4000000 where
  updateWindowDims := []
  insertedWindowDims := [0]
  scatterDimsToOperandDims := [0]
  indexVectorDim := 1
  wf := scatter_S220001_S4000000x1_S4000000_n_0_0_1_wf
def gather_S220001_S4000000x1_S4000000_n_0_n_n_0_1_1 : GatherDims S220001 S4000000x1 S4000000 where
  offsetDims := []
  collapsedSliceDims := [0]
  operandBatchingDims := []
  startIndicesBatchingDims := []
  startIndexMap := [0]
  indexVectorDim := 1
  sliceSizes := ![1]
  wf := gather_S220001_S4000000x1_S4000000_n_0_n_n_0_1_1_wf
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def comparator_i32_i32_d0 : BitVec 32 × BitVec 32 → BitVec 32 × BitVec 32 → BitVec 1 :=
  fun l r =>
    let v2 := IntOp.cmpi .slt l.1 r.1
    v2
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def scatter_S40001x32x4_S4000000x2_S4000000x4_1_01_01_1 : ScatterDims S40001x32x4 S4000000x2 S4000000x4 where
  updateWindowDims := [1]
  insertedWindowDims := [0, 1]
  scatterDimsToOperandDims := [0, 1]
  indexVectorDim := 1
  wf := scatter_S40001x32x4_S4000000x2_S4000000x4_1_01_01_1_wf
def scatter_S40001x3_S4000000x1_S4000000x3_1_0_0_1 : ScatterDims S40001x3 S4000000x1 S4000000x3 where
  updateWindowDims := [1]
  insertedWindowDims := [0]
  scatterDimsToOperandDims := [0]
  indexVectorDim := 1
  wf := scatter_S40001x3_S4000000x1_S4000000x3_1_0_0_1_wf
def scatter_S40001_S4000000x1_S4000000_n_0_0_1 : ScatterDims S40001 S4000000x1 S4000000 where
  updateWindowDims := []
  insertedWindowDims := [0]
  scatterDimsToOperandDims := [0]
  indexVectorDim := 1
  wf := scatter_S40001_S4000000x1_S4000000_n_0_0_1_wf

abbrev win0_0 : Pipeline.Window sig grid0 :=
  Pipeline.Window.ofSpec (Memref.whole main_arg0) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8000x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S3 : Shape := ⟨1, ![3]⟩
abbrev S4000000x3 : Shape := ⟨2, ![4000000, 3]⟩
abbrev S1x3 : Shape := ⟨2, ![1, 3]⟩
abbrev S_ : Shape := ⟨0, ![]⟩
abbrev S4000000 : Shape := ⟨1, ![4000000]⟩
abbrev S4000000x1 : Shape := ⟨2, ![4000000, 1]⟩
abbrev S220001 : Shape := ⟨1, ![220001]⟩
abbrev S1 : Shape := ⟨1, ![1]⟩
abbrev S3999999 : Shape := ⟨1, ![3999999]⟩
abbrev S40001x32x4 : Shape := ⟨3, ![40001, 32, 4]⟩
abbrev S4000000x2 : Shape := ⟨2, ![4000000, 2]⟩
abbrev S40000x32x4 : Shape := ⟨3, ![40000, 32, 4]⟩
abbrev S40001x3 : Shape := ⟨2, ![40001, 3]⟩
abbrev S40000x3 : Shape := ⟨2, ![40000, 3]⟩
abbrev S40001 : Shape := ⟨1, ![40001]⟩
abbrev S40000 : Shape := ⟨1, ![40000]⟩

abbrev nBuf : Space → Nat
  | .hbm => 190
  | .vmem => 0
  | .smem => 0
  | _ => 0

abbrev hbmTy0_0 (i : Nat) : BufTy := match i % 128 with
  | 0 => ⟨S4000000x4, .f32⟩
  | 1 => ⟨S3, .f32⟩
  | 2 => ⟨S3, .f32⟩
  | 3 => ⟨S3, .i32⟩
  | 4 => ⟨S4000000x3, .f32⟩
  | 5 => ⟨S1x3, .f32⟩
  | 6 => ⟨S4000000x3, .f32⟩
  | 7 => ⟨S4000000x3, .f32⟩
  | 8 => ⟨S1x3, .f32⟩
  | 9 => ⟨S4000000x3, .f32⟩
  | 10 => ⟨S4000000x3, .f32⟩
  | 11 => ⟨S4000000x3, .f32⟩
  | 12 => ⟨S4000000x3, .i32⟩
  | 13 => ⟨S_, .i32⟩
  | 14 => ⟨S4000000x3, .i32⟩
  | 15 => ⟨S4000000x3, .i1⟩
  | 16 => ⟨S1x3, .i32⟩
  | 17 => ⟨S4000000x3, .i32⟩
  | 18 => ⟨S4000000x3, .i1⟩
  | 19 => ⟨S4000000x3, .i1⟩
  | 20 => ⟨S_, .i1⟩
  | 21 => ⟨S4000000, .i1⟩
  | 22 => ⟨S4000000x1, .i32⟩
  | 23 => ⟨S4000000, .i32⟩
  | 24 => ⟨S_, .i32⟩
  | 25 => ⟨S4000000, .i32⟩
  | 26 => ⟨S4000000, .i32⟩
  | 27 => ⟨S4000000x1, .i32⟩
  | 28 => ⟨S4000000, .i32⟩
  | 29 => ⟨S_, .i32⟩
  | 30 => ⟨S4000000, .i32⟩
  | 31 => ⟨S4000000, .i32⟩
  | 32 => ⟨S4000000, .i32⟩
  | 33 => ⟨S4000000x1, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S4000000, .i32⟩
  | 41 => ⟨S_, .i32⟩
  | 42 => ⟨S_, .i32⟩
  | 43 => ⟨S4000000, .i32⟩
  | 44 => ⟨S4000000, .i32⟩
  | 45 => ⟨S_, .i32⟩
  | 46 => ⟨S220001, .i32⟩
  | 47 => ⟨S4000000x1, .i32⟩
  | 48 => ⟨S220001, .i32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000, .i32⟩
  | 58 => ⟨S_, .i32⟩
  | 59 => ⟨S4000000, .i32⟩
  | 60 => ⟨S4000000, .i32⟩
  | 61 => ⟨S4000000, .i1⟩
  | 62 => ⟨S4000000, .i1⟩
  | 63 => ⟨S4000000, .i32⟩
  | 64 => ⟨S_, .i32⟩
  | 65 => ⟨S_, .i32⟩
  | 66 => ⟨S4000000, .i32⟩
  | 67 => ⟨S_, .i32⟩
  | 68 => ⟨S4000000, .i32⟩
  | 69 => ⟨S4000000, .i32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i32⟩
  | 76 => ⟨S4000000, .i32⟩
  | 77 => ⟨S4000000x1, .i32⟩
  | 78 => ⟨S4000000, .i32⟩
  | 79 => ⟨S4000000, .i32⟩
  | 80 => ⟨S4000000, .i32⟩
  | 81 => ⟨S4000000, .i32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S4000000, .i32⟩
  | 91 => ⟨S4000000, .i32⟩
  | 92 => ⟨S_, .i1⟩
  | 93 => ⟨S1, .i1⟩
  | 94 => ⟨S3999999, .i32⟩
  | 95 => ⟨S3999999, .i32⟩
  | 96 => ⟨S3999999, .i1⟩
  | 97 => ⟨S4000000, .i1⟩
  | 98 => ⟨S_, .i32⟩
  | 99 => ⟨S_, .i32⟩
  | 100 => ⟨S4000000, .i32⟩
  | 101 => ⟨S4000000, .i32⟩
  | 102 => ⟨S_, .i32⟩
  | 103 => ⟨S_, .i32⟩
  | 104 => ⟨S4000000, .i32⟩
  | 105 => ⟨S_, .i32⟩
  | 106 => ⟨S4000000, .i32⟩
  | 107 => ⟨S4000000, .i32⟩
  | 108 => ⟨S_, .i32⟩
  | 109 => ⟨S4000000, .i32⟩
  | 110 => ⟨S4000000, .i1⟩
  | 111 => ⟨S_, .i32⟩
  | 112 => ⟨S4000000, .i32⟩
  | 113 => ⟨S4000000, .i32⟩
  | 114 => ⟨S4000000, .i32⟩
  | 115 => ⟨S4000000x1, .i32⟩
  | 116 => ⟨S4000000, .i32⟩
  | 117 => ⟨S_, .i32⟩
  | 118 => ⟨S4000000, .i32⟩
  | 119 => ⟨S4000000, .i1⟩
  | 120 => ⟨S4000000, .i1⟩
  | 121 => ⟨S_, .i32⟩
  | 122 => ⟨S4000000, .i32⟩
  | 123 => ⟨S4000000, .i1⟩
  | 124 => ⟨S4000000, .i1⟩
  | 125 => ⟨S_, .i32⟩
  | 126 => ⟨S_, .i32⟩
  | 127 => ⟨S4000000, .i32⟩
  | _ => ⟨S4000000x4, .f32⟩

abbrev hbmTy0_1 (i : Nat) : BufTy := match i % 128 with
  | 0 => ⟨S4000000, .i32⟩
  | 1 => ⟨S_, .i32⟩
  | 2 => ⟨S_, .i32⟩
  | 3 => ⟨S4000000, .i32⟩
  | 4 => ⟨S4000000, .i32⟩
  | 5 => ⟨S_, .f32⟩
  | 6 => ⟨S40001x32x4, .f32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x1, .i32⟩
  | 23 => ⟨S4000000x2, .i32⟩
  | 24 => ⟨S40001x32x4, .f32⟩
  | 25 => ⟨S40000x32x4, .f32⟩
  | 26 => ⟨S_, .i32⟩
  | 27 => ⟨S4000000, .i32⟩
  | 28 => ⟨S4000000, .i1⟩
  | 29 => ⟨S4000000, .i1⟩
  | 30 => ⟨S_, .i32⟩
  | 31 => ⟨S_, .i32⟩
  | 32 => ⟨S4000000, .i32⟩
  | 33 => ⟨S4000000, .i32⟩
  | 34 => ⟨S_, .i32⟩
  | 35 => ⟨S40001x3, .i32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S4000000x1, .i32⟩
  | 44 => ⟨S40001x3, .i32⟩
  | 45 => ⟨S40000x3, .i32⟩
  | 46 => ⟨S_, .i32⟩
  | 47 => ⟨S40001, .i32⟩
  | 48 => ⟨S4000000, .i32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S40001, .i32⟩
  | 58 => ⟨S40000, .i32⟩
  | 59 => ⟨S4000000, .i32⟩
  | 60 => ⟨S_, .i32⟩
  | 61 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_call0_c : Ref sig .tc := ⟨.hbm, 64, rfl⟩
abbrev main_call2_call0_v0 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call3_v0 : Ref sig .tc := ⟨.hbm, 79, rfl⟩
abbrev main_call3_v1_0 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_call4_v0 : Ref sig .tc := ⟨.hbm, 99, rfl⟩
abbrev main_call4_v1 : Ref sig .tc := ⟨.hbm, 100, rfl⟩
abbrev main_v70 : Ref sig .tc := ⟨.hbm, 101, rfl⟩
abbrev main_call5_c : Ref sig .tc := ⟨.hbm, 102, rfl⟩
abbrev main_call5_v0 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_21 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_23 : Ref sig .tc := ⟨.hbm, 125, rfl⟩
abbrev main_call6_v0 : Ref sig .tc := ⟨.hbm, 126, rfl⟩
abbrev main_call6_v1 : Ref sig .tc := ⟨.hbm, 127, rfl⟩
abbrev main_v87 : Ref sig .tc := ⟨.hbm, 128, rfl⟩
abbrev main_c_24 : Ref sig .tc := ⟨.hbm, 129, rfl⟩
abbrev main_call7_v0 : Ref sig .tc := ⟨.hbm, 130, rfl⟩
abbrev main_call7_v1 : Ref sig .tc := ⟨.hbm, 131, rfl⟩
abbrev main_v88 : Ref sig .tc := ⟨.hbm, 132, rfl⟩
abbrev main_cst_25 : Ref sig .tc := ⟨.hbm, 133, rfl⟩
abbrev main_v89 : Ref sig .tc := ⟨.hbm, 134, rfl⟩
abbrev main_c_26 : Ref sig .tc := ⟨.hbm, 135, rfl⟩
abbrev main_v90 : Ref sig .tc := ⟨.hbm, 136, rfl⟩
abbrev main_v91 : Ref sig .tc := ⟨.hbm, 137, rfl⟩
abbrev main_c_27 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_28 : Ref sig .tc := ⟨.hbm, 142, rfl⟩
abbrev main_v95 : Ref sig .tc := ⟨.hbm, 143, rfl⟩
abbrev main_v96 : Ref sig .tc := ⟨.hbm, 144, rfl⟩
abbrev main_c_29 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_30 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_31 : Ref sig .tc := ⟨.hbm, 158, rfl⟩
abbrev main_call8_v0 : Ref sig .tc := ⟨.hbm, 159, rfl⟩
abbrev main_call8_v1 : Ref sig .tc := ⟨.hbm, 160, rfl⟩
abbrev main_v108 : Ref sig .tc := ⟨.hbm, 161, rfl⟩
abbrev main_c_32 : Ref sig .tc := ⟨.hbm, 162, rfl⟩
abbrev main_v109 : Ref sig .tc := ⟨.hbm, 163, rfl⟩
abbrev main_c_33 : Ref sig .tc := ⟨.hbm, 164, rfl⟩
abbrev main_v110 : Ref sig .tc := ⟨.hbm, 165, rfl⟩
abbrev main_v111 : Ref sig .tc := ⟨.hbm, 166, rfl⟩
abbrev main_c_34 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_c_35 : Ref sig .tc := ⟨.hbm, 174, rfl⟩
abbrev main_v118 : Ref sig .tc := ⟨.hbm, 175, rfl⟩
abbrev main_v119 : Ref sig .tc := ⟨.hbm, 176, rfl⟩
abbrev main_c_36 : Ref sig .tc := ⟨.hbm, 177, rfl⟩
abbrev main_v120 : Ref sig .tc := ⟨.hbm, 178, rfl⟩
abbrev main_v121 : Ref sig .tc := ⟨.hbm, 179, rfl⟩
abbrev main_c_37 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_c_38 : Ref sig .tc := ⟨.hbm, 188, rfl⟩
abbrev main_v129 : Ref sig .tc := ⟨.hbm, 189, rfl⟩

abbrev nD : Nat := 1
abbrev τ : Topo := Topo.v7x

variable {F : FTy → Type} [FloatOps F]

class Facts₀ : Prop where
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  bcast_S_S4000000x3 : S_.BroadcastsInDim S4000000x3 (![] : Fin 0 → Fin S4000000x3.rank)
  reducesTo_S4000000x3_S4000000_d1 : S4000000x3.ReducesTo [1] S4000000
  h_S_ : 0 < S_.numel
  slices_S4000000x3_S4000000x1_0_0 : S4000000x3.Slices ![0, 0] S4000000x1
  shapeCasts_S4000000x1_S4000000 : S4000000x1.ShapeCasts S4000000
  bcast_S_S4000000 : S_.BroadcastsInDim S4000000 (![] : Fin 0 → Fin S4000000.rank)
  slices_S4000000x3_S4000000x1_0_1 : S4000000x3.Slices ![0, 1] S4000000x1
  slices_S4000000x3_S4000000x1_0_2 : S4000000x3.Slices ![0, 2] S4000000x1
  bcast_S_S220001 : S_.BroadcastsInDim S220001 (![] : Fin 0 → Fin S220001.rank)
  bcast_S4000000_S4000000x1_0 : S4000000.BroadcastsInDim S4000000x1 (![0] : Fin 1 → Fin S4000000x1.rank)
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  bcast_S_S40001x32x4 : S_.BroadcastsInDim S40001x32x4 (![] : Fin 0 → Fin S40001x32x4.rank)
  concatenates_S4000000x1_S4000000x1_S4000000x2_d1 : Shape.Concatenates [S4000000x1, S4000000x1] S4000000x2 1
  slices_S40001x32x4_S40000x32x4_0_0_0 : S40001x32x4.Slices ![0, 0, 0] S40000x32x4
  bcast_S_S40001x3 : S_.BroadcastsInDim S40001x3 (![] : Fin 0 → Fin S40001x3.rank)
  slices_S40001x3_S40000x3_0_0 : S40001x3.Slices ![0, 0] S40000x3
  bcast_S_S40001 : S_.BroadcastsInDim S40001 (![] : Fin 0 → Fin S40001.rank)
  slices_S40001_S40000_0 : S40001.Slices ![0] S40000
  reducesTo_S4000000_S_d0 : S4000000.ReducesTo [0] S_
  scatter_S220001_S4000000x1_S4000000_n_0_0_1_wf : ScatterDims.WF S220001 S4000000x1 S4000000 [] [0] [0] 1
  gather_S220001_S4000000x1_S4000000_n_0_n_n_0_1_1_wf : GatherDims.WF S220001 S4000000x1 S4000000 [] [0] [] [0] [] 1 ![1]
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  scatter_S40001x32x4_S4000000x2_S4000000x4_1_01_01_1_wf : ScatterDims.WF S40001x32x4 S4000000x2 S4000000x4 [1] [0, 1] [0, 1] 1
  scatter_S40001x3_S4000000x1_S4000000x3_1_0_0_1_wf : ScatterDims.WF S40001x3 S4000000x1 S4000000x3 [1] [0] [0] 1
  scatter_S40001_S4000000x1_S4000000_n_0_0_1_wf : ScatterDims.WF S40001 S4000000x1 S4000000 [] [0] [0] 1

variable [Facts₀]

def scatter_S220001_S4000000x1_S4000000_n_0_0_1 : ScatterDims S220001 S4000000x1 S4000000 where
  updateWindowDims := []
  insertedWindowDims := [0]
  scatterDimsToOperandDims := [0]
  indexVectorDim := 1
  wf := scatter_S220001_S4000000x1_S4000000_n_0_0_1_wf
def gather_S220001_S4000000x1_S4000000_n_0_n_n_0_1_1 : GatherDims S220001 S4000000x1 S4000000 where
  offsetDims := []
  collapsedSliceDims := [0]
  operandBatchingDims := []
  startIndicesBatchingDims := []
  startIndexMap := [0]
  indexVectorDim := 1
  sliceSizes := ![1]
  wf := gather_S220001_S4000000x1_S4000000_n_0_n_n_0_1_1_wf
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def comparator_i32_i32_d0 : BitVec 32 × BitVec 32 → BitVec 32 × BitVec 32 → BitVec 1 :=
  fun l r =>
    let v2 := IntOp.cmpi .slt l.1 r.1
    v2
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def scatter_S40001x32x4_S4000000x2_S4000000x4_1_01_01_1 : ScatterDims S40001x32x4 S4000000x2 S4000000x4 where
  updateWindowDims := [1]
  insertedWindowDims := [0, 1]
  scatterDimsToOperandDims := [0, 1]
  indexVectorDim := 1
  wf := scatter_S40001x32x4_S4000000x2_S4000000x4_1_01_01_1_wf
def scatter_S40001x3_S4000000x1_S4000000x3_1_0_0_1 : ScatterDims S40001x3 S4000000x1 S4000000x3 where
  updateWindowDims := [1]
  insertedWindowDims := [0]
  scatterDimsToOperandDims := [0]
  indexVectorDim := 1
  wf := scatter_S40001x3_S4000000x1_S4000000x3_1_0_0_1_wf
def scatter_S40001_S4000000x1_S4000000_n_0_0_1 : ScatterDims S40001 S4000000x1 S4000000 where
  updateWindowDims := []
  insertedWindowDims := [0]
  scatterDimsToOperandDims := [0]
  indexVectorDim := 1
  wf := scatter_S40001_S4000000x1_S4000000_n_0_0_1_wf

class Facts : Prop extends Facts₀ where

variable [Facts]
-- ==== Proof.HashFrameBits.lean ====
/-
  The frame of the voxel-hash program: one launch over 500 grid points, each staging a block of 8000 points
  (four floats each) and writing back a block of 8000 integer cell coordinates and a block of 8000 linear cell
  indices, followed by a long straight line of tensor operations that sort, scatter and gather those results.

  Nothing runs before the launch, so the launch finds every array as the program was started with. The body is
  pointwise: it loads the whole point block, and each output block ends as the single whole-block store of a
  pure function of that load. The operations after the launch only read the three staged arrays and write
  buffers of their own, so the argument array ends as it began. The statements hold for any float model `F`.
-/
import proofs.«120821_j73985106641253_2_alg».proof.Proof.Gen.Kernel.Launch
import proofs.«120821_j73985106641253_2_alg».proof.Proof.Gen.Kernel.Skeleton
import proofs.«120821_j73985106641253_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- a rectangle of 8000 rows: structural recursion over its long axis is deep
set_option maxRecDepth 16384

noncomputable section

namespace Cert.Kernel.Hash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The line of operations after the launch -/

/-- The sixteen stretches of tensor operations that follow the launch, in program order: @main's own lines
    alternate with the bodies of the functions it calls. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- A property of operations that holds along each of the sixteen stretches holds for every operation after the launch. -/
theorem tail_all {P : HloOp τ sig (Elt F) → Prop}
    (h0 : (hostOps1 : List (HloOp τ sig (Elt F))).Forall P)
    (h1 : (hostOps1_1 : List (HloOp τ sig (Elt F))).Forall P)
    (h2 : (hostOps1_2 : List (HloOp τ sig (Elt F))).Forall P)
    (h3 : (hostOps1_3 : List (HloOp τ sig (Elt F))).Forall P)
    (h4 : (hostOps1_4 : List (HloOp τ sig (Elt F))).Forall P)
    (h5 : (hostOps1_5 : List (HloOp τ sig (Elt F))).Forall P)
    (h6 : (hostOps1_6 : List (HloOp τ sig (Elt F))).Forall P)
    (h7 : (hostOps1_7 : List (HloOp τ sig (Elt F))).Forall P)
    (h8 : (hostOps1_8 : List (HloOp τ sig (Elt F))).Forall P)
    (h9 : (hostOps1_9 : List (HloOp τ sig (Elt F))).Forall P)
    (h10 : (hostOps1_10 : List (HloOp τ sig (Elt F))).Forall P)
    (h11 : (hostOps1_11 : List (HloOp τ sig (Elt F))).Forall P)
    (h12 : (hostOps1_12 : List (HloOp τ sig (Elt F))).Forall P)
    (h13 : (hostOps1_13 : List (HloOp τ sig (Elt F))).Forall P)
    (h14 : (hostOps1_14 : List (HloOp τ sig (Elt F))).Forall P)
    (h15 : (hostOps1_15 : List (HloOp τ sig (Elt F))).Forall P) :
    ∀ ops ∈ (tailOps : List (List (HloOp τ sig (Elt F)))), ∀ op ∈ ops, P op := by
  intro ops hops op hop
  simp only [tailOps, List.mem_cons, List.mem_nil_iff, or_false] at hops
  rcases hops with rfl | rfl | rfl | rfl | rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop
  · exact (List.forall_iff_forall_mem.mp h12) op hop
  · exact (List.forall_iff_forall_mem.mp h13) op hop
  · exact (List.forall_iff_forall_mem.mp h14) op hop
  · exact (List.forall_iff_forall_mem.mp h15) op hop

/-! Each stretch allocates nothing, and writes only result buffers of its own: never the argument array, nor
    either of the two arrays the launch produced (it only reads those). One statement per stretch. -/

theorem fresh_0 : (hostOps1 : List (HloOp τ sig (Elt F))).Forall fun op => op.fresh = ∅ := by
  simp only [List.Forall]; repeat' constructor
theorem fresh_1 : (hostOps1_1 : List (HloOp τ sig (Elt F))).Forall fun op => op.fresh = ∅ := by
  simp only [List.Forall]; repeat' constructor
theorem fresh_2 : (hostOps1_2 : List (HloOp τ sig (Elt F))).Forall fun op => op.fresh = ∅ := by
  simp only [List.Forall]; repeat' constructor
theorem fresh_3 : (hostOps1_3 : List (HloOp τ sig (Elt F))).Forall fun op => op.fresh = ∅ := by
  simp only [List.Forall]; repeat' constructor
theorem fresh_4 : (hostOps1_4 : List (HloOp τ sig (Elt F))).Forall fun op => op.fresh = ∅ := by
  simp only [List.Forall]; repeat' constructor
theorem fresh_5 : (hostOps1_5 : List (HloOp τ sig (Elt F))).Forall fun op => op.fresh = ∅ := by
  simp only [List.Forall]; repeat' constructor
theorem fresh_6 : (hostOps1_6 : List (HloOp τ sig (Elt F))).Forall fun op => op.fresh = ∅ := by
  simp only [List.Forall]; repeat' constructor
theorem fresh_7 : (hostOps1_7 : List (HloOp τ sig (Elt F))).Forall fun op => op.fresh = ∅ := by
  simp only [List.Forall]; repeat' constructor
theorem fresh_8 : (hostOps1_8 : List (HloOp τ sig (Elt F))).Forall fun op => op.fresh = ∅ := by
  simp only [List.Forall]; repeat' constructor
theorem fresh_9 : (hostOps1_9 : List (HloOp τ sig (Elt F))).Forall fun op => op.fresh = ∅ := by
  simp only [List.Forall]; repeat' constructor
theorem fresh_10 : (hostOps1_10 : List (HloOp τ sig (Elt F))).Forall fun op => op.fresh = ∅ := by
  simp only [List.Forall]; repeat' constructor
theorem fresh_11 : (hostOps1_11 : List (HloOp τ sig (Elt F))).Forall fun op => op.fresh = ∅ := by
  simp only [List.Forall]; repeat' constructor
theorem fresh_12 : (hostOps1_12 : List (HloOp τ sig (Elt F))).Forall fun op => op.fresh = ∅ := by
  simp only [List.Forall]; repeat' constructor
theorem fresh_13 : (hostOps1_13 : List (HloOp τ sig (Elt F))).Forall fun op => op.fresh = ∅ := by
  simp only [List.Forall]; repeat' constructor
theorem fresh_14 : (hostOps1_14 : List (HloOp τ sig (Elt F))).Forall fun op => op.fresh = ∅ := by
  simp only [List.Forall]; repeat' constructor
theorem fresh_15 : (hostOps1_15 : List (HloOp τ sig (Elt F))).Forall fun op => op.fresh = ∅ := by
  simp only [List.Forall]; repeat' constructor

theorem spares_0 : (hostOps1 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_1 : (hostOps1_1 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_1, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_2 : (hostOps1_2 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_2, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_3 : (hostOps1_3 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_3, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_4 : (hostOps1_4 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_4, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_5 : (hostOps1_5 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_5, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_6 : (hostOps1_6 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_6, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_7 : (hostOps1_7 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_7, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_8 : (hostOps1_8 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_8, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_9 : (hostOps1_9 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_9, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_10 : (hostOps1_10 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_10, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_11 : (hostOps1_11 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_11, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_12 : (hostOps1_12 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_12, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_13 : (hostOps1_13 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_13, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_14 : (hostOps1_14 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_14, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_15 : (hostOps1_15 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_15, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)

variable (m : (ℓ : Loc nD τ sig) → Buf (Elt F) ℓ) (ρ : Dev nD → PrngReg)

/-! ## What the launch finds -/

/-- Core `c`'s buffer contents when the launch is entered. No operation precedes the launch, so this is the fold of
    the empty line of operations over the contents the program was started with. -/
abbrev V0 (c : Dev nD) : Valuation τ sig (Elt F) :=
  StableHlo.after (List.flatten ([] : List (List (HloOp τ sig (Elt F))))) (fun b => m (c, b))
/-- The same, read at one reference of the core. -/
abbrev V (c : Dev nD) (b : Ref sig .tc) : Buf (Elt F) ((c : Thread nD τ).loc b) := V0 m c (Proc.devRef .tc b)

/-- Nothing ran before the launch: every buffer is as started. -/
theorem V_launch (c : Dev nD) (b : Ref sig .tc) : V m c b = m ((c : Thread nD τ).loc b) := rfl

/-- @main is the launch followed by the sixteen stretches: it reduces to the launch continued by them, entered at
    the starting contents. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial main_chain

/-! ## The three obligations on the later lines -/

/-- Every later operation touches only unscoped buffers of the core: the launch's three arrays, which it may read,
    and the buffers that bypass the launch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op
    (tail_all hostOps1_sub hostOps1_1_sub hostOps1_2_sub hostOps1_3_sub hostOps1_4_sub hostOps1_5_sub hostOps1_6_sub hostOps1_7_sub hostOps1_8_sub hostOps1_9_sub hostOps1_10_sub hostOps1_11_sub hostOps1_12_sub hostOps1_13_sub hostOps1_14_sub hostOps1_15_sub ops hops op hop)

/-- None allocates. -/
theorem tail_fresh : ∀ ops ∈ (tailOps : List (List (HloOp τ sig (Elt F)))), ∀ op ∈ ops, op.fresh = ∅ :=
  tail_all fresh_0 fresh_1 fresh_2 fresh_3 fresh_4 fresh_5 fresh_6 fresh_7 fresh_8 fresh_9 fresh_10 fresh_11 fresh_12 fresh_13 fresh_14 fresh_15

/-- None writes an array of the launch. -/
theorem tail_keeps : ∀ ops ∈ (tailOps : List (List (HloOp τ sig (Elt F)))), ∀ op ∈ ops,
    ∀ w, Proc.devRef .tc (Pipeline.arrRef spec0 w) ∉ op.writes := by
  intro ops hops op hop w
  have h := tail_all spares_0 spares_1 spares_2 spares_3 spares_4 spares_5 spares_6 spares_7 spares_8 spares_9 spares_10 spares_11 spares_12 spares_13 spares_14 spares_15 ops hops op hop
  fin_cases w
  · exact h.1
  · exact h.2.1
  · exact h.2.2

/-! ## The blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole rectangle of each of the three block shapes: the body's one load and two stores go through these. -/
abbrev ptsRect : Rect S8000x4 := Rect.unit (s := S8000x4) ![0, 0] S8000x4.size inb_S8000x4_S8000x4_0_0
abbrev coorRect : Rect S8000x3 := Rect.unit (s := S8000x3) ![0, 0] S8000x3.size inb_S8000x3_S8000x3_0_0
abbrev linRect : Rect S8000x1 := Rect.unit (s := S8000x1) ![0, 0] S8000x1.size inb_S8000x1_S8000x1_0_0

/-- The coordinate block the body leaves from a point block `x0`: its single whole-block store, whose value joins the
    three integer cell coordinates computed from the three spatial columns of the points. -/
def coorBlk (x0 : Vec F S8000x4 .f32) : Vec F S8000x3 .i32 :=
  View.canon [⟨coorRect, k0_pay1 (k0_pay3 (View.ld x0 ptsRect)) (k0_pay4 (View.ld x0 ptsRect)) (k0_pay5 (View.ld x0 ptsRect))⟩]

/-- The linear-index block the body leaves: its single whole-block store of the row-major cell index where the three
    coordinates are in range, and of the out-of-range marker elsewhere. -/
def linBlk (x0 : Vec F S8000x4 .f32) : Vec F S8000x1 .i32 :=
  View.canon [⟨linRect, k0_pay2 (k0_pay4 (View.ld x0 ptsRect)) (k0_pay5 (View.ld x0 ptsRect)) (k0_pay6 (View.ld x0 ptsRect)) (k0_pay7 (View.ld x0 ptsRect))⟩]

/-- One store through the whole rectangle covers the block, whatever is stored. -/
theorem coor_cover (p : Vec F S8000x3 .i32) (y : S8000x3.Idx) :
    ∃ pc ∈ ([⟨coorRect, p⟩] : List (View.Piece (Elt F) S8000x3 .i32)), y ∈ pc.1.set :=
  View.cover_of_tiled [⟨coorRect, p⟩] S8000x3.size (by rfl) y
theorem lin_cover (p : Vec F S8000x1 .i32) (y : S8000x1.Idx) :
    ∃ pc ∈ ([⟨linRect, p⟩] : List (View.Piece (Elt F) S8000x1 .i32)), y ∈ pc.1.set :=
  View.cover_of_tiled [⟨linRect, p⟩] S8000x1.size (by rfl) y

/-! ## The body's triple -/

set_option maxHeartbeats 2000000 in
/-- The kernel function on whole staging buffers — the points' at contents `x0`, the two outputs' at anything — returns
    holding the points' buffer unchanged and the outputs' at `coorBlk x0` and `linBlk x0`. The function is its skeleton
    (one load in the first part, then per output a load that is discarded and a whole-block store), which is run
    symbolically through the part call. -/
theorem body_triple (c : Dev nD) (E : Set ℕ) (i : grid0.Coords)
    (a1 : Memref sig .tc .vmem S8000x4 .f32) (ha1 : a1.IsWhole) (a2 : Memref sig .tc .vmem S8000x3 .i32) (ha2 : a2.IsWhole)
    (a3 : Memref sig .tc .vmem S8000x1 .i32) (ha3 : a3.IsWhole) (x0 : Vec F S8000x4 .f32) (K : PUnit → sProp 𝕄) :
    iprop(owns (c : Thread nD τ) a1 fullShare x0 ∗ (∃ d, owns (c : Thread nD τ) a2 fullShare d) ∗ (∃ d, owns (c : Thread nD τ) a3 fullShare d)
        ∗ (iprop(owns (c : Thread nD τ) a1 fullShare x0 ∗ owns (c : Thread nD τ) a2 fullShare (coorBlk x0)
            ∗ owns (c : Thread nD τ) a3 fullShare (linBlk x0)) -∗ K ⟨⟩))
      ⊢ wp frame (wpE (defs₀ (F := F)) Variants.none c none) E (cc0__hash_kernel i a1 ha1 a2 ha2 a3 ha3) K := by
  simp only [cc0__hash_kernel_eq_skeleton]; unfold cc0__hash_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr
    · ipureintro; rfl
    · iexact H0
  isplitl [H1]
  · iexists _; isplitr
    swap; · iexact H1
    ipureintro
    exact View.read_writes_eq_canon _ _ _ (coor_cover _)
  iexists _; isplitr
  swap; · iexact H2
  ipureintro
  exact View.read_writes_eq_canon _ _ _ (lin_cover _)

/-! ## The proof data of the launch -/

/-- On core `c`: the arrays as the launch finds them; after the body at point `t` the points' buffer still at its
    block and the two outputs' at `coorBlk` and `linBlk` of that block; the invariant is the launch's untouched rest;
    full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => coorBlk (iblk m c 0 t)
    | ⟨2, _⟩ => linBlk (iblk m c 0 t)
  Φ _ := Pipeline.ΦA spec0 c
  q _ := fullShare
  owed _ := 0

/-- The fields projected (never by unfolding the contents). -/
theorem A_eq (c : Dev nD) (w : Fin cfg0.W) : (dats m 0 c).A w = V m c (Pipeline.arrRef spec0 w) := by
  dsimp only [dats]
theorem after_pts (c : Dev nD) (t : Fin cfg0.N) : (dats m 0 c).after 0 t = iblk m c 0 t := by dsimp only [dats]
theorem after_coor (c : Dev nD) (t : Fin cfg0.N) : (dats m 0 c).after 1 t = coorBlk (iblk m c 0 t) := by dsimp only [dats]
theorem after_lin (c : Dev nD) (t : Fin cfg0.N) : (dats m 0 c).after 2 t = linBlk (iblk m c 0 t) := by dsimp only [dats]

/-- The points' staging buffer holds the point block at every grid point when the body is called: the window is an
    input, never idle, never clipped, and the body leaves it in place. -/
theorem before_pts (c : Dev nD) (t : Fin cfg0.N) (d) : (dats m 0 c).before 0 t d = iblk m c 0 t := by
  refine ((dats m 0 c).before_in_eq_fetched 0 rfl (fun _ => rfl) (fun _ _ _ => rfl) (fun t => ?_) t d).trans ?_
  · rw [after_pts]; unfold Dat.blockOf iblk; rw [A_eq]; try rfl
  · unfold Dat.fetched Dat.blockOf iblk; rw [A_eq]; try rfl

/-! ## The body obligation -/

/-- What the pipeline calls the body with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the triple applies: the points' buffer holds the block, the invariant and the core's debts pass
    through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pts]
  rw [show (dats m 0 c).Φ t.succ = (dats m 0 c).Φ t.castSucc from rfl,
    show (dats m 0 c).owesAt () t.succ = (dats m 0 c).owesAt () t.castSucc from rfl,
    after_pts, after_coor, after_lin]
  iintro ⟨HΦ, Ho, ⟨%d0, H0⟩, ⟨%d1, H1⟩, ⟨%d2, H2⟩⟩
  iapply (body_triple c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation on the body, at every point. -/
theorem body_obligation (c : Dev nD) : BodyObligation (dats (F := F) m 0 c) (defs₀ (F := F)) Variants.none () Set.univ := fun t => by
  rw [bigSep_W0, bigSep_W0]
  exact body_at m c t

/-! ## The run and the frame -/

-- the launch theorem's implicit arguments are solved against this statement, which unfolds definitions in types
set_option backward.isDefEq.respectTransparency.types false in
/-- From any memory with zero counters every weakly fair execution of @main terminates without fault; at the end each of
    the three arrays holds what the proof data computes (the argument its entry contents, each output its blocks
    written back point by point), and every other unscoped buffer what the later lines leave from there. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The later lines write no array of the launch, the argument among them: after them it reads as the launch left
    it, and the launch leaves an input array as it found it, which is as the program was started. -/
theorem tail_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact tail_keeps ops hops op hop' 0)]
  exact (Pipeline.withArrays_arr spec0 launch0.win.arr_inj c _ _ 0).trans
    (((dats m 0 c).arrAt_in 0 rfl _).trans ((A_eq m c 0).trans (V_launch m c main_arg0)))

/-- THE FRAME: every weakly fair execution terminates without fault and the argument array ends unchanged. It is one
    of the launch's arrays, an input: the run's post gives it at the proof data's final contents, which for an input
    are the entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans
    (((dats m 0 c).arrAt_in 0 rfl _).trans ((A_eq m c 0).trans (V_launch m c main_arg0)))) (run_main m ρ)

end Cert.Kernel.Hash

end
-- ==== Proof.HashFrameIdeal.lean ====
/-
  The frame of the voxel-hash program: one launch over 500 grid points, each staging a block of 8000 points
  (four floats each) and writing back a block of 8000 integer cell coordinates and a block of 8000 linear cell
  indices, followed by a long straight line of tensor operations that sort, scatter and gather those results.

  Nothing runs before the launch, so the launch finds every array as the program was started with. The body is
  pointwise: it loads the whole point block, and each output block ends as the single whole-block store of a
  pure function of that load. The operations after the launch only read the three staged arrays and write
  buffers of their own, so the argument array ends as it began. The statements hold for any float model `F`.
-/
import proofs.«120821_j73985106641253_2_alg».proof.Proof.Gen.KernelIdeal.Launch
import proofs.«120821_j73985106641253_2_alg».proof.Proof.Gen.KernelIdeal.Skeleton
import proofs.«120821_j73985106641253_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- a rectangle of 8000 rows: structural recursion over its long axis is deep
set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The line of operations after the launch -/

/-- The sixteen stretches of tensor operations that follow the launch, in program order: @main's own lines
    alternate with the bodies of the functions it calls. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- A property of operations that holds along each of the sixteen stretches holds for every operation after the launch. -/
theorem tail_all {P : HloOp τ sig (Elt F) → Prop}
    (h0 : (hostOps1 : List (HloOp τ sig (Elt F))).Forall P)
    (h1 : (hostOps1_1 : List (HloOp τ sig (Elt F))).Forall P)
    (h2 : (hostOps1_2 : List (HloOp τ sig (Elt F))).Forall P)
    (h3 : (hostOps1_3 : List (HloOp τ sig (Elt F))).Forall P)
    (h4 : (hostOps1_4 : List (HloOp τ sig (Elt F))).Forall P)
    (h5 : (hostOps1_5 : List (HloOp τ sig (Elt F))).Forall P)
    (h6 : (hostOps1_6 : List (HloOp τ sig (Elt F))).Forall P)
    (h7 : (hostOps1_7 : List (HloOp τ sig (Elt F))).Forall P)
    (h8 : (hostOps1_8 : List (HloOp τ sig (Elt F))).Forall P)
    (h9 : (hostOps1_9 : List (HloOp τ sig (Elt F))).Forall P)
    (h10 : (hostOps1_10 : List (HloOp τ sig (Elt F))).Forall P)
    (h11 : (hostOps1_11 : List (HloOp τ sig (Elt F))).Forall P)
    (h12 : (hostOps1_12 : List (HloOp τ sig (Elt F))).Forall P)
    (h13 : (hostOps1_13 : List (HloOp τ sig (Elt F))).Forall P)
    (h14 : (hostOps1_14 : List (HloOp τ sig (Elt F))).Forall P)
    (h15 : (hostOps1_15 : List (HloOp τ sig (Elt F))).Forall P) :
    ∀ ops ∈ (tailOps : List (List (HloOp τ sig (Elt F)))), ∀ op ∈ ops, P op := by
  intro ops hops op hop
  simp only [tailOps, List.mem_cons, List.mem_nil_iff, or_false] at hops
  rcases hops with rfl | rfl | rfl | rfl | rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop
  · exact (List.forall_iff_forall_mem.mp h12) op hop
  · exact (List.forall_iff_forall_mem.mp h13) op hop
  · exact (List.forall_iff_forall_mem.mp h14) op hop
  · exact (List.forall_iff_forall_mem.mp h15) op hop

/-! Each stretch allocates nothing, and writes only result buffers of its own: never the argument array, nor
    either of the two arrays the launch produced (it only reads those). One statement per stretch. -/

theorem fresh_0 : (hostOps1 : List (HloOp τ sig (Elt F))).Forall fun op => op.fresh = ∅ := by
  simp only [List.Forall]; repeat' constructor
theorem fresh_1 : (hostOps1_1 : List (HloOp τ sig (Elt F))).Forall fun op => op.fresh = ∅ := by
  simp only [List.Forall]; repeat' constructor
theorem fresh_2 : (hostOps1_2 : List (HloOp τ sig (Elt F))).Forall fun op => op.fresh = ∅ := by
  simp only [List.Forall]; repeat' constructor
theorem fresh_3 : (hostOps1_3 : List (HloOp τ sig (Elt F))).Forall fun op => op.fresh = ∅ := by
  simp only [List.Forall]; repeat' constructor
theorem fresh_4 : (hostOps1_4 : List (HloOp τ sig (Elt F))).Forall fun op => op.fresh = ∅ := by
  simp only [List.Forall]; repeat' constructor
theorem fresh_5 : (hostOps1_5 : List (HloOp τ sig (Elt F))).Forall fun op => op.fresh = ∅ := by
  simp only [List.Forall]; repeat' constructor
theorem fresh_6 : (hostOps1_6 : List (HloOp τ sig (Elt F))).Forall fun op => op.fresh = ∅ := by
  simp only [List.Forall]; repeat' constructor
theorem fresh_7 : (hostOps1_7 : List (HloOp τ sig (Elt F))).Forall fun op => op.fresh = ∅ := by
  simp only [List.Forall]; repeat' constructor
theorem fresh_8 : (hostOps1_8 : List (HloOp τ sig (Elt F))).Forall fun op => op.fresh = ∅ := by
  simp only [List.Forall]; repeat' constructor
theorem fresh_9 : (hostOps1_9 : List (HloOp τ sig (Elt F))).Forall fun op => op.fresh = ∅ := by
  simp only [List.Forall]; repeat' constructor
theorem fresh_10 : (hostOps1_10 : List (HloOp τ sig (Elt F))).Forall fun op => op.fresh = ∅ := by
  simp only [List.Forall]; repeat' constructor
theorem fresh_11 : (hostOps1_11 : List (HloOp τ sig (Elt F))).Forall fun op => op.fresh = ∅ := by
  simp only [List.Forall]; repeat' constructor
theorem fresh_12 : (hostOps1_12 : List (HloOp τ sig (Elt F))).Forall fun op => op.fresh = ∅ := by
  simp only [List.Forall]; repeat' constructor
theorem fresh_13 : (hostOps1_13 : List (HloOp τ sig (Elt F))).Forall fun op => op.fresh = ∅ := by
  simp only [List.Forall]; repeat' constructor
theorem fresh_14 : (hostOps1_14 : List (HloOp τ sig (Elt F))).Forall fun op => op.fresh = ∅ := by
  simp only [List.Forall]; repeat' constructor
theorem fresh_15 : (hostOps1_15 : List (HloOp τ sig (Elt F))).Forall fun op => op.fresh = ∅ := by
  simp only [List.Forall]; repeat' constructor

theorem spares_0 : (hostOps1 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_1 : (hostOps1_1 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_1, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_2 : (hostOps1_2 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_2, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_3 : (hostOps1_3 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_3, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_4 : (hostOps1_4 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_4, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_5 : (hostOps1_5 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_5, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_6 : (hostOps1_6 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_6, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_7 : (hostOps1_7 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_7, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_8 : (hostOps1_8 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_8, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_9 : (hostOps1_9 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_9, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_10 : (hostOps1_10 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_10, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_11 : (hostOps1_11 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_11, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_12 : (hostOps1_12 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_12, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_13 : (hostOps1_13 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_13, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_14 : (hostOps1_14 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_14, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem spares_15 : (hostOps1_15 : List (HloOp τ sig (Elt F))).Forall fun op =>
    Proc.devRef (τ := τ) .tc (Pipeline.arrRef spec0 0) ∉ op.writes ∧ Proc.devRef (τ := τ) .tc (Pipeline.arrRef spec0 1) ∉ op.writes
      ∧ Proc.devRef (τ := τ) .tc (Pipeline.arrRef spec0 2) ∉ op.writes := by
  simp only [List.Forall, hostOps1_15, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)

variable (m : (ℓ : Loc nD τ sig) → Buf (Elt F) ℓ) (ρ : Dev nD → PrngReg)

/-! ## What the launch finds -/

/-- Core `c`'s buffer contents when the launch is entered. No operation precedes the launch, so this is the fold of
    the empty line of operations over the contents the program was started with. -/
abbrev V0 (c : Dev nD) : Valuation τ sig (Elt F) :=
  StableHlo.after (List.flatten ([] : List (List (HloOp τ sig (Elt F))))) (fun b => m (c, b))
/-- The same, read at one reference of the core. -/
abbrev V (c : Dev nD) (b : Ref sig .tc) : Buf (Elt F) ((c : Thread nD τ).loc b) := V0 m c (Proc.devRef .tc b)

/-- Nothing ran before the launch: every buffer is as started. -/
theorem V_launch (c : Dev nD) (b : Ref sig .tc) : V m c b = m ((c : Thread nD τ).loc b) := rfl

/-- @main is the launch followed by the sixteen stretches: it reduces to the launch continued by them, entered at
    the starting contents. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial main_chain

/-! ## The three obligations on the later lines -/

/-- Every later operation touches only unscoped buffers of the core: the launch's three arrays, which it may read,
    and the buffers that bypass the launch. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op
    (tail_all hostOps1_sub hostOps1_1_sub hostOps1_2_sub hostOps1_3_sub hostOps1_4_sub hostOps1_5_sub hostOps1_6_sub hostOps1_7_sub hostOps1_8_sub hostOps1_9_sub hostOps1_10_sub hostOps1_11_sub hostOps1_12_sub hostOps1_13_sub hostOps1_14_sub hostOps1_15_sub ops hops op hop)

/-- None allocates. -/
theorem tail_fresh : ∀ ops ∈ (tailOps : List (List (HloOp τ sig (Elt F)))), ∀ op ∈ ops, op.fresh = ∅ :=
  tail_all fresh_0 fresh_1 fresh_2 fresh_3 fresh_4 fresh_5 fresh_6 fresh_7 fresh_8 fresh_9 fresh_10 fresh_11 fresh_12 fresh_13 fresh_14 fresh_15

/-- None writes an array of the launch. -/
theorem tail_keeps : ∀ ops ∈ (tailOps : List (List (HloOp τ sig (Elt F)))), ∀ op ∈ ops,
    ∀ w, Proc.devRef .tc (Pipeline.arrRef spec0 w) ∉ op.writes := by
  intro ops hops op hop w
  have h := tail_all spares_0 spares_1 spares_2 spares_3 spares_4 spares_5 spares_6 spares_7 spares_8 spares_9 spares_10 spares_11 spares_12 spares_13 spares_14 spares_15 ops hops op hop
  fin_cases w
  · exact h.1
  · exact h.2.1
  · exact h.2.2

/-! ## The blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole rectangle of each of the three block shapes: the body's one load and two stores go through these. -/
abbrev ptsRect : Rect S8000x4 := Rect.unit (s := S8000x4) ![0, 0] S8000x4.size inb_S8000x4_S8000x4_0_0
abbrev coorRect : Rect S8000x3 := Rect.unit (s := S8000x3) ![0, 0] S8000x3.size inb_S8000x3_S8000x3_0_0
abbrev linRect : Rect S8000x1 := Rect.unit (s := S8000x1) ![0, 0] S8000x1.size inb_S8000x1_S8000x1_0_0

/-- The coordinate block the body leaves from a point block `x0`: its single whole-block store, whose value joins the
    three integer cell coordinates computed from the three spatial columns of the points. -/
def coorBlk (x0 : Vec F S8000x4 .f32) : Vec F S8000x3 .i32 :=
  View.canon [⟨coorRect, k0_pay1 (k0_pay3 (View.ld x0 ptsRect)) (k0_pay4 (View.ld x0 ptsRect)) (k0_pay5 (View.ld x0 ptsRect))⟩]

/-- The linear-index block the body leaves: its single whole-block store of the row-major cell index where the three
    coordinates are in range, and of the out-of-range marker elsewhere. -/
def linBlk (x0 : Vec F S8000x4 .f32) : Vec F S8000x1 .i32 :=
  View.canon [⟨linRect, k0_pay2 (k0_pay4 (View.ld x0 ptsRect)) (k0_pay5 (View.ld x0 ptsRect)) (k0_pay6 (View.ld x0 ptsRect)) (k0_pay7 (View.ld x0 ptsRect))⟩]

/-- One store through the whole rectangle covers the block, whatever is stored. -/
theorem coor_cover (p : Vec F S8000x3 .i32) (y : S8000x3.Idx) :
    ∃ pc ∈ ([⟨coorRect, p⟩] : List (View.Piece (Elt F) S8000x3 .i32)), y ∈ pc.1.set :=
  View.cover_of_tiled [⟨coorRect, p⟩] S8000x3.size (by rfl) y
theorem lin_cover (p : Vec F S8000x1 .i32) (y : S8000x1.Idx) :
    ∃ pc ∈ ([⟨linRect, p⟩] : List (View.Piece (Elt F) S8000x1 .i32)), y ∈ pc.1.set :=
  View.cover_of_tiled [⟨linRect, p⟩] S8000x1.size (by rfl) y

/-! ## The body's triple -/

set_option maxHeartbeats 2000000 in
/-- The kernel function on whole staging buffers — the points' at contents `x0`, the two outputs' at anything — returns
    holding the points' buffer unchanged and the outputs' at `coorBlk x0` and `linBlk x0`. The function is its skeleton
    (one load in the first part, then per output a load that is discarded and a whole-block store), which is run
    symbolically through the part call. -/
theorem body_triple (c : Dev nD) (E : Set ℕ) (i : grid0.Coords)
    (a1 : Memref sig .tc .vmem S8000x4 .f32) (ha1 : a1.IsWhole) (a2 : Memref sig .tc .vmem S8000x3 .i32) (ha2 : a2.IsWhole)
    (a3 : Memref sig .tc .vmem S8000x1 .i32) (ha3 : a3.IsWhole) (x0 : Vec F S8000x4 .f32) (K : PUnit → sProp 𝕄) :
    iprop(owns (c : Thread nD τ) a1 fullShare x0 ∗ (∃ d, owns (c : Thread nD τ) a2 fullShare d) ∗ (∃ d, owns (c : Thread nD τ) a3 fullShare d)
        ∗ (iprop(owns (c : Thread nD τ) a1 fullShare x0 ∗ owns (c : Thread nD τ) a2 fullShare (coorBlk x0)
            ∗ owns (c : Thread nD τ) a3 fullShare (linBlk x0)) -∗ K ⟨⟩))
      ⊢ wp frame (wpE (defs₀ (F := F)) Variants.none c none) E (cc0__hash_kernel i a1 ha1 a2 ha2 a3 ha3) K := by
  simp only [cc0__hash_kernel_eq_skeleton]; unfold cc0__hash_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr
    · ipureintro; rfl
    · iexact H0
  isplitl [H1]
  · iexists _; isplitr
    swap; · iexact H1
    ipureintro
    exact View.read_writes_eq_canon _ _ _ (coor_cover _)
  iexists _; isplitr
  swap; · iexact H2
  ipureintro
  exact View.read_writes_eq_canon _ _ _ (lin_cover _)

/-! ## The proof data of the launch -/

/-- On core `c`: the arrays as the launch finds them; after the body at point `t` the points' buffer still at its
    block and the two outputs' at `coorBlk` and `linBlk` of that block; the invariant is the launch's untouched rest;
    full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => coorBlk (iblk m c 0 t)
    | ⟨2, _⟩ => linBlk (iblk m c 0 t)
  Φ _ := Pipeline.ΦA spec0 c
  q _ := fullShare
  owed _ := 0

/-- The fields projected (never by unfolding the contents). -/
theorem A_eq (c : Dev nD) (w : Fin cfg0.W) : (dats m 0 c).A w = V m c (Pipeline.arrRef spec0 w) := by
  dsimp only [dats]
theorem after_pts (c : Dev nD) (t : Fin cfg0.N) : (dats m 0 c).after 0 t = iblk m c 0 t := by dsimp only [dats]
theorem after_coor (c : Dev nD) (t : Fin cfg0.N) : (dats m 0 c).after 1 t = coorBlk (iblk m c 0 t) := by dsimp only [dats]
theorem after_lin (c : Dev nD) (t : Fin cfg0.N) : (dats m 0 c).after 2 t = linBlk (iblk m c 0 t) := by dsimp only [dats]

/-- The points' staging buffer holds the point block at every grid point when the body is called: the window is an
    input, never idle, never clipped, and the body leaves it in place. -/
theorem before_pts (c : Dev nD) (t : Fin cfg0.N) (d) : (dats m 0 c).before 0 t d = iblk m c 0 t := by
  refine ((dats m 0 c).before_in_eq_fetched 0 rfl (fun _ => rfl) (fun _ _ _ => rfl) (fun t => ?_) t d).trans ?_
  · rw [after_pts]; unfold Dat.blockOf iblk; rw [A_eq]; try rfl
  · unfold Dat.fetched Dat.blockOf iblk; rw [A_eq]; try rfl

/-! ## The body obligation -/

/-- What the pipeline calls the body with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the triple applies: the points' buffer holds the block, the invariant and the core's debts pass
    through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pts]
  rw [show (dats m 0 c).Φ t.succ = (dats m 0 c).Φ t.castSucc from rfl,
    show (dats m 0 c).owesAt () t.succ = (dats m 0 c).owesAt () t.castSucc from rfl,
    after_pts, after_coor, after_lin]
  iintro ⟨HΦ, Ho, ⟨%d0, H0⟩, ⟨%d1, H1⟩, ⟨%d2, H2⟩⟩
  iapply (body_triple c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation on the body, at every point. -/
theorem body_obligation (c : Dev nD) : BodyObligation (dats (F := F) m 0 c) (defs₀ (F := F)) Variants.none () Set.univ := fun t => by
  rw [bigSep_W0, bigSep_W0]
  exact body_at m c t

/-! ## The run and the frame -/

-- the launch theorem's implicit arguments are solved against this statement, which unfolds definitions in types
set_option backward.isDefEq.respectTransparency.types false in
/-- From any memory with zero counters every weakly fair execution of @main terminates without fault; at the end each of
    the three arrays holds what the proof data computes (the argument its entry contents, each output its blocks
    written back point by point), and every other unscoped buffer what the later lines leave from there. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The later lines write no array of the launch, the argument among them: after them it reads as the launch left
    it, and the launch leaves an input array as it found it, which is as the program was started. -/
theorem tail_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact tail_keeps ops hops op hop' 0)]
  exact (Pipeline.withArrays_arr spec0 launch0.win.arr_inj c _ _ 0).trans
    (((dats m 0 c).arrAt_in 0 rfl _).trans ((A_eq m c 0).trans (V_launch m c main_arg0)))

/-- THE FRAME: every weakly fair execution terminates without fault and the argument array ends unchanged. It is one
    of the launch's arrays, an input: the run's post gives it at the proof data's final contents, which for an input
    are the entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans
    (((dats m 0 c).arrAt_in 0 rfl _).trans ((A_eq m c 0).trans (V_launch m c main_arg0)))) (run_main m ρ)

end Cert.KernelIdeal.Hash

end
-- ==== Proof.RefOps.lean ====
import proofs.«120821_j73985106641253_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! # The reference program as one straight line

The reference computes, for four million points, the cell each point falls into, ranks the points
inside their cells and the occupied cells among themselves, and scatters the points, the cell
coordinates and the per-cell counts into tables with one row for each of the first forty thousand
occupied cells. Its entry function is straight-line: every
statement is one whole-array operation writing one buffer of its own, and each call of an outlined
function (a masked choice, a running sum, a stable sort by key, a running maximum) stands for that
function's statements run on the call's own buffers. Read this way the function is a LIST of
operations, and running it is folding the list over the device's buffer contents.

The list is cut in two at the operation that yields each point's linear cell index (the masked
choice writing `main_v28`): `opsHead` ends with it, `opsTail` is everything after it. -/

/-- The statements from the first through the one that writes each point's linear cell index
    (`main_v28`): the quantisation of the three coordinates, the in-range mask, the linear index
    `500·x + y + z`, and the masked choice between it and the sentinel `220000`. -/
abbrev opsHead : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),
    StableHlo.unary main_cst main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F)),
    StableHlo.binary main_v0 main_v2 main_v3 (subf : (⟨S4000000x3, .f32⟩ : BufTy).Contents (Elt F) → (⟨S4000000x3, .f32⟩ : BufTy).Contents (Elt F) → (⟨S4000000x3, .f32⟩ : BufTy).Contents (Elt F)),
    StableHlo.unary main_cst_0 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S4000000x3 ![0, 1] bcast_S1x3_S4000000x3_0_1 : (⟨S1x3, .f32⟩ : BufTy).Contents (Elt F) → (⟨S4000000x3, .f32⟩ : BufTy).Contents (Elt F)),
    StableHlo.binary main_v3 main_v5 main_v6 (Host.divf : (⟨S4000000x3, .f32⟩ : BufTy).Contents (Elt F) → (⟨S4000000x3, .f32⟩ : BufTy).Contents (Elt F) → (⟨S4000000x3, .f32⟩ : BufTy).Contents (Elt F)),
    StableHlo.unary main_v6 main_v7 (Host.floor : (⟨S4000000x3, .f32⟩ : BufTy).Contents (Elt F) → (⟨S4000000x3, .f32⟩ : BufTy).Contents (Elt F)),
    StableHlo.unary main_v7 main_v8 (fptosi 32 : (⟨S4000000x3, .f32⟩ : BufTy).Contents (Elt F) → (⟨S4000000x3, .i32⟩ : BufTy).Contents (Elt F)),
    StableHlo.nullary main_c_1 (constantI S_ 32 0#32),
    StableHlo.unary main_c_1 main_v9 (broadcastInDim S4000000x3 ![] bcast_S_S4000000x3 : (⟨S_, .i32⟩ : BufTy).Contents (Elt F) → (⟨S4000000x3, .i32⟩ : BufTy).Contents (Elt F)),
    StableHlo.binary main_v8 main_v9 main_v10 (cmpi .sge : (⟨S4000000x3, .i32⟩ : BufTy).Contents (Elt F) → (⟨S4000000x3, .i32⟩ : BufTy).Contents (Elt F) → (⟨S4000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)),
    StableHlo.unary main_v11 main_v12 (broadcastInDim S4000000x3 ![0, 1] bcast_S1x3_S4000000x3_0_1 : (⟨S1x3, .i32⟩ : BufTy).Contents (Elt F) → (⟨S4000000x3, .i32⟩ : BufTy).Contents (Elt F)),
    StableHlo.binary main_v8 main_v12 main_v13 (cmpi .slt : (⟨S4000000x3, .i32⟩ : BufTy).Contents (Elt F) → (⟨S4000000x3, .i32⟩ : BufTy).Contents (Elt F) → (⟨S4000000x3, .i1⟩ : BufTy).Contents (Elt F)),
    StableHlo.binary main_v10 main_v13 main_v14 (andi : (⟨S4000000x3, .i1⟩ : BufTy).Contents (Elt F) → (⟨S4000000x3, .i1⟩ : BufTy).Contents (Elt F) → (⟨S4000000x3, .i1⟩ : BufTy).Contents (Elt F)),
    StableHlo.nullary main_c_2 (constantI S_ 1 1#1),
    StableHlo.binary main_v14 main_c_2 main_v15 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)),
    StableHlo.unary main_v8 main_v16 ((extractStridedSlice S4000000x1 ![0, 0] · slices_S4000000x3_S4000000x1_0_0) : (⟨S4000000x3, .i32⟩ : BufTy).Contents (Elt F) → (⟨S4000000x1, .i32⟩ : BufTy).Contents (Elt F)),
    StableHlo.reshape main_v16 main_v17 rfl shapeCasts_S4000000x1_S4000000,
    StableHlo.nullary main_c_3 (constantI S_ 32 500#32),
    StableHlo.unary main_c_3 main_v18 (broadcastInDim S4000000 ![] bcast_S_S4000000 : (⟨S_, .i32⟩ : BufTy).Contents (Elt F) → (⟨S4000000, .i32⟩ : BufTy).Contents (Elt F)),
    StableHlo.binary main_v17 main_v18 main_v19 (muli : (⟨S4000000, .i32⟩ : BufTy).Contents (Elt F) → (⟨S4000000, .i32⟩ : BufTy).Contents (Elt F) → (⟨S4000000, .i32⟩ : BufTy).Contents (Elt F)),
    StableHlo.unary main_v8 main_v20 ((extractStridedSlice S4000000x1 ![0, 1] · slices_S4000000x3_S4000000x1_0_1) : (⟨S4000000x3, .i32⟩ : BufTy).Contents (Elt F) → (⟨S4000000x1, .i32⟩ : BufTy).Contents (Elt F)),
    StableHlo.reshape main_v20 main_v21 rfl shapeCasts_S4000000x1_S4000000,
    StableHlo.nullary main_c_4 (constantI S_ 32 1#32),
    StableHlo.unary main_c_4 main_v22 (broadcastInDim S4000000 ![] bcast_S_S4000000 : (⟨S_, .i32⟩ : BufTy).Contents (Elt F) → (⟨S4000000, .i32⟩ : BufTy).Contents (Elt F)),
    StableHlo.binary main_v21 main_v22 main_v23 (muli : (⟨S4000000, .i32⟩ : BufTy).Contents (Elt F) → (⟨S4000000, .i32⟩ : BufTy).Contents (Elt F) → (⟨S4000000, .i32⟩ : BufTy).Contents (Elt F)),
    StableHlo.binary main_v19 main_v23 main_v24 (addi : (⟨S4000000, .i32⟩ : BufTy).Contents (Elt F) → (⟨S4000000, .i32⟩ : BufTy).Contents (Elt F) → (⟨S4000000, .i32⟩ : BufTy).Contents (Elt F)),
    StableHlo.unary main_v8 main_v25 ((extractStridedSlice S4000000x1 ![0, 2] · slices_S4000000x3_S4000000x1_0_2) : (⟨S4000000x3, .i32⟩ : BufTy).Contents (Elt F) → (⟨S4000000x1, .i32⟩ : BufTy).Contents (Elt F)),
    StableHlo.reshape main_v25 main_v26 rfl shapeCasts_S4000000x1_S4000000,
    StableHlo.binary main_v24 main_v26 main_v27 (addi : (⟨S4000000, .i32⟩ : BufTy).Contents (Elt F) → (⟨S4000000, .i32⟩ : BufTy).Contents (Elt F) → (⟨S4000000, .i32⟩ : BufTy).Contents (Elt F)),
    StableHlo.nullary main_c_5 (constantI S_ 32 220000#32),
    StableHlo.TRef.unary (.of main_c_5 : StableHlo.TRef sig ⟨S_, .i32⟩) main_call0.v0 id,
    StableHlo.TRef.unary main_call0.v0 main_call0.v1 (broadcastInDim S4000000 ![] bcast_S_S4000000),
    StableHlo.TRef.ternary (.of main_v15 : StableHlo.TRef sig ⟨S4000000, .i1⟩) (.of main_v27 : StableHlo.TRef sig ⟨S4000000, .i32⟩) main_call0.v1 main_call0.v2 select ]

/-- Every later statement, in order: the first point of each cell (a scatter-minimum and a gather),
    the rank of each occupied cell (a running sum), the stable sort of the points by cell, the
    position of each point inside its run of equal keys (a running maximum of run starts, scattered
    back to the points' own order), the scatters of the points, the cell coordinates and the
    per-cell counts into tables of forty thousand and one rows with their final slices, and the
    number of cells kept. -/
abbrev opsTail : List (HloOp τ sig (Elt F)) :=
  [ StableHlo.nullary main_v29 (iotaInDim S4000000 32 0),
    StableHlo.nullary main_c_6 (constantI S_ 32 4000000#32),
    StableHlo.TRef.unary (.of main_c_6 : StableHlo.TRef sig ⟨S_, .i32⟩) main_call1.v0 id,
    StableHlo.TRef.unary main_call1.v0 main_call1.v1 (broadcastInDim S4000000 ![] bcast_S_S4000000),
    StableHlo.TRef.ternary (.of main_v15 : StableHlo.TRef sig ⟨S4000000, .i1⟩) (.of main_v29 : StableHlo.TRef sig ⟨S4000000, .i32⟩) main_call1.v1 main_call1.v2 select,
    StableHlo.nullary main_c_7 (constantI S_ 32 2147483647#32),
    StableHlo.unary main_c_7 main_v31 (broadcastInDim S220001 ![] bcast_S_S220001 : (⟨S_, .i32⟩ : BufTy).Contents (Elt F) → (⟨S220001, .i32⟩ : BufTy).Contents (Elt F)),
    StableHlo.unary main_v28 main_v32 (broadcastInDim S4000000x1 ![0] bcast_S4000000_S4000000x1_0 : (⟨S4000000, .i32⟩ : BufTy).Contents (Elt F) → (⟨S4000000x1, .i32⟩ : BufTy).Contents (Elt F)),
    StableHlo.ternary main_v31 main_v32 main_v30 main_v33 ((fun x i u => Host.scatter scatter_S220001_S4000000x1_S4000000_n_0_0_1 IntOp.minsi x i u) : (⟨S220001, .i32⟩ : BufTy).Contents (Elt F) → (⟨S4000000x1, .i32⟩ : BufTy).Contents (Elt F) → (⟨S4000000, .i32⟩ : BufTy).Contents (Elt F) → (⟨S220001, .i32⟩ : BufTy).Contents (Elt F)),
    StableHlo.nullary main_c_8 (constantI S_ 32 0#32),
    StableHlo.unary main_c_8 main_v34 (broadcastInDim S4000000 ![] bcast_S_S4000000 : (⟨S_, .i32⟩ : BufTy).Contents (Elt F) → (⟨S4000000, .i32⟩ : BufTy).Contents (Elt F)),
    StableHlo.binary main_v28 main_v34 main_v35 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 220001#32),
    StableHlo.unary main_c_9 main_v36 (broadcastInDim S4000000 ![] bcast_S_S4000000 : (⟨S_, .i32⟩ : BufTy).Contents (Elt F) → (⟨S4000000, .i32⟩ : BufTy).Contents (Elt F)),
    StableHlo.binary main_v28 main_v36 main_v37 (addi : (⟨S4000000, .i32⟩ : BufTy).Contents (Elt F) → (⟨S4000000, .i32⟩ : BufTy).Contents (Elt F) → (⟨S4000000, .i32⟩ : BufTy).Contents (Elt F)),
    StableHlo.ternary main_v35 main_v37 main_v28 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v38 main_v39 (broadcastInDim S4000000x1 ![0] bcast_S4000000_S4000000x1_0 : (⟨S4000000, .i32⟩ : BufTy).Contents (Elt F) → (⟨S4000000x1, .i32⟩ : BufTy).Contents (Elt F)),
    StableHlo.binary main_v33 main_v39 main_v40 ((fun x i => Host.gather gather_S220001_S4000000x1_S4000000_n_0_n_n_0_1_1 x i) : (⟨S220001, .i32⟩ : BufTy).Contents (Elt F) → (⟨S4000000x1, .i32⟩ : BufTy).Contents (Elt F) → (⟨S4000000, .i32⟩ : BufTy).Contents (Elt F)),
    StableHlo.nullary main_c_10 (constantI S_ 32 3999999#32),
    StableHlo.unary main_c_10 main_v41 (broadcastInDim S4000000 ![] bcast_S_S4000000 : (⟨S_, .i32⟩ : BufTy).Contents (Elt F) → (⟨S4000000, .i32⟩ : BufTy).Contents (Elt F)),
    StableHlo.binary main_v40 main_v41 main_v42 (minsi : (⟨S4000000, .i32⟩ : BufTy).Contents (Elt F) → (⟨S4000000, .i32⟩ : BufTy).Contents (Elt F) → (⟨S4000000, .i32⟩ : BufTy).Contents (Elt F)),
    StableHlo.binary main_v29 main_v42 main_v43 (cmpi .eq : (⟨S4000000, .i32⟩ : BufTy).Contents (Elt F) → (⟨S4000000, .i32⟩ : BufTy).Contents (Elt F) → (⟨S4000000, .i1⟩ : BufTy).Contents (Elt F)),
    StableHlo.binary main_v15 main_v43 main_v44 (andi : (⟨S4000000, .i1⟩ : BufTy).Contents (Elt F) → (⟨S4000000, .i1⟩ : BufTy).Contents (Elt F) → (⟨S4000000, .i1⟩ : BufTy).Contents (Elt F)),
    StableHlo.unary main_v44 main_v45 ((extui 32 · natLt_1_32) : (⟨S4000000, .i1⟩ : BufTy).Contents (Elt F) → (⟨S4000000, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v45 : StableHlo.TRef sig ⟨S4000000, .i32⟩) main_call2.call0.v0 main_call2.call0.v1 (fun x v => Host.reduceWindow IntOp.addi ![4000000] ![1] ![3999999] ![0] x v reduceWindows_S4000000_S4000000_w4000000s1p3999999_0 h_S_),
    StableHlo.nullary main_c_11 (constantI S_ 32 1#32),
    StableHlo.unary main_c_11 main_v47 (broadcastInDim S4000000 ![] bcast_S_S4000000 : (⟨S_, .i32⟩ : BufTy).Contents (Elt F) → (⟨S4000000, .i32⟩ : BufTy).Contents (Elt F)),
    StableHlo.binary main_v46 main_v47 main_v48 (subi : (⟨S4000000, .i32⟩ : BufTy).Contents (Elt F) → (⟨S4000000, .i32⟩ : BufTy).Contents (Elt F) → (⟨S4000000, .i32⟩ : BufTy).Contents (Elt F)),
    StableHlo.nullary main_c_12 (constantI S_ 32 0#32),
    StableHlo.unary main_c_12 main_v49 (broadcastInDim S4000000 ![] bcast_S_S4000000 : (⟨S_, .i32⟩ : BufTy).Contents (Elt F) → (⟨S4000000, .i32⟩ : BufTy).Contents (Elt F)),
    StableHlo.binary main_v42 main_v49 main_v50 (cmpi .slt : (⟨S4000000, .i32⟩ : BufTy).Contents (Elt F) → (⟨S4000000, .i32⟩ : BufTy).Contents (Elt F) → (⟨S4000000, .i1⟩ : BufTy).Contents (Elt F)),
    StableHlo.nullary main_c_13 (constantI S_ 32 4000000#32),
    StableHlo.unary main_c_13 main_v51 (broadcastInDim S4000000 ![] bcast_S_S4000000 : (⟨S_, .i32⟩ : BufTy).Contents (Elt F) → (⟨S4000000, .i32⟩ : BufTy).Contents (Elt F)),
    StableHlo.binary main_v42 main_v51 main_v52 (addi : (⟨S4000000, .i32⟩ : BufTy).Contents (Elt F) → (⟨S4000000, .i32⟩ : BufTy).Contents (Elt F) → (⟨S4000000, .i32⟩ : BufTy).Contents (Elt F)),
    StableHlo.ternary main_v50 main_v52 main_v42 main_v53 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v53 main_v54 (broadcastInDim S4000000x1 ![0] bcast_S4000000_S4000000x1_0 : (⟨S4000000, .i32⟩ : BufTy).Contents (Elt F) → (⟨S4000000x1, .i32⟩ : BufTy).Contents (Elt F)),
    StableHlo.binary main_v48 main_v54 main_v55 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.TRef.nullary main_call3.v0 (iotaInDim S4000000 32 0),
    StableHlo.TRef.binary (.of main_v28 : StableHlo.TRef sig ⟨S4000000, .i32⟩) main_call3.v0 main_call3.v1_0 (fun x y => (Host.sort2 S4000000 0 comparator_i32_i32_d0 x y).1),
    StableHlo.TRef.binary (.of main_v28 : StableHlo.TRef sig ⟨S4000000, .i32⟩) main_call3.v0 main_call3.v1_1 (fun x y => (Host.sort2 S4000000 0 comparator_i32_i32_d0 x y).2),
    StableHlo.nullary main_c_14 (constantI S_ 32 0#32),
    StableHlo.unary main_c_14 main_v57 (broadcastInDim S4000000 ![] bcast_S_S4000000 : (⟨S_, .i32⟩ : BufTy).Contents (Elt F) → (⟨S4000000, .i32⟩ : BufTy).Contents (Elt F)),
    StableHlo.binary main_v56 main_v57 main_v58 (cmpi .slt : (⟨S4000000, .i32⟩ : BufTy).Contents (Elt F) → (⟨S4000000, .i32⟩ : BufTy).Contents (Elt F) → (⟨S4000000, .i1⟩ : BufTy).Contents (Elt F)),
    StableHlo.nullary main_c_15 (constantI S_ 32 4000000#32),
    StableHlo.unary main_c_15 main_v59 (broadcastInDim S4000000 ![] bcast_S_S4000000 : (⟨S_, .i32⟩ : BufTy).Contents (Elt F) → (⟨S4000000, .i32⟩ : BufTy).Contents (Elt F)),
    StableHlo.binary main_v56 main_v59 main_v60 (addi : (⟨S4000000, .i32⟩ : BufTy).Contents (Elt F) → (⟨S4000000, .i32⟩ : BufTy).Contents (Elt F) → (⟨S4000000, .i32⟩ : BufTy).Contents (Elt F)),
    StableHlo.ternary main_v58 main_v60 main_v56 main_v61 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v61 main_v62 (broadcastInDim S4000000x1 ![0] bcast_S4000000_S4000000x1_0 : (⟨S4000000, .i32⟩ : BufTy).Contents (Elt F) → (⟨S4000000x1, .i32⟩ : BufTy).Contents (Elt F)),
    StableHlo.binary main_v28 main_v62 main_v63 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_v64 (iotaInDim S4000000 32 0),
    StableHlo.nullary main_c_16 (constantI S_ 1 1#1),
    StableHlo.unary main_c_16 main_v65 (broadcastInDim S1 ![] bcast_S_S1 : (⟨S_, .i1⟩ : BufTy).Contents (Elt F) → (⟨S1, .i1⟩ : BufTy).Contents (Elt F)),
    StableHlo.unary main_v63 main_v66 ((extractStridedSlice S3999999 ![1] · slices_S4000000_S3999999_1) : (⟨S4000000, .i32⟩ : BufTy).Contents (Elt F) → (⟨S3999999, .i32⟩ : BufTy).Contents (Elt F)),
    StableHlo.unary main_v63 main_v67 ((extractStridedSlice S3999999 ![0] · slices_S4000000_S3999999_0) : (⟨S4000000, .i32⟩ : BufTy).Contents (Elt F) → (⟨S3999999, .i32⟩ : BufTy).Contents (Elt F)),
    StableHlo.binary main_v66 main_v67 main_v68 (cmpi .ne : (⟨S3999999, .i32⟩ : BufTy).Contents (Elt F) → (⟨S3999999, .i32⟩ : BufTy).Contents (Elt F) → (⟨S3999999, .i1⟩ : BufTy).Contents (Elt F)),
    StableHlo.binary main_v65 main_v68 main_v69 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),
    StableHlo.nullary main_c_17 (constantI S_ 32 0#32),
    StableHlo.TRef.unary (.of main_c_17 : StableHlo.TRef sig ⟨S_, .i32⟩) main_call4.v0 id,
    StableHlo.TRef.unary main_call4.v0 main_call4.v1 (broadcastInDim S4000000 ![] bcast_S_S4000000),
    StableHlo.TRef.ternary (.of main_v69 : StableHlo.TRef sig ⟨S4000000, .i1⟩) (.of main_v64 : StableHlo.TRef sig ⟨S4000000, .i32⟩) main_call4.v1 main_call4.v2 select,
    StableHlo.TRef.nullary main_call5.c (constantI S_ 32 2147483648#32),
    StableHlo.TRef.unary main_call5.c main_call5.v0 (broadcastInDim S_ ![] bcast_S_S_),
    StableHlo.TRef.binary (.of main_v70 : StableHlo.TRef sig ⟨S4000000, .i32⟩) main_call5.v0 main_call5.v1 (fun x v => Host.reduceWindow IntOp.maxsi ![4000000] ![1] ![3999999] ![0] x v reduceWindows_S4000000_S4000000_w4000000s1p3999999_0 h_S_),
    StableHlo.nullary main_c_18 (constantI S_ 32 0#32),
    StableHlo.unary main_c_18 main_v72 (broadcastInDim S4000000 ![] bcast_S_S4000000 : (⟨S_, .i32⟩ : BufTy).Contents (Elt F) → (⟨S4000000, .i32⟩ : BufTy).Contents (Elt F)),
    StableHlo.binary main_v64 main_v71 main_v73 (subi : (⟨S4000000, .i32⟩ : BufTy).Contents (Elt F) → (⟨S4000000, .i32⟩ : BufTy).Contents (Elt F) → (⟨S4000000, .i32⟩ : BufTy).Contents (Elt F)),
    StableHlo.nullary main_c_19 (constantI S_ 32 0#32),
    StableHlo.unary main_c_19 main_v74 (broadcastInDim S4000000 ![] bcast_S_S4000000 : (⟨S_, .i32⟩ : BufTy).Contents (Elt F) → (⟨S4000000, .i32⟩ : BufTy).Contents (Elt F)),
    StableHlo.binary main_v56 main_v74 main_v75 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 4000000#32),
    StableHlo.unary main_c_20 main_v76 (broadcastInDim S4000000 ![] bcast_S_S4000000 : (⟨S_, .i32⟩ : BufTy).Contents (Elt F) → (⟨S4000000, .i32⟩ : BufTy).Contents (Elt F)),
    StableHlo.binary main_v56 main_v76 main_v77 (addi : (⟨S4000000, .i32⟩ : BufTy).Contents (Elt F) → (⟨S4000000, .i32⟩ : BufTy).Contents (Elt F) → (⟨S4000000, .i32⟩ : BufTy).Contents (Elt F)),
    StableHlo.ternary main_v75 main_v77 main_v56 main_v78 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v78 main_v79 (broadcastInDim S4000000x1 ![0] bcast_S4000000_S4000000x1_0 : (⟨S4000000, .i32⟩ : BufTy).Contents (Elt F) → (⟨S4000000x1, .i32⟩ : BufTy).Contents (Elt F)),
    StableHlo.ternary main_v72 main_v79 main_v73 main_v80 ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.nullary main_c_21 (constantI S_ 32 40000#32),
    StableHlo.unary main_c_21 main_v81 (broadcastInDim S4000000 ![] bcast_S_S4000000 : (⟨S_, .i32⟩ : BufTy).Contents (Elt F) → (⟨S4000000, .i32⟩ : BufTy).Contents (Elt F)),
    StableHlo.binary main_v55 main_v81 main_v82 (cmpi .slt : (⟨S4000000, .i32⟩ : BufTy).Contents (Elt F) → (⟨S4000000, .i32⟩ : BufTy).Contents (Elt F) → (⟨S4000000, .i1⟩ : BufTy).Contents (Elt F)),
    StableHlo.binary main_v15 main_v82 main_v83 (andi : (⟨S4000000, .i1⟩ : BufTy).Contents (Elt F) → (⟨S4000000, .i1⟩ : BufTy).Contents (Elt F) → (⟨S4000000, .i1⟩ : BufTy).Contents (Elt F)),
    StableHlo.nullary main_c_22 (constantI S_ 32 32#32),
    StableHlo.unary main_c_22 main_v84 (broadcastInDim S4000000 ![] bcast_S_S4000000 : (⟨S_, .i32⟩ : BufTy).Contents (Elt F) → (⟨S4000000, .i32⟩ : BufTy).Contents (Elt F)),
    StableHlo.binary main_v80 main_v84 main_v85 (cmpi .slt : (⟨S4000000, .i32⟩ : BufTy).Contents (Elt F) → (⟨S4000000, .i32⟩ : BufTy).Contents (Elt F) → (⟨S4000000, .i1⟩ : BufTy).Contents (Elt F)),
    StableHlo.binary main_v83 main_v85 main_v86 (andi : (⟨S4000000, .i1⟩ : BufTy).Contents (Elt F) → (⟨S4000000, .i1⟩ : BufTy).Contents (Elt F) → (⟨S4000000, .i1⟩ : BufTy).Contents (Elt F)),
    StableHlo.nullary main_c_23 (constantI S_ 32 40000#32),
    StableHlo.TRef.unary (.of main_c_23 : StableHlo.TRef sig ⟨S_, .i32⟩) main_call6.v0 id,
    StableHlo.TRef.unary main_call6.v0 main_call6.v1 (broadcastInDim S4000000 ![] bcast_S_S4000000),
    StableHlo.TRef.ternary (.of main_v86 : StableHlo.TRef sig ⟨S4000000, .i1⟩) (.of main_v55 : StableHlo.TRef sig ⟨S4000000, .i32⟩) main_call6.v1 main_call6.v2 select,
    StableHlo.nullary main_c_24 (constantI S_ 32 0#32),
    StableHlo.TRef.unary (.of main_c_24 : StableHlo.TRef sig ⟨S_, .i32⟩) main_call7.v0 id,
    StableHlo.TRef.unary main_call7.v0 main_call7.v1 (broadcastInDim S4000000 ![] bcast_S_S4000000),
    StableHlo.TRef.ternary (.of main_v86 : StableHlo.TRef sig ⟨S4000000, .i1⟩) (.of main_v80 : StableHlo.TRef sig ⟨S4000000, .i32⟩) main_call7.v1 main_call7.v2 select,
    StableHlo.nullary main_cst_25 (constant S_ .f32 0x00000000#32),
    StableHlo.unary main_cst_25 main_v89 (broadcastInDim S40001x32x4 ![] bcast_S_S40001x32x4 : (⟨S_, .f32⟩ : BufTy).Contents (Elt F) → (⟨S40001x32x4, .f32⟩ : BufTy).Contents (Elt F)),
    StableHlo.nullary main_c_26 (constantI S_ 32 0#32),
    StableHlo.unary main_c_26 main_v90 (broadcastInDim S4000000 ![] bcast_S_S4000000 : (⟨S_, .i32⟩ : BufTy).Contents (Elt F) → (⟨S4000000, .i32⟩ : BufTy).Contents (Elt F)),
    StableHlo.binary main_v87 main_v90 main_v91 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 40001#32),
    StableHlo.unary main_c_27 main_v92 (broadcastInDim S4000000 ![] bcast_S_S4000000 : (⟨S_, .i32⟩ : BufTy).Contents (Elt F) → (⟨S4000000, .i32⟩ : BufTy).Contents (Elt F)),
    StableHlo.binary main_v87 main_v92 main_v93 (addi : (⟨S4000000, .i32⟩ : BufTy).Contents (Elt F) → (⟨S4000000, .i32⟩ : BufTy).Contents (Elt F) → (⟨S4000000, .i32⟩ : BufTy).Contents (Elt F)),
    StableHlo.ternary main_v91 main_v93 main_v87 main_v94 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_28 (constantI S_ 32 0#32),
    StableHlo.unary main_c_28 main_v95 (broadcastInDim S4000000 ![] bcast_S_S4000000 : (⟨S_, .i32⟩ : BufTy).Contents (Elt F) → (⟨S4000000, .i32⟩ : BufTy).Contents (Elt F)),
    StableHlo.binary main_v88 main_v95 main_v96 (cmpi .slt : (⟨S4000000, .i32⟩ : BufTy).Contents (Elt F) → (⟨S4000000, .i32⟩ : BufTy).Contents (Elt F) → (⟨S4000000, .i1⟩ : BufTy).Contents (Elt F)),
    StableHlo.nullary main_c_29 (constantI S_ 32 32#32),
    StableHlo.unary main_c_29 main_v97 (broadcastInDim S4000000 ![] bcast_S_S4000000 : (⟨S_, .i32⟩ : BufTy).Contents (Elt F) → (⟨S4000000, .i32⟩ : BufTy).Contents (Elt F)),
    StableHlo.binary main_v88 main_v97 main_v98 (addi : (⟨S4000000, .i32⟩ : BufTy).Contents (Elt F) → (⟨S4000000, .i32⟩ : BufTy).Contents (Elt F) → (⟨S4000000, .i32⟩ : BufTy).Contents (Elt F)),
    StableHlo.ternary main_v96 main_v98 main_v88 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v94 main_v100 (broadcastInDim S4000000x1 ![0] bcast_S4000000_S4000000x1_0 : (⟨S4000000, .i32⟩ : BufTy).Contents (Elt F) → (⟨S4000000x1, .i32⟩ : BufTy).Contents (Elt F)),
    StableHlo.unary main_v99 main_v101 (broadcastInDim S4000000x1 ![0] bcast_S4000000_S4000000x1_0 : (⟨S4000000, .i32⟩ : BufTy).Contents (Elt F) → (⟨S4000000x1, .i32⟩ : BufTy).Contents (Elt F)),
    StableHlo.binary main_v100 main_v101 main_v102 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v89 main_v102 main_arg0 main_v103 ((fun x i u => Host.scatter scatter_S40001x32x4_S4000000x2_S4000000x4_1_01_01_1 (fun _ b => b) x i u) : (⟨S40001x32x4, .f32⟩ : BufTy).Contents (Elt F) → (⟨S4000000x2, .i32⟩ : BufTy).Contents (Elt F) → (⟨S4000000x4, .f32⟩ : BufTy).Contents (Elt F) → (⟨S40001x32x4, .f32⟩ : BufTy).Contents (Elt F)),
    StableHlo.unary main_v103 main_v104 ((extractStridedSlice S40000x32x4 ![0, 0, 0] · slices_S40001x32x4_S40000x32x4_0_0_0) : (⟨S40001x32x4, .f32⟩ : BufTy).Contents (Elt F) → (⟨S40000x32x4, .f32⟩ : BufTy).Contents (Elt F)),
    StableHlo.nullary main_c_30 (constantI S_ 32 40000#32),
    StableHlo.unary main_c_30 main_v105 (broadcastInDim S4000000 ![] bcast_S_S4000000 : (⟨S_, .i32⟩ : BufTy).Contents (Elt F) → (⟨S4000000, .i32⟩ : BufTy).Contents (Elt F)),
    StableHlo.binary main_v55 main_v105 main_v106 (cmpi .slt : (⟨S4000000, .i32⟩ : BufTy).Contents (Elt F) → (⟨S4000000, .i32⟩ : BufTy).Contents (Elt F) → (⟨S4000000, .i1⟩ : BufTy).Contents (Elt F)),
    StableHlo.binary main_v44 main_v106 main_v107 (andi : (⟨S4000000, .i1⟩ : BufTy).Contents (Elt F) → (⟨S4000000, .i1⟩ : BufTy).Contents (Elt F) → (⟨S4000000, .i1⟩ : BufTy).Contents (Elt F)),
    StableHlo.nullary main_c_31 (constantI S_ 32 40000#32),
    StableHlo.TRef.unary (.of main_c_31 : StableHlo.TRef sig ⟨S_, .i32⟩) main_call8.v0 id,
    StableHlo.TRef.unary main_call8.v0 main_call8.v1 (broadcastInDim S4000000 ![] bcast_S_S4000000),
    StableHlo.TRef.ternary (.of main_v107 : StableHlo.TRef sig ⟨S4000000, .i1⟩) (.of main_v55 : StableHlo.TRef sig ⟨S4000000, .i32⟩) main_call8.v1 main_call8.v2 select,
    StableHlo.nullary main_c_32 (constantI S_ 32 0#32),
    StableHlo.unary main_c_32 main_v109 (broadcastInDim S40001x3 ![] bcast_S_S40001x3 : (⟨S_, .i32⟩ : BufTy).Contents (Elt F) → (⟨S40001x3, .i32⟩ : BufTy).Contents (Elt F)),
    StableHlo.nullary main_c_33 (constantI S_ 32 0#32),
    StableHlo.unary main_c_33 main_v110 (broadcastInDim S4000000 ![] bcast_S_S4000000 : (⟨S_, .i32⟩ : BufTy).Contents (Elt F) → (⟨S4000000, .i32⟩ : BufTy).Contents (Elt F)),
    StableHlo.binary main_v108 main_v110 main_v111 (cmpi .slt : (⟨S4000000, .i32⟩ : BufTy).Contents (Elt F) → (⟨S4000000, .i32⟩ : BufTy).Contents (Elt F) → (⟨S4000000, .i1⟩ : BufTy).Contents (Elt F)),
    StableHlo.nullary main_c_34 (constantI S_ 32 40001#32),
    StableHlo.unary main_c_34 main_v112 (broadcastInDim S4000000 ![] bcast_S_S4000000 : (⟨S_, .i32⟩ : BufTy).Contents (Elt F) → (⟨S4000000, .i32⟩ : BufTy).Contents (Elt F)),
    StableHlo.binary main_v108 main_v112 main_v113 (addi : (⟨S4000000, .i32⟩ : BufTy).Contents (Elt F) → (⟨S4000000, .i32⟩ : BufTy).Contents (Elt F) → (⟨S4000000, .i32⟩ : BufTy).Contents (Elt F)),
    StableHlo.ternary main_v111 main_v113 main_v108 main_v114 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v114 main_v115 (broadcastInDim S4000000x1 ![0] bcast_S4000000_S4000000x1_0 : (⟨S4000000, .i32⟩ : BufTy).Contents (Elt F) → (⟨S4000000x1, .i32⟩ : BufTy).Contents (Elt F)),
    StableHlo.ternary main_v109 main_v115 main_v8 main_v116 ((fun x i u => Host.scatter scatter_S40001x3_S4000000x1_S4000000x3_1_0_0_1 (fun _ b => b) x i u) : (⟨S40001x3, .i32⟩ : BufTy).Contents (Elt F) → (⟨S4000000x1, .i32⟩ : BufTy).Contents (Elt F) → (⟨S4000000x3, .i32⟩ : BufTy).Contents (Elt F) → (⟨S40001x3, .i32⟩ : BufTy).Contents (Elt F)),
    StableHlo.unary main_v116 main_v117 ((extractStridedSlice S40000x3 ![0, 0] · slices_S40001x3_S40000x3_0_0) : (⟨S40001x3, .i32⟩ : BufTy).Contents (Elt F) → (⟨S40000x3, .i32⟩ : BufTy).Contents (Elt F)),
    StableHlo.nullary main_c_35 (constantI S_ 32 0#32),
    StableHlo.unary main_c_35 main_v118 (broadcastInDim S40001 ![] bcast_S_S40001 : (⟨S_, .i32⟩ : BufTy).Contents (Elt F) → (⟨S40001, .i32⟩ : BufTy).Contents (Elt F)),
    StableHlo.unary main_v86 main_v119 ((extui 32 · natLt_1_32) : (⟨S4000000, .i1⟩ : BufTy).Contents (Elt F) → (⟨S4000000, .i32⟩ : BufTy).Contents (Elt F)),
    StableHlo.nullary main_c_36 (constantI S_ 32 0#32),
    StableHlo.unary main_c_36 main_v120 (broadcastInDim S4000000 ![] bcast_S_S4000000 : (⟨S_, .i32⟩ : BufTy).Contents (Elt F) → (⟨S4000000, .i32⟩ : BufTy).Contents (Elt F)),
    StableHlo.binary main_v87 main_v120 main_v121 (cmpi .slt : (⟨S4000000, .i32⟩ : BufTy).Contents (Elt F) → (⟨S4000000, .i32⟩ : BufTy).Contents (Elt F) → (⟨S4000000, .i1⟩ : BufTy).Contents (Elt F)),
    StableHlo.nullary main_c_37 (constantI S_ 32 40001#32),
    StableHlo.unary main_c_37 main_v122 (broadcastInDim S4000000 ![] bcast_S_S4000000 : (⟨S_, .i32⟩ : BufTy).Contents (Elt F) → (⟨S4000000, .i32⟩ : BufTy).Contents (Elt F)),
    StableHlo.binary main_v87 main_v122 main_v123 (addi : (⟨S4000000, .i32⟩ : BufTy).Contents (Elt F) → (⟨S4000000, .i32⟩ : BufTy).Contents (Elt F) → (⟨S4000000, .i32⟩ : BufTy).Contents (Elt F)),
    StableHlo.ternary main_v121 main_v123 main_v87 main_v124 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v124 main_v125 (broadcastInDim S4000000x1 ![0] bcast_S4000000_S4000000x1_0 : (⟨S4000000, .i32⟩ : BufTy).Contents (Elt F) → (⟨S4000000x1, .i32⟩ : BufTy).Contents (Elt F)),
    StableHlo.ternary main_v118 main_v125 main_v119 main_v126 ((fun x i u => Host.scatter scatter_S40001_S4000000x1_S4000000_n_0_0_1 IntOp.addi x i u) : (⟨S40001, .i32⟩ : BufTy).Contents (Elt F) → (⟨S4000000x1, .i32⟩ : BufTy).Contents (Elt F) → (⟨S4000000, .i32⟩ : BufTy).Contents (Elt F) → (⟨S40001, .i32⟩ : BufTy).Contents (Elt F)),
    StableHlo.unary main_v126 main_v127 ((extractStridedSlice S40000 ![0] · slices_S40001_S40000_0) : (⟨S40001, .i32⟩ : BufTy).Contents (Elt F) → (⟨S40000, .i32⟩ : BufTy).Contents (Elt F)),
    StableHlo.unary main_v107 main_v128 ((extui 32 · natLt_1_32) : (⟨S4000000, .i1⟩ : BufTy).Contents (Elt F) → (⟨S4000000, .i32⟩ : BufTy).Contents (Elt F)),
    StableHlo.nullary main_c_38 (constantI S_ 32 0#32),
    StableHlo.binary main_v128 main_c_38 main_v129 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)) ]

/-- The whole entry function. -/
abbrev ops : List (HloOp τ sig (Elt F)) := opsHead ++ opsTail

/-- The entry function is that line: its three consecutive windows and the outlined functions
    unfold, statement by statement, to the same chain of single-operation steps (sequencing is
    associative and the empty return is its unit, both by computation on a concrete chain). -/
theorem main_eq (c : Dev nD) : main (F := F) c = seq ops := rfl

/-- Every buffer an operation of the head touches is one of the core's own references. -/
theorem opsHead_sub : (opsHead : List (HloOp τ sig (Elt F))).Forall fun op => op.bufs ⊆ tcRefs τ sig :=
  ⟨nullary_bufs_sub .., nullary_bufs_sub .., nullary_bufs_sub .., unary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., unary_bufs_sub .., unary_bufs_sub .., binary_bufs_sub ..,
    binary_bufs_sub .., nullary_bufs_sub .., binary_bufs_sub .., unary_bufs_sub .., reshape_bufs_sub .., nullary_bufs_sub ..,
    unary_bufs_sub .., binary_bufs_sub .., unary_bufs_sub .., reshape_bufs_sub .., nullary_bufs_sub .., unary_bufs_sub ..,
    binary_bufs_sub .., binary_bufs_sub .., unary_bufs_sub .., reshape_bufs_sub .., binary_bufs_sub .., nullary_bufs_sub ..,
    unary_bufs_sub .., unary_bufs_sub .., ternary_bufs_sub ..⟩

/-- The same for the tail. -/
theorem opsTail_sub : (opsTail : List (HloOp τ sig (Elt F))).Forall fun op => op.bufs ⊆ tcRefs τ sig :=
  ⟨nullary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., binary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., nullary_bufs_sub .., unary_bufs_sub ..,
    unary_bufs_sub .., unary_bufs_sub .., binary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., ternary_bufs_sub .., unary_bufs_sub ..,
    nullary_bufs_sub .., unary_bufs_sub .., binary_bufs_sub .., binary_bufs_sub .., nullary_bufs_sub .., unary_bufs_sub ..,
    unary_bufs_sub .., ternary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    ternary_bufs_sub .., unary_bufs_sub .., nullary_bufs_sub .., unary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., unary_bufs_sub .., unary_bufs_sub .., nullary_bufs_sub .., binary_bufs_sub ..⟩

theorem ops_sub : (ops : List (HloOp τ sig (Elt F))).Forall fun op => op.bufs ⊆ tcRefs τ sig :=
  List.forall_append.mpr ⟨opsHead_sub, opsTail_sub⟩

/-- Every operation determines all it writes: none leaves a buffer at unspecified contents. -/
theorem ops_fresh : ∀ op ∈ (ops : List (HloOp τ sig (Elt F))), op.fresh = ∅ :=
  List.forall_iff_forall_mem.mp (List.forall_append.mpr
    ⟨(
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩ : (opsHead : List (HloOp τ sig (Elt F))).Forall fun op => op.fresh = ∅),
     (
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl⟩ : (opsTail : List (HloOp τ sig (Elt F))).Forall fun op => op.fresh = ∅)⟩)

/-- A reference other than `y` is not in the one-element set of `y`'s buffer. -/
theorem not_in_single {r y : Ref sig .tc} (h : r ≠ y) :
    (Proc.devRef (τ := τ) .tc r) ∉ ({Proc.devRef .tc y} : Finset (DevRef τ sig)) :=
  Finset.notMem_singleton.mpr (devRef_ne_of_ne h)

/-- No operation of the head writes the argument array: each writes exactly its own result buffer,
    a reference different from the argument's. -/
theorem opsHead_keeps_arg0 :
    (opsHead : List (HloOp τ sig (Elt F))).Forall fun op => (main_arg0 : DevRef τ sig) ∉ op.writes :=
  ⟨not_in_single (y := main_cst) (by decide), not_in_single (y := main_cst_0) (by decide), not_in_single (y := main_c) (by decide),
    not_in_single (y := main_v0) (by decide), not_in_single (y := main_v1) (by decide), not_in_single (y := main_v2) (by decide),
    not_in_single (y := main_v3) (by decide), not_in_single (y := main_v4) (by decide), not_in_single (y := main_v5) (by decide),
    not_in_single (y := main_v6) (by decide), not_in_single (y := main_v7) (by decide), not_in_single (y := main_v8) (by decide),
    not_in_single (y := main_c_1) (by decide), not_in_single (y := main_v9) (by decide), not_in_single (y := main_v10) (by decide),
    not_in_single (y := main_v11) (by decide), not_in_single (y := main_v12) (by decide), not_in_single (y := main_v13) (by decide),
    not_in_single (y := main_v14) (by decide), not_in_single (y := main_c_2) (by decide), not_in_single (y := main_v15) (by decide),
    not_in_single (y := main_v16) (by decide), not_in_single (y := main_v17) (by decide), not_in_single (y := main_c_3) (by decide),
    not_in_single (y := main_v18) (by decide), not_in_single (y := main_v19) (by decide), not_in_single (y := main_v20) (by decide),
    not_in_single (y := main_v21) (by decide), not_in_single (y := main_c_4) (by decide), not_in_single (y := main_v22) (by decide),
    not_in_single (y := main_v23) (by decide), not_in_single (y := main_v24) (by decide), not_in_single (y := main_v25) (by decide),
    not_in_single (y := main_v26) (by decide), not_in_single (y := main_v27) (by decide), not_in_single (y := main_c_5) (by decide),
    not_in_single (y := main_call0.v0.ref) (by decide), not_in_single (y := main_call0.v1.ref) (by decide), not_in_single (y := main_call0.v2.ref) (by decide)⟩

/-- The same for the tail. -/
theorem opsTail_keeps_arg0 :
    (opsTail : List (HloOp τ sig (Elt F))).Forall fun op => (main_arg0 : DevRef τ sig) ∉ op.writes :=
  ⟨not_in_single (y := main_v29) (by decide), not_in_single (y := main_c_6) (by decide), not_in_single (y := main_call1.v0.ref) (by decide),
    not_in_single (y := main_call1.v1.ref) (by decide), not_in_single (y := main_call1.v2.ref) (by decide), not_in_single (y := main_c_7) (by decide),
    not_in_single (y := main_v31) (by decide), not_in_single (y := main_v32) (by decide), not_in_single (y := main_v33) (by decide),
    not_in_single (y := main_c_8) (by decide), not_in_single (y := main_v34) (by decide), not_in_single (y := main_v35) (by decide),
    not_in_single (y := main_c_9) (by decide), not_in_single (y := main_v36) (by decide), not_in_single (y := main_v37) (by decide),
    not_in_single (y := main_v38) (by decide), not_in_single (y := main_v39) (by decide), not_in_single (y := main_v40) (by decide),
    not_in_single (y := main_c_10) (by decide), not_in_single (y := main_v41) (by decide), not_in_single (y := main_v42) (by decide),
    not_in_single (y := main_v43) (by decide), not_in_single (y := main_v44) (by decide), not_in_single (y := main_v45) (by decide),
    not_in_single (y := main_call2.call0.c.ref) (by decide), not_in_single (y := main_call2.call0.v0.ref) (by decide), not_in_single (y := main_call2.call0.v1.ref) (by decide),
    not_in_single (y := main_c_11) (by decide), not_in_single (y := main_v47) (by decide), not_in_single (y := main_v48) (by decide),
    not_in_single (y := main_c_12) (by decide), not_in_single (y := main_v49) (by decide), not_in_single (y := main_v50) (by decide),
    not_in_single (y := main_c_13) (by decide), not_in_single (y := main_v51) (by decide), not_in_single (y := main_v52) (by decide),
    not_in_single (y := main_v53) (by decide), not_in_single (y := main_v54) (by decide), not_in_single (y := main_v55) (by decide),
    not_in_single (y := main_call3.v0.ref) (by decide), not_in_single (y := main_call3.v1_0.ref) (by decide), not_in_single (y := main_call3.v1_1.ref) (by decide),
    not_in_single (y := main_c_14) (by decide), not_in_single (y := main_v57) (by decide), not_in_single (y := main_v58) (by decide),
    not_in_single (y := main_c_15) (by decide), not_in_single (y := main_v59) (by decide), not_in_single (y := main_v60) (by decide),
    not_in_single (y := main_v61) (by decide), not_in_single (y := main_v62) (by decide), not_in_single (y := main_v63) (by decide),
    not_in_single (y := main_v64) (by decide), not_in_single (y := main_c_16) (by decide), not_in_single (y := main_v65) (by decide),
    not_in_single (y := main_v66) (by decide), not_in_single (y := main_v67) (by decide), not_in_single (y := main_v68) (by decide),
    not_in_single (y := main_v69) (by decide), not_in_single (y := main_c_17) (by decide), not_in_single (y := main_call4.v0.ref) (by decide),
    not_in_single (y := main_call4.v1.ref) (by decide), not_in_single (y := main_call4.v2.ref) (by decide), not_in_single (y := main_call5.c.ref) (by decide),
    not_in_single (y := main_call5.v0.ref) (by decide), not_in_single (y := main_call5.v1.ref) (by decide), not_in_single (y := main_c_18) (by decide),
    not_in_single (y := main_v72) (by decide), not_in_single (y := main_v73) (by decide), not_in_single (y := main_c_19) (by decide),
    not_in_single (y := main_v74) (by decide), not_in_single (y := main_v75) (by decide), not_in_single (y := main_c_20) (by decide),
    not_in_single (y := main_v76) (by decide), not_in_single (y := main_v77) (by decide), not_in_single (y := main_v78) (by decide),
    not_in_single (y := main_v79) (by decide), not_in_single (y := main_v80) (by decide), not_in_single (y := main_c_21) (by decide),
    not_in_single (y := main_v81) (by decide), not_in_single (y := main_v82) (by decide), not_in_single (y := main_v83) (by decide),
    not_in_single (y := main_c_22) (by decide), not_in_single (y := main_v84) (by decide), not_in_single (y := main_v85) (by decide),
    not_in_single (y := main_v86) (by decide), not_in_single (y := main_c_23) (by decide), not_in_single (y := main_call6.v0.ref) (by decide),
    not_in_single (y := main_call6.v1.ref) (by decide), not_in_single (y := main_call6.v2.ref) (by decide), not_in_single (y := main_c_24) (by decide),
    not_in_single (y := main_call7.v0.ref) (by decide), not_in_single (y := main_call7.v1.ref) (by decide), not_in_single (y := main_call7.v2.ref) (by decide),
    not_in_single (y := main_cst_25) (by decide), not_in_single (y := main_v89) (by decide), not_in_single (y := main_c_26) (by decide),
    not_in_single (y := main_v90) (by decide), not_in_single (y := main_v91) (by decide), not_in_single (y := main_c_27) (by decide),
    not_in_single (y := main_v92) (by decide), not_in_single (y := main_v93) (by decide), not_in_single (y := main_v94) (by decide),
    not_in_single (y := main_c_28) (by decide), not_in_single (y := main_v95) (by decide), not_in_single (y := main_v96) (by decide),
    not_in_single (y := main_c_29) (by decide), not_in_single (y := main_v97) (by decide), not_in_single (y := main_v98) (by decide),
    not_in_single (y := main_v99) (by decide), not_in_single (y := main_v100) (by decide), not_in_single (y := main_v101) (by decide),
    not_in_single (y := main_v102) (by decide), not_in_single (y := main_v103) (by decide), not_in_single (y := main_v104) (by decide),
    not_in_single (y := main_c_30) (by decide), not_in_single (y := main_v105) (by decide), not_in_single (y := main_v106) (by decide),
    not_in_single (y := main_v107) (by decide), not_in_single (y := main_c_31) (by decide), not_in_single (y := main_call8.v0.ref) (by decide),
    not_in_single (y := main_call8.v1.ref) (by decide), not_in_single (y := main_call8.v2.ref) (by decide), not_in_single (y := main_c_32) (by decide),
    not_in_single (y := main_v109) (by decide), not_in_single (y := main_c_33) (by decide), not_in_single (y := main_v110) (by decide),
    not_in_single (y := main_v111) (by decide), not_in_single (y := main_c_34) (by decide), not_in_single (y := main_v112) (by decide),
    not_in_single (y := main_v113) (by decide), not_in_single (y := main_v114) (by decide), not_in_single (y := main_v115) (by decide),
    not_in_single (y := main_v116) (by decide), not_in_single (y := main_v117) (by decide), not_in_single (y := main_c_35) (by decide),
    not_in_single (y := main_v118) (by decide), not_in_single (y := main_v119) (by decide), not_in_single (y := main_c_36) (by decide),
    not_in_single (y := main_v120) (by decide), not_in_single (y := main_v121) (by decide), not_in_single (y := main_c_37) (by decide),
    not_in_single (y := main_v122) (by decide), not_in_single (y := main_v123) (by decide), not_in_single (y := main_v124) (by decide),
    not_in_single (y := main_v125) (by decide), not_in_single (y := main_v126) (by decide), not_in_single (y := main_v127) (by decide),
    not_in_single (y := main_v128) (by decide), not_in_single (y := main_c_38) (by decide), not_in_single (y := main_v129) (by decide)⟩

theorem ops_keeps_arg0 : ∀ op ∈ (ops : List (HloOp τ sig (Elt F))), (main_arg0 : DevRef τ sig) ∉ op.writes :=
  List.forall_iff_forall_mem.mp (List.forall_append.mpr ⟨opsHead_keeps_arg0, opsTail_keeps_arg0⟩)

end Cert.ReferenceIdeal.Hand

end
-- ==== Proof.RefRun.lean ====
import proofs.«120821_j73985106641253_2_alg».proof.Proof.RefOps
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! # Running the reference

Folding the line of operations over the launch contents gives the contents every buffer ends
with; the argument array is written by none of them, so it ends as it began. -/

/-- The whole line folds as the tail over the head: a fold over two lines in a row is the fold over
    the second applied to the fold over the first. -/
theorem after_ops (V : Valuation τ sig (Elt F)) : after ops V = after opsTail (after opsHead V) :=
  StableHlo.after_append opsHead opsTail V

/-- The signature scopes no buffer and no semaphore to a region: there is no kernel. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of the entry function
    terminates without a fault, and each of the core's buffers ends at the fold of the line over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

/-- The argument array is written by no operation, so the fold leaves it as it was. -/
theorem arg0_kept (V : Valuation τ sig (Elt F)) :
    StableHlo.after ops V (main_arg0 : DevRef τ sig) = V (main_arg0 : DevRef τ sig) :=
  after_of_forall_not_mem ops V ops_keeps_arg0

/-- The run ends with the argument array unchanged on every device. -/
theorem frame (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c main_arg0).trans (arg0_kept (launchContents m c))) (run_main m ρ)

end Cert.ReferenceIdeal.Hand

end
-- ==== Proof.TailStepsK.lean ====
/-
  The kernel program's line of operations after the launch, cut into short stretches: first the four
  operations that drop the unit axis of the cell ids and compare them with the sentinel, then thirteen
  stretches of at most fifteen operations each. The cuts fall at the same places as in the reference's line,
  so that the two can be compared stretch by stretch; each of the two concatenations opens a stretch, so
  that what it joins comes from the stretches before.
-/
import proofs.«120821_j73985106641253_2_alg».proof.Proof.HashFrameIdeal

noncomputable section

namespace Cert.KernelIdeal.TailSteps

open Cert.KernelIdeal Cert.KernelIdeal.Facts₀ Idealize.ShloMosaic Idealize.ShloMosaic.TcCoe Idealize.SL.Sem Idealize.ShloMosaic.StableHlo

variable {F : FTy → Type} [FloatOps F]

/-- The unit axis dropped, the sentinel, its spread over the points, the comparison. -/
abbrev kPre : List (HloOp τ sig (Elt F)) :=
  [ StableHlo.reshape main_v0_1 main_v1 rfl shapeCasts_S4000000x1_S4000000,
    StableHlo.nullary main_c (constantI S_ 32 220000#32),
    StableHlo.unary main_c main_v2 (broadcastInDim S4000000 ![] bcast_S_S4000000 : (⟨S_, .i32⟩ : BufTy).Contents (Elt F) → (⟨S4000000, .i32⟩ : BufTy).Contents (Elt F)),
    StableHlo.binary main_v1 main_v2 main_v3 (cmpi .slt : (⟨S4000000, .i32⟩ : BufTy).Contents (Elt F) → (⟨S4000000, .i32⟩ : BufTy).Contents (Elt F) → (⟨S4000000, .i1⟩ : BufTy).Contents (Elt F)) ]

/-- Operations 1–12 after those. -/
abbrev k0 : List (HloOp τ sig (Elt F)) :=
  [ StableHlo.nullary main_v4 (iotaInDim S4000000 32 0),
    StableHlo.nullary main_c_0 (constantI S_ 32 4000000#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S4000000, .i32⟩) (broadcastInDim S4000000 ![] bcast_S_S4000000),
    StableHlo.TRef.ternary (.of main_v3 : StableHlo.TRef sig ⟨S4000000, .i1⟩) (.of main_v4 : StableHlo.TRef sig ⟨S4000000, .i32⟩) (.of main_call0_v1 : StableHlo.TRef sig ⟨S4000000, .i32⟩) (.of main_v5 : StableHlo.TRef sig ⟨S4000000, .i32⟩) select,
    StableHlo.nullary main_c_1 (constantI S_ 32 2147483647#32),
    StableHlo.unary main_c_1 main_v6 (broadcastInDim S220001 ![] bcast_S_S220001 : (⟨S_, .i32⟩ : BufTy).Contents (Elt F) → (⟨S220001, .i32⟩ : BufTy).Contents (Elt F)),
    StableHlo.unary main_v1 main_v7 (broadcastInDim S4000000x1 ![0] bcast_S4000000_S4000000x1_0 : (⟨S4000000, .i32⟩ : BufTy).Contents (Elt F) → (⟨S4000000x1, .i32⟩ : BufTy).Contents (Elt F)),
    StableHlo.ternary main_v6 main_v7 main_v5 main_v8 ((fun x i u => Host.scatter scatter_S220001_S4000000x1_S4000000_n_0_0_1 IntOp.minsi x i u) : (⟨S220001, .i32⟩ : BufTy).Contents (Elt F) → (⟨S4000000x1, .i32⟩ : BufTy).Contents (Elt F) → (⟨S4000000, .i32⟩ : BufTy).Contents (Elt F) → (⟨S220001, .i32⟩ : BufTy).Contents (Elt F)),
    StableHlo.nullary main_c_2 (constantI S_ 32 0#32),
    StableHlo.unary main_c_2 main_v9 (broadcastInDim S4000000 ![] bcast_S_S4000000 : (⟨S_, .i32⟩ : BufTy).Contents (Elt F) → (⟨S4000000, .i32⟩ : BufTy).Contents (Elt F)),
    StableHlo.binary main_v1 main_v9 main_v10 (cmpi .slt : (⟨S4000000, .i32⟩ : BufTy).Contents (Elt F) → (⟨S4000000, .i32⟩ : BufTy).Contents (Elt F) → (⟨S4000000, .i1⟩ : BufTy).Contents (Elt F)) ]

/-- Operations 13–24 after those. -/
abbrev k1 : List (HloOp τ sig (Elt F)) :=
  [ StableHlo.nullary main_c_3 (constantI S_ 32 220001#32),
    StableHlo.unary main_c_3 main_v11 (broadcastInDim S4000000 ![] bcast_S_S4000000 : (⟨S_, .i32⟩ : BufTy).Contents (Elt F) → (⟨S4000000, .i32⟩ : BufTy).Contents (Elt F)),
    StableHlo.binary main_v1 main_v11 main_v12 (addi : (⟨S4000000, .i32⟩ : BufTy).Contents (Elt F) → (⟨S4000000, .i32⟩ : BufTy).Contents (Elt F) → (⟨S4000000, .i32⟩ : BufTy).Contents (Elt F)),
    StableHlo.ternary main_v10 main_v12 main_v1 main_v13 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v13 main_v14 (broadcastInDim S4000000x1 ![0] bcast_S4000000_S4000000x1_0 : (⟨S4000000, .i32⟩ : BufTy).Contents (Elt F) → (⟨S4000000x1, .i32⟩ : BufTy).Contents (Elt F)),
    StableHlo.binary main_v8 main_v14 main_v15 ((fun x i => Host.gather gather_S220001_S4000000x1_S4000000_n_0_n_n_0_1_1 x i) : (⟨S220001, .i32⟩ : BufTy).Contents (Elt F) → (⟨S4000000x1, .i32⟩ : BufTy).Contents (Elt F) → (⟨S4000000, .i32⟩ : BufTy).Contents (Elt F)),
    StableHlo.nullary main_c_4 (constantI S_ 32 3999999#32),
    StableHlo.unary main_c_4 main_v16 (broadcastInDim S4000000 ![] bcast_S_S4000000 : (⟨S_, .i32⟩ : BufTy).Contents (Elt F) → (⟨S4000000, .i32⟩ : BufTy).Contents (Elt F)),
    StableHlo.binary main_v15 main_v16 main_v17 (minsi : (⟨S4000000, .i32⟩ : BufTy).Contents (Elt F) → (⟨S4000000, .i32⟩ : BufTy).Contents (Elt F) → (⟨S4000000, .i32⟩ : BufTy).Contents (Elt F)),
    StableHlo.binary main_v4 main_v17 main_v18 (cmpi .eq : (⟨S4000000, .i32⟩ : BufTy).Contents (Elt F) → (⟨S4000000, .i32⟩ : BufTy).Contents (Elt F) → (⟨S4000000, .i1⟩ : BufTy).Contents (Elt F)),
    StableHlo.binary main_v3 main_v18 main_v19 (andi : (⟨S4000000, .i1⟩ : BufTy).Contents (Elt F) → (⟨S4000000, .i1⟩ : BufTy).Contents (Elt F) → (⟨S4000000, .i1⟩ : BufTy).Contents (Elt F)),
    StableHlo.unary main_v19 main_v20 ((extui 32 · natLt_1_32) : (⟨S4000000, .i1⟩ : BufTy).Contents (Elt F) → (⟨S4000000, .i32⟩ : BufTy).Contents (Elt F)) ]

/-- Operations 25–36 after those. -/
abbrev k2 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v20 : StableHlo.TRef sig ⟨S4000000, .i32⟩) (.of main_call1_call0_v0 : StableHlo.TRef sig ⟨S_, .i32⟩) (.of main_v21 : StableHlo.TRef sig ⟨S4000000, .i32⟩) (fun x v => Host.reduceWindow IntOp.addi ![4000000] ![1] ![3999999] ![0] x v reduceWindows_S4000000_S4000000_w4000000s1p3999999_0 h_S_),
    StableHlo.nullary main_c_5 (constantI S_ 32 1#32),
    StableHlo.unary main_c_5 main_v22 (broadcastInDim S4000000 ![] bcast_S_S4000000 : (⟨S_, .i32⟩ : BufTy).Contents (Elt F) → (⟨S4000000, .i32⟩ : BufTy).Contents (Elt F)),
    StableHlo.binary main_v21 main_v22 main_v23 (subi : (⟨S4000000, .i32⟩ : BufTy).Contents (Elt F) → (⟨S4000000, .i32⟩ : BufTy).Contents (Elt F) → (⟨S4000000, .i32⟩ : BufTy).Contents (Elt F)),
    StableHlo.nullary main_c_6 (constantI S_ 32 0#32),
    StableHlo.unary main_c_6 main_v24 (broadcastInDim S4000000 ![] bcast_S_S4000000 : (⟨S_, .i32⟩ : BufTy).Contents (Elt F) → (⟨S4000000, .i32⟩ : BufTy).Contents (Elt F)),
    StableHlo.binary main_v17 main_v24 main_v25 (cmpi .slt : (⟨S4000000, .i32⟩ : BufTy).Contents (Elt F) → (⟨S4000000, .i32⟩ : BufTy).Contents (Elt F) → (⟨S4000000, .i1⟩ : BufTy).Contents (Elt F)),
    StableHlo.nullary main_c_7 (constantI S_ 32 4000000#32),
    StableHlo.unary main_c_7 main_v26 (broadcastInDim S4000000 ![] bcast_S_S4000000 : (⟨S_, .i32⟩ : BufTy).Contents (Elt F) → (⟨S4000000, .i32⟩ : BufTy).Contents (Elt F)),
    StableHlo.binary main_v17 main_v26 main_v27 (addi : (⟨S4000000, .i32⟩ : BufTy).Contents (Elt F) → (⟨S4000000, .i32⟩ : BufTy).Contents (Elt F) → (⟨S4000000, .i32⟩ : BufTy).Contents (Elt F)) ]

/-- Operations 37–48 after those. -/
abbrev k3 : List (HloOp τ sig (Elt F)) :=
  [ StableHlo.ternary main_v25 main_v27 main_v17 main_v28 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v28 main_v29 (broadcastInDim S4000000x1 ![0] bcast_S4000000_S4000000x1_0 : (⟨S4000000, .i32⟩ : BufTy).Contents (Elt F) → (⟨S4000000x1, .i32⟩ : BufTy).Contents (Elt F)),
    StableHlo.binary main_v23 main_v29 main_v30 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.TRef.nullary (.of main_call2_v0 : StableHlo.TRef sig ⟨S4000000, .i32⟩) (iotaInDim S4000000 32 0),
    StableHlo.TRef.binary (.of main_v1 : StableHlo.TRef sig ⟨S4000000, .i32⟩) (.of main_call2_v0 : StableHlo.TRef sig ⟨S4000000, .i32⟩) (.of main_call2_v1_0 : StableHlo.TRef sig ⟨S4000000, .i32⟩) (fun x y => (Host.sort2 S4000000 0 comparator_i32_i32_d0 x y).1),
    StableHlo.TRef.binary (.of main_v1 : StableHlo.TRef sig ⟨S4000000, .i32⟩) (.of main_call2_v0 : StableHlo.TRef sig ⟨S4000000, .i32⟩) (.of main_v31 : StableHlo.TRef sig ⟨S4000000, .i32⟩) (fun x y => (Host.sort2 S4000000 0 comparator_i32_i32_d0 x y).2),
    StableHlo.nullary main_c_8 (constantI S_ 32 0#32),
    StableHlo.unary main_c_8 main_v32 (broadcastInDim S4000000 ![] bcast_S_S4000000 : (⟨S_, .i32⟩ : BufTy).Contents (Elt F) → (⟨S4000000, .i32⟩ : BufTy).Contents (Elt F)),
    StableHlo.binary main_v31 main_v32 main_v33 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 4000000#32),
    StableHlo.unary main_c_9 main_v34 (broadcastInDim S4000000 ![] bcast_S_S4000000 : (⟨S_, .i32⟩ : BufTy).Contents (Elt F) → (⟨S4000000, .i32⟩ : BufTy).Contents (Elt F)),
    StableHlo.binary main_v31 main_v34 main_v35 (addi : (⟨S4000000, .i32⟩ : BufTy).Contents (Elt F) → (⟨S4000000, .i32⟩ : BufTy).Contents (Elt F) → (⟨S4000000, .i32⟩ : BufTy).Contents (Elt F)) ]

/-- Operations 49–57 after those. -/
abbrev k4 : List (HloOp τ sig (Elt F)) :=
  [ StableHlo.ternary main_v33 main_v35 main_v31 main_v36 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v36 main_v37 (broadcastInDim S4000000x1 ![0] bcast_S4000000_S4000000x1_0 : (⟨S4000000, .i32⟩ : BufTy).Contents (Elt F) → (⟨S4000000x1, .i32⟩ : BufTy).Contents (Elt F)),
    StableHlo.binary main_v1 main_v37 main_v38 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_v39 (iotaInDim S4000000 32 0),
    StableHlo.nullary main_c_10 (constantI S_ 1 1#1),
    StableHlo.unary main_c_10 main_v40 (broadcastInDim S1 ![] bcast_S_S1 : (⟨S_, .i1⟩ : BufTy).Contents (Elt F) → (⟨S1, .i1⟩ : BufTy).Contents (Elt F)),
    StableHlo.unary main_v38 main_v41 ((extractStridedSlice S3999999 ![1] · slices_S4000000_S3999999_1) : (⟨S4000000, .i32⟩ : BufTy).Contents (Elt F) → (⟨S3999999, .i32⟩ : BufTy).Contents (Elt F)),
    StableHlo.unary main_v38 main_v42 ((extractStridedSlice S3999999 ![0] · slices_S4000000_S3999999_0) : (⟨S4000000, .i32⟩ : BufTy).Contents (Elt F) → (⟨S3999999, .i32⟩ : BufTy).Contents (Elt F)),
    StableHlo.binary main_v41 main_v42 main_v43 (cmpi .ne : (⟨S3999999, .i32⟩ : BufTy).Contents (Elt F) → (⟨S3999999, .i32⟩ : BufTy).Contents (Elt F) → (⟨S3999999, .i1⟩ : BufTy).Contents (Elt F)) ]

/-- Operations 58–68 after those. -/
abbrev k5 : List (HloOp τ sig (Elt F)) :=
  [ StableHlo.binary main_v40 main_v43 main_v44 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),
    StableHlo.nullary main_c_11 (constantI S_ 32 0#32),
    StableHlo.TRef.unary (.of main_c_11 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S4000000, .i32⟩) (broadcastInDim S4000000 ![] bcast_S_S4000000),
    StableHlo.TRef.ternary (.of main_v44 : StableHlo.TRef sig ⟨S4000000, .i1⟩) (.of main_v39 : StableHlo.TRef sig ⟨S4000000, .i32⟩) (.of main_call3_v1 : StableHlo.TRef sig ⟨S4000000, .i32⟩) (.of main_v45 : StableHlo.TRef sig ⟨S4000000, .i32⟩) select,
    StableHlo.TRef.nullary (.of main_call4_c : StableHlo.TRef sig ⟨S_, .i32⟩) (constantI S_ 32 2147483648#32),
    StableHlo.TRef.unary (.of main_call4_c : StableHlo.TRef sig ⟨S_, .i32⟩) (.of main_call4_v0 : StableHlo.TRef sig ⟨S_, .i32⟩) (broadcastInDim S_ ![] bcast_S_S_),
    StableHlo.TRef.binary (.of main_v45 : StableHlo.TRef sig ⟨S4000000, .i32⟩) (.of main_call4_v0 : StableHlo.TRef sig ⟨S_, .i32⟩) (.of main_v46 : StableHlo.TRef sig ⟨S4000000, .i32⟩) (fun x v => Host.reduceWindow IntOp.maxsi ![4000000] ![1] ![3999999] ![0] x v reduceWindows_S4000000_S4000000_w4000000s1p3999999_0 h_S_),
    StableHlo.nullary main_c_12 (constantI S_ 32 0#32),
    StableHlo.unary main_c_12 main_v47 (broadcastInDim S4000000 ![] bcast_S_S4000000 : (⟨S_, .i32⟩ : BufTy).Contents (Elt F) → (⟨S4000000, .i32⟩ : BufTy).Contents (Elt F)),
    StableHlo.binary main_v39 main_v46 main_v48 (subi : (⟨S4000000, .i32⟩ : BufTy).Contents (Elt F) → (⟨S4000000, .i32⟩ : BufTy).Contents (Elt F) → (⟨S4000000, .i32⟩ : BufTy).Contents (Elt F)) ]

/-- Operations 69–79 after those. -/
abbrev k6 : List (HloOp τ sig (Elt F)) :=
  [ StableHlo.nullary main_c_13 (constantI S_ 32 0#32),
    StableHlo.unary main_c_13 main_v49 (broadcastInDim S4000000 ![] bcast_S_S4000000 : (⟨S_, .i32⟩ : BufTy).Contents (Elt F) → (⟨S4000000, .i32⟩ : BufTy).Contents (Elt F)),
    StableHlo.binary main_v31 main_v49 main_v50 (cmpi .slt : (⟨S4000000, .i32⟩ : BufTy).Contents (Elt F) → (⟨S4000000, .i32⟩ : BufTy).Contents (Elt F) → (⟨S4000000, .i1⟩ : BufTy).Contents (Elt F)),
    StableHlo.nullary main_c_14 (constantI S_ 32 4000000#32),
    StableHlo.unary main_c_14 main_v51 (broadcastInDim S4000000 ![] bcast_S_S4000000 : (⟨S_, .i32⟩ : BufTy).Contents (Elt F) → (⟨S4000000, .i32⟩ : BufTy).Contents (Elt F)),
    StableHlo.binary main_v31 main_v51 main_v52 (addi : (⟨S4000000, .i32⟩ : BufTy).Contents (Elt F) → (⟨S4000000, .i32⟩ : BufTy).Contents (Elt F) → (⟨S4000000, .i32⟩ : BufTy).Contents (Elt F)),
    StableHlo.ternary main_v50 main_v52 main_v31 main_v53 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v53 main_v54 (broadcastInDim S4000000x1 ![0] bcast_S4000000_S4000000x1_0 : (⟨S4000000, .i32⟩ : BufTy).Contents (Elt F) → (⟨S4000000x1, .i32⟩ : BufTy).Contents (Elt F)),
    StableHlo.ternary main_v47 main_v54 main_v48 main_v55 ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.nullary main_c_15 (constantI S_ 32 40000#32),
    StableHlo.unary main_c_15 main_v56 (broadcastInDim S4000000 ![] bcast_S_S4000000 : (⟨S_, .i32⟩ : BufTy).Contents (Elt F) → (⟨S4000000, .i32⟩ : BufTy).Contents (Elt F)) ]

/-- Operations 80–90 after those. -/
abbrev k7 : List (HloOp τ sig (Elt F)) :=
  [ StableHlo.binary main_v30 main_v56 main_v57 (cmpi .slt : (⟨S4000000, .i32⟩ : BufTy).Contents (Elt F) → (⟨S4000000, .i32⟩ : BufTy).Contents (Elt F) → (⟨S4000000, .i1⟩ : BufTy).Contents (Elt F)),
    StableHlo.binary main_v3 main_v57 main_v58 (andi : (⟨S4000000, .i1⟩ : BufTy).Contents (Elt F) → (⟨S4000000, .i1⟩ : BufTy).Contents (Elt F) → (⟨S4000000, .i1⟩ : BufTy).Contents (Elt F)),
    StableHlo.nullary main_c_16 (constantI S_ 32 32#32),
    StableHlo.unary main_c_16 main_v59 (broadcastInDim S4000000 ![] bcast_S_S4000000 : (⟨S_, .i32⟩ : BufTy).Contents (Elt F) → (⟨S4000000, .i32⟩ : BufTy).Contents (Elt F)),
    StableHlo.binary main_v55 main_v59 main_v60 (cmpi .slt : (⟨S4000000, .i32⟩ : BufTy).Contents (Elt F) → (⟨S4000000, .i32⟩ : BufTy).Contents (Elt F) → (⟨S4000000, .i1⟩ : BufTy).Contents (Elt F)),
    StableHlo.binary main_v58 main_v60 main_v61 (andi : (⟨S4000000, .i1⟩ : BufTy).Contents (Elt F) → (⟨S4000000, .i1⟩ : BufTy).Contents (Elt F) → (⟨S4000000, .i1⟩ : BufTy).Contents (Elt F)),
    StableHlo.nullary main_c_17 (constantI S_ 32 40000#32),
    StableHlo.TRef.unary (.of main_c_17 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S4000000, .i32⟩) (broadcastInDim S4000000 ![] bcast_S_S4000000),
    StableHlo.TRef.ternary (.of main_v61 : StableHlo.TRef sig ⟨S4000000, .i1⟩) (.of main_v30 : StableHlo.TRef sig ⟨S4000000, .i32⟩) (.of main_call5_v1 : StableHlo.TRef sig ⟨S4000000, .i32⟩) (.of main_v62 : StableHlo.TRef sig ⟨S4000000, .i32⟩) select,
    StableHlo.nullary main_c_18 (constantI S_ 32 0#32) ]

/-- Operations 91–101 after those. -/
abbrev k8 : List (HloOp τ sig (Elt F)) :=
  [ StableHlo.TRef.unary (.of main_c_18 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S4000000, .i32⟩) (broadcastInDim S4000000 ![] bcast_S_S4000000),
    StableHlo.TRef.ternary (.of main_v61 : StableHlo.TRef sig ⟨S4000000, .i1⟩) (.of main_v55 : StableHlo.TRef sig ⟨S4000000, .i32⟩) (.of main_call6_v1 : StableHlo.TRef sig ⟨S4000000, .i32⟩) (.of main_v63 : StableHlo.TRef sig ⟨S4000000, .i32⟩) select,
    StableHlo.nullary main_cst (constant S_ .f32 0x00000000#32),
    StableHlo.unary main_cst main_v64 (broadcastInDim S40001x32x4 ![] bcast_S_S40001x32x4 : (⟨S_, .f32⟩ : BufTy).Contents (Elt F) → (⟨S40001x32x4, .f32⟩ : BufTy).Contents (Elt F)),
    StableHlo.nullary main_c_19 (constantI S_ 32 0#32),
    StableHlo.unary main_c_19 main_v65 (broadcastInDim S4000000 ![] bcast_S_S4000000 : (⟨S_, .i32⟩ : BufTy).Contents (Elt F) → (⟨S4000000, .i32⟩ : BufTy).Contents (Elt F)),
    StableHlo.binary main_v62 main_v65 main_v66 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 40001#32),
    StableHlo.unary main_c_20 main_v67 (broadcastInDim S4000000 ![] bcast_S_S4000000 : (⟨S_, .i32⟩ : BufTy).Contents (Elt F) → (⟨S4000000, .i32⟩ : BufTy).Contents (Elt F)),
    StableHlo.binary main_v62 main_v67 main_v68 (addi : (⟨S4000000, .i32⟩ : BufTy).Contents (Elt F) → (⟨S4000000, .i32⟩ : BufTy).Contents (Elt F) → (⟨S4000000, .i32⟩ : BufTy).Contents (Elt F)) ]

/-- Operations 102–111 after those. -/
abbrev k9 : List (HloOp τ sig (Elt F)) :=
  [ StableHlo.ternary main_v66 main_v68 main_v62 main_v69 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_21 (constantI S_ 32 0#32),
    StableHlo.unary main_c_21 main_v70 (broadcastInDim S4000000 ![] bcast_S_S4000000 : (⟨S_, .i32⟩ : BufTy).Contents (Elt F) → (⟨S4000000, .i32⟩ : BufTy).Contents (Elt F)),
    StableHlo.binary main_v63 main_v70 main_v71 (cmpi .slt : (⟨S4000000, .i32⟩ : BufTy).Contents (Elt F) → (⟨S4000000, .i32⟩ : BufTy).Contents (Elt F) → (⟨S4000000, .i1⟩ : BufTy).Contents (Elt F)),
    StableHlo.nullary main_c_22 (constantI S_ 32 32#32),
    StableHlo.unary main_c_22 main_v72 (broadcastInDim S4000000 ![] bcast_S_S4000000 : (⟨S_, .i32⟩ : BufTy).Contents (Elt F) → (⟨S4000000, .i32⟩ : BufTy).Contents (Elt F)),
    StableHlo.binary main_v63 main_v72 main_v73 (addi : (⟨S4000000, .i32⟩ : BufTy).Contents (Elt F) → (⟨S4000000, .i32⟩ : BufTy).Contents (Elt F) → (⟨S4000000, .i32⟩ : BufTy).Contents (Elt F)),
    StableHlo.ternary main_v71 main_v73 main_v63 main_v74 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v69 main_v75 (broadcastInDim S4000000x1 ![0] bcast_S4000000_S4000000x1_0 : (⟨S4000000, .i32⟩ : BufTy).Contents (Elt F) → (⟨S4000000x1, .i32⟩ : BufTy).Contents (Elt F)),
    StableHlo.unary main_v74 main_v76 (broadcastInDim S4000000x1 ![0] bcast_S4000000_S4000000x1_0 : (⟨S4000000, .i32⟩ : BufTy).Contents (Elt F) → (⟨S4000000x1, .i32⟩ : BufTy).Contents (Elt F)) ]

/-- Operations 112–123 after those. -/
abbrev k10 : List (HloOp τ sig (Elt F)) :=
  [ StableHlo.binary main_v75 main_v76 main_v77 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v64 main_v77 main_arg0 main_v78 ((fun x i u => Host.scatter scatter_S40001x32x4_S4000000x2_S4000000x4_1_01_01_1 (fun _ b => b) x i u) : (⟨S40001x32x4, .f32⟩ : BufTy).Contents (Elt F) → (⟨S4000000x2, .i32⟩ : BufTy).Contents (Elt F) → (⟨S4000000x4, .f32⟩ : BufTy).Contents (Elt F) → (⟨S40001x32x4, .f32⟩ : BufTy).Contents (Elt F)),
    StableHlo.unary main_v78 main_v79 ((extractStridedSlice S40000x32x4 ![0, 0, 0] · slices_S40001x32x4_S40000x32x4_0_0_0) : (⟨S40001x32x4, .f32⟩ : BufTy).Contents (Elt F) → (⟨S40000x32x4, .f32⟩ : BufTy).Contents (Elt F)),
    StableHlo.nullary main_c_23 (constantI S_ 32 40000#32),
    StableHlo.unary main_c_23 main_v80 (broadcastInDim S4000000 ![] bcast_S_S4000000 : (⟨S_, .i32⟩ : BufTy).Contents (Elt F) → (⟨S4000000, .i32⟩ : BufTy).Contents (Elt F)),
    StableHlo.binary main_v30 main_v80 main_v81 (cmpi .slt : (⟨S4000000, .i32⟩ : BufTy).Contents (Elt F) → (⟨S4000000, .i32⟩ : BufTy).Contents (Elt F) → (⟨S4000000, .i1⟩ : BufTy).Contents (Elt F)),
    StableHlo.binary main_v19 main_v81 main_v82 (andi : (⟨S4000000, .i1⟩ : BufTy).Contents (Elt F) → (⟨S4000000, .i1⟩ : BufTy).Contents (Elt F) → (⟨S4000000, .i1⟩ : BufTy).Contents (Elt F)),
    StableHlo.nullary main_c_24 (constantI S_ 32 40000#32),
    StableHlo.TRef.unary (.of main_c_24 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S4000000, .i32⟩) (broadcastInDim S4000000 ![] bcast_S_S4000000),
    StableHlo.TRef.ternary (.of main_v82 : StableHlo.TRef sig ⟨S4000000, .i1⟩) (.of main_v30 : StableHlo.TRef sig ⟨S4000000, .i32⟩) (.of main_call7_v1 : StableHlo.TRef sig ⟨S4000000, .i32⟩) (.of main_v83 : StableHlo.TRef sig ⟨S4000000, .i32⟩) select,
    StableHlo.nullary main_c_25 (constantI S_ 32 0#32) ]

/-- Operations 124–135 after those. -/
abbrev k11 : List (HloOp τ sig (Elt F)) :=
  [ StableHlo.unary main_c_25 main_v84 (broadcastInDim S40001x3 ![] bcast_S_S40001x3 : (⟨S_, .i32⟩ : BufTy).Contents (Elt F) → (⟨S40001x3, .i32⟩ : BufTy).Contents (Elt F)),
    StableHlo.nullary main_c_26 (constantI S_ 32 0#32),
    StableHlo.unary main_c_26 main_v85 (broadcastInDim S4000000 ![] bcast_S_S4000000 : (⟨S_, .i32⟩ : BufTy).Contents (Elt F) → (⟨S4000000, .i32⟩ : BufTy).Contents (Elt F)),
    StableHlo.binary main_v83 main_v85 main_v86 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 40001#32),
    StableHlo.unary main_c_27 main_v87 (broadcastInDim S4000000 ![] bcast_S_S4000000 : (⟨S_, .i32⟩ : BufTy).Contents (Elt F) → (⟨S4000000, .i32⟩ : BufTy).Contents (Elt F)),
    StableHlo.binary main_v83 main_v87 main_v88 (addi : (⟨S4000000, .i32⟩ : BufTy).Contents (Elt F) → (⟨S4000000, .i32⟩ : BufTy).Contents (Elt F) → (⟨S4000000, .i32⟩ : BufTy).Contents (Elt F)),
    StableHlo.ternary main_v86 main_v88 main_v83 main_v89 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v89 main_v90 (broadcastInDim S4000000x1 ![0] bcast_S4000000_S4000000x1_0 : (⟨S4000000, .i32⟩ : BufTy).Contents (Elt F) → (⟨S4000000x1, .i32⟩ : BufTy).Contents (Elt F)),
    StableHlo.ternary main_v84 main_v90 main_v0_0 main_v91 ((fun x i u => Host.scatter scatter_S40001x3_S4000000x1_S4000000x3_1_0_0_1 (fun _ b => b) x i u) : (⟨S40001x3, .i32⟩ : BufTy).Contents (Elt F) → (⟨S4000000x1, .i32⟩ : BufTy).Contents (Elt F) → (⟨S4000000x3, .i32⟩ : BufTy).Contents (Elt F) → (⟨S40001x3, .i32⟩ : BufTy).Contents (Elt F)),
    StableHlo.unary main_v91 main_v92 ((extractStridedSlice S40000x3 ![0, 0] · slices_S40001x3_S40000x3_0_0) : (⟨S40001x3, .i32⟩ : BufTy).Contents (Elt F) → (⟨S40000x3, .i32⟩ : BufTy).Contents (Elt F)),
    StableHlo.nullary main_c_28 (constantI S_ 32 0#32) ]

/-- Operations 136–150 after those. -/
abbrev k12 : List (HloOp τ sig (Elt F)) :=
  [ StableHlo.unary main_c_28 main_v93 (broadcastInDim S40001 ![] bcast_S_S40001 : (⟨S_, .i32⟩ : BufTy).Contents (Elt F) → (⟨S40001, .i32⟩ : BufTy).Contents (Elt F)),
    StableHlo.unary main_v61 main_v94 ((extui 32 · natLt_1_32) : (⟨S4000000, .i1⟩ : BufTy).Contents (Elt F) → (⟨S4000000, .i32⟩ : BufTy).Contents (Elt F)),
    StableHlo.nullary main_c_29 (constantI S_ 32 0#32),
    StableHlo.unary main_c_29 main_v95 (broadcastInDim S4000000 ![] bcast_S_S4000000 : (⟨S_, .i32⟩ : BufTy).Contents (Elt F) → (⟨S4000000, .i32⟩ : BufTy).Contents (Elt F)),
    StableHlo.binary main_v62 main_v95 main_v96 (cmpi .slt : (⟨S4000000, .i32⟩ : BufTy).Contents (Elt F) → (⟨S4000000, .i32⟩ : BufTy).Contents (Elt F) → (⟨S4000000, .i1⟩ : BufTy).Contents (Elt F)),
    StableHlo.nullary main_c_30 (constantI S_ 32 40001#32),
    StableHlo.unary main_c_30 main_v97 (broadcastInDim S4000000 ![] bcast_S_S4000000 : (⟨S_, .i32⟩ : BufTy).Contents (Elt F) → (⟨S4000000, .i32⟩ : BufTy).Contents (Elt F)),
    StableHlo.binary main_v62 main_v97 main_v98 (addi : (⟨S4000000, .i32⟩ : BufTy).Contents (Elt F) → (⟨S4000000, .i32⟩ : BufTy).Contents (Elt F) → (⟨S4000000, .i32⟩ : BufTy).Contents (Elt F)),
    StableHlo.ternary main_v96 main_v98 main_v62 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v99 main_v100 (broadcastInDim S4000000x1 ![0] bcast_S4000000_S4000000x1_0 : (⟨S4000000, .i32⟩ : BufTy).Contents (Elt F) → (⟨S4000000x1, .i32⟩ : BufTy).Contents (Elt F)),
    StableHlo.ternary main_v93 main_v100 main_v94 main_v101 ((fun x i u => Host.scatter scatter_S40001_S4000000x1_S4000000_n_0_0_1 IntOp.addi x i u) : (⟨S40001, .i32⟩ : BufTy).Contents (Elt F) → (⟨S4000000x1, .i32⟩ : BufTy).Contents (Elt F) → (⟨S4000000, .i32⟩ : BufTy).Contents (Elt F) → (⟨S40001, .i32⟩ : BufTy).Contents (Elt F)),
    StableHlo.unary main_v101 main_v102 ((extractStridedSlice S40000 ![0] · slices_S40001_S40000_0) : (⟨S40001, .i32⟩ : BufTy).Contents (Elt F) → (⟨S40000, .i32⟩ : BufTy).Contents (Elt F)),
    StableHlo.unary main_v82 main_v103 ((extui 32 · natLt_1_32) : (⟨S4000000, .i1⟩ : BufTy).Contents (Elt F) → (⟨S4000000, .i32⟩ : BufTy).Contents (Elt F)),
    StableHlo.nullary main_c_31 (constantI S_ 32 0#32),
    StableHlo.binary main_v103 main_c_31 main_v104 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)) ]

/-- The line after the launch is these stretches in a row. -/
theorem tail_steps : (Cert.KernelIdeal.Hash.tailOps (F := F)).flatten = kPre ++ (k0 ++ (k1 ++ (k2 ++ (k3 ++ (k4 ++ (k5 ++ (k6 ++ (k7 ++ (k8 ++ (k9 ++ (k10 ++ (k11 ++ (k12))))))))))))) := rfl

end Cert.KernelIdeal.TailSteps

end
-- ==== Proof.TailStepsR.lean ====
/-
  The reference's line of operations after the cell ids, cut into thirteen stretches of at most fifteen
  operations each, at the same places as the kernel program's line after its launch.
-/
import proofs.«120821_j73985106641253_2_alg».proof.Proof.RefRun

noncomputable section

namespace Cert.ReferenceIdeal.TailSteps

open Cert.ReferenceIdeal Cert.ReferenceIdeal.Hand Cert.ReferenceIdeal.Facts₀ Idealize.ShloMosaic Idealize.ShloMosaic.TcCoe Idealize.SL.Sem Idealize.ShloMosaic.StableHlo

variable {F : FTy → Type} [FloatOps F]

/-- Operations 1–12 after the cell ids. -/
abbrev r0 : List (HloOp τ sig (Elt F)) :=
  [ StableHlo.nullary main_v29 (iotaInDim S4000000 32 0),
    StableHlo.nullary main_c_6 (constantI S_ 32 4000000#32),
    StableHlo.TRef.unary (.of main_c_6 : StableHlo.TRef sig ⟨S_, .i32⟩) main_call1.v0 id,
    StableHlo.TRef.unary main_call1.v0 main_call1.v1 (broadcastInDim S4000000 ![] bcast_S_S4000000),
    StableHlo.TRef.ternary (.of main_v15 : StableHlo.TRef sig ⟨S4000000, .i1⟩) (.of main_v29 : StableHlo.TRef sig ⟨S4000000, .i32⟩) main_call1.v1 main_call1.v2 select,
    StableHlo.nullary main_c_7 (constantI S_ 32 2147483647#32),
    StableHlo.unary main_c_7 main_v31 (broadcastInDim S220001 ![] bcast_S_S220001 : (⟨S_, .i32⟩ : BufTy).Contents (Elt F) → (⟨S220001, .i32⟩ : BufTy).Contents (Elt F)),
    StableHlo.unary main_v28 main_v32 (broadcastInDim S4000000x1 ![0] bcast_S4000000_S4000000x1_0 : (⟨S4000000, .i32⟩ : BufTy).Contents (Elt F) → (⟨S4000000x1, .i32⟩ : BufTy).Contents (Elt F)),
    StableHlo.ternary main_v31 main_v32 main_v30 main_v33 ((fun x i u => Host.scatter scatter_S220001_S4000000x1_S4000000_n_0_0_1 IntOp.minsi x i u) : (⟨S220001, .i32⟩ : BufTy).Contents (Elt F) → (⟨S4000000x1, .i32⟩ : BufTy).Contents (Elt F) → (⟨S4000000, .i32⟩ : BufTy).Contents (Elt F) → (⟨S220001, .i32⟩ : BufTy).Contents (Elt F)),
    StableHlo.nullary main_c_8 (constantI S_ 32 0#32),
    StableHlo.unary main_c_8 main_v34 (broadcastInDim S4000000 ![] bcast_S_S4000000 : (⟨S_, .i32⟩ : BufTy).Contents (Elt F) → (⟨S4000000, .i32⟩ : BufTy).Contents (Elt F)),
    StableHlo.binary main_v28 main_v34 main_v35 (cmpi .slt : (⟨S4000000, .i32⟩ : BufTy).Contents (Elt F) → (⟨S4000000, .i32⟩ : BufTy).Contents (Elt F) → (⟨S4000000, .i1⟩ : BufTy).Contents (Elt F)) ]

/-- Operations 13–24 after the cell ids. -/
abbrev r1 : List (HloOp τ sig (Elt F)) :=
  [ StableHlo.nullary main_c_9 (constantI S_ 32 220001#32),
    StableHlo.unary main_c_9 main_v36 (broadcastInDim S4000000 ![] bcast_S_S4000000 : (⟨S_, .i32⟩ : BufTy).Contents (Elt F) → (⟨S4000000, .i32⟩ : BufTy).Contents (Elt F)),
    StableHlo.binary main_v28 main_v36 main_v37 (addi : (⟨S4000000, .i32⟩ : BufTy).Contents (Elt F) → (⟨S4000000, .i32⟩ : BufTy).Contents (Elt F) → (⟨S4000000, .i32⟩ : BufTy).Contents (Elt F)),
    StableHlo.ternary main_v35 main_v37 main_v28 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v38 main_v39 (broadcastInDim S4000000x1 ![0] bcast_S4000000_S4000000x1_0 : (⟨S4000000, .i32⟩ : BufTy).Contents (Elt F) → (⟨S4000000x1, .i32⟩ : BufTy).Contents (Elt F)),
    StableHlo.binary main_v33 main_v39 main_v40 ((fun x i => Host.gather gather_S220001_S4000000x1_S4000000_n_0_n_n_0_1_1 x i) : (⟨S220001, .i32⟩ : BufTy).Contents (Elt F) → (⟨S4000000x1, .i32⟩ : BufTy).Contents (Elt F) → (⟨S4000000, .i32⟩ : BufTy).Contents (Elt F)),
    StableHlo.nullary main_c_10 (constantI S_ 32 3999999#32),
    StableHlo.unary main_c_10 main_v41 (broadcastInDim S4000000 ![] bcast_S_S4000000 : (⟨S_, .i32⟩ : BufTy).Contents (Elt F) → (⟨S4000000, .i32⟩ : BufTy).Contents (Elt F)),
    StableHlo.binary main_v40 main_v41 main_v42 (minsi : (⟨S4000000, .i32⟩ : BufTy).Contents (Elt F) → (⟨S4000000, .i32⟩ : BufTy).Contents (Elt F) → (⟨S4000000, .i32⟩ : BufTy).Contents (Elt F)),
    StableHlo.binary main_v29 main_v42 main_v43 (cmpi .eq : (⟨S4000000, .i32⟩ : BufTy).Contents (Elt F) → (⟨S4000000, .i32⟩ : BufTy).Contents (Elt F) → (⟨S4000000, .i1⟩ : BufTy).Contents (Elt F)),
    StableHlo.binary main_v15 main_v43 main_v44 (andi : (⟨S4000000, .i1⟩ : BufTy).Contents (Elt F) → (⟨S4000000, .i1⟩ : BufTy).Contents (Elt F) → (⟨S4000000, .i1⟩ : BufTy).Contents (Elt F)),
    StableHlo.unary main_v44 main_v45 ((extui 32 · natLt_1_32) : (⟨S4000000, .i1⟩ : BufTy).Contents (Elt F) → (⟨S4000000, .i32⟩ : BufTy).Contents (Elt F)) ]

/-- Operations 25–36 after the cell ids. -/
abbrev r2 : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v45 : StableHlo.TRef sig ⟨S4000000, .i32⟩) main_call2.call0.v0 main_call2.call0.v1 (fun x v => Host.reduceWindow IntOp.addi ![4000000] ![1] ![3999999] ![0] x v reduceWindows_S4000000_S4000000_w4000000s1p3999999_0 h_S_),
    StableHlo.nullary main_c_11 (constantI S_ 32 1#32),
    StableHlo.unary main_c_11 main_v47 (broadcastInDim S4000000 ![] bcast_S_S4000000 : (⟨S_, .i32⟩ : BufTy).Contents (Elt F) → (⟨S4000000, .i32⟩ : BufTy).Contents (Elt F)),
    StableHlo.binary main_v46 main_v47 main_v48 (subi : (⟨S4000000, .i32⟩ : BufTy).Contents (Elt F) → (⟨S4000000, .i32⟩ : BufTy).Contents (Elt F) → (⟨S4000000, .i32⟩ : BufTy).Contents (Elt F)),
    StableHlo.nullary main_c_12 (constantI S_ 32 0#32),
    StableHlo.unary main_c_12 main_v49 (broadcastInDim S4000000 ![] bcast_S_S4000000 : (⟨S_, .i32⟩ : BufTy).Contents (Elt F) → (⟨S4000000, .i32⟩ : BufTy).Contents (Elt F)),
    StableHlo.binary main_v42 main_v49 main_v50 (cmpi .slt : (⟨S4000000, .i32⟩ : BufTy).Contents (Elt F) → (⟨S4000000, .i32⟩ : BufTy).Contents (Elt F) → (⟨S4000000, .i1⟩ : BufTy).Contents (Elt F)),
    StableHlo.nullary main_c_13 (constantI S_ 32 4000000#32),
    StableHlo.unary main_c_13 main_v51 (broadcastInDim S4000000 ![] bcast_S_S4000000 : (⟨S_, .i32⟩ : BufTy).Contents (Elt F) → (⟨S4000000, .i32⟩ : BufTy).Contents (Elt F)),
    StableHlo.binary main_v42 main_v51 main_v52 (addi : (⟨S4000000, .i32⟩ : BufTy).Contents (Elt F) → (⟨S4000000, .i32⟩ : BufTy).Contents (Elt F) → (⟨S4000000, .i32⟩ : BufTy).Contents (Elt F)) ]

/-- Operations 37–48 after the cell ids. -/
abbrev r3 : List (HloOp τ sig (Elt F)) :=
  [ StableHlo.ternary main_v50 main_v52 main_v42 main_v53 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v53 main_v54 (broadcastInDim S4000000x1 ![0] bcast_S4000000_S4000000x1_0 : (⟨S4000000, .i32⟩ : BufTy).Contents (Elt F) → (⟨S4000000x1, .i32⟩ : BufTy).Contents (Elt F)),
    StableHlo.binary main_v48 main_v54 main_v55 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.TRef.nullary main_call3.v0 (iotaInDim S4000000 32 0),
    StableHlo.TRef.binary (.of main_v28 : StableHlo.TRef sig ⟨S4000000, .i32⟩) main_call3.v0 main_call3.v1_0 (fun x y => (Host.sort2 S4000000 0 comparator_i32_i32_d0 x y).1),
    StableHlo.TRef.binary (.of main_v28 : StableHlo.TRef sig ⟨S4000000, .i32⟩) main_call3.v0 main_call3.v1_1 (fun x y => (Host.sort2 S4000000 0 comparator_i32_i32_d0 x y).2),
    StableHlo.nullary main_c_14 (constantI S_ 32 0#32),
    StableHlo.unary main_c_14 main_v57 (broadcastInDim S4000000 ![] bcast_S_S4000000 : (⟨S_, .i32⟩ : BufTy).Contents (Elt F) → (⟨S4000000, .i32⟩ : BufTy).Contents (Elt F)),
    StableHlo.binary main_v56 main_v57 main_v58 (cmpi .slt : (⟨S4000000, .i32⟩ : BufTy).Contents (Elt F) → (⟨S4000000, .i32⟩ : BufTy).Contents (Elt F) → (⟨S4000000, .i1⟩ : BufTy).Contents (Elt F)),
    StableHlo.nullary main_c_15 (constantI S_ 32 4000000#32),
    StableHlo.unary main_c_15 main_v59 (broadcastInDim S4000000 ![] bcast_S_S4000000 : (⟨S_, .i32⟩ : BufTy).Contents (Elt F) → (⟨S4000000, .i32⟩ : BufTy).Contents (Elt F)),
    StableHlo.binary main_v56 main_v59 main_v60 (addi : (⟨S4000000, .i32⟩ : BufTy).Contents (Elt F) → (⟨S4000000, .i32⟩ : BufTy).Contents (Elt F) → (⟨S4000000, .i32⟩ : BufTy).Contents (Elt F)) ]

/-- Operations 49–57 after the cell ids. -/
abbrev r4 : List (HloOp τ sig (Elt F)) :=
  [ StableHlo.ternary main_v58 main_v60 main_v56 main_v61 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v61 main_v62 (broadcastInDim S4000000x1 ![0] bcast_S4000000_S4000000x1_0 : (⟨S4000000, .i32⟩ : BufTy).Contents (Elt F) → (⟨S4000000x1, .i32⟩ : BufTy).Contents (Elt F)),
    StableHlo.binary main_v28 main_v62 main_v63 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_v64 (iotaInDim S4000000 32 0),
    StableHlo.nullary main_c_16 (constantI S_ 1 1#1),
    StableHlo.unary main_c_16 main_v65 (broadcastInDim S1 ![] bcast_S_S1 : (⟨S_, .i1⟩ : BufTy).Contents (Elt F) → (⟨S1, .i1⟩ : BufTy).Contents (Elt F)),
    StableHlo.unary main_v63 main_v66 ((extractStridedSlice S3999999 ![1] · slices_S4000000_S3999999_1) : (⟨S4000000, .i32⟩ : BufTy).Contents (Elt F) → (⟨S3999999, .i32⟩ : BufTy).Contents (Elt F)),
    StableHlo.unary main_v63 main_v67 ((extractStridedSlice S3999999 ![0] · slices_S4000000_S3999999_0) : (⟨S4000000, .i32⟩ : BufTy).Contents (Elt F) → (⟨S3999999, .i32⟩ : BufTy).Contents (Elt F)),
    StableHlo.binary main_v66 main_v67 main_v68 (cmpi .ne : (⟨S3999999, .i32⟩ : BufTy).Contents (Elt F) → (⟨S3999999, .i32⟩ : BufTy).Contents (Elt F) → (⟨S3999999, .i1⟩ : BufTy).Contents (Elt F)) ]

/-- Operations 58–68 after the cell ids. -/
abbrev r5 : List (HloOp τ sig (Elt F)) :=
  [ StableHlo.binary main_v65 main_v68 main_v69 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),
    StableHlo.nullary main_c_17 (constantI S_ 32 0#32),
    StableHlo.TRef.unary (.of main_c_17 : StableHlo.TRef sig ⟨S_, .i32⟩) main_call4.v0 id,
    StableHlo.TRef.unary main_call4.v0 main_call4.v1 (broadcastInDim S4000000 ![] bcast_S_S4000000),
    StableHlo.TRef.ternary (.of main_v69 : StableHlo.TRef sig ⟨S4000000, .i1⟩) (.of main_v64 : StableHlo.TRef sig ⟨S4000000, .i32⟩) main_call4.v1 main_call4.v2 select,
    StableHlo.TRef.nullary main_call5.c (constantI S_ 32 2147483648#32),
    StableHlo.TRef.unary main_call5.c main_call5.v0 (broadcastInDim S_ ![] bcast_S_S_),
    StableHlo.TRef.binary (.of main_v70 : StableHlo.TRef sig ⟨S4000000, .i32⟩) main_call5.v0 main_call5.v1 (fun x v => Host.reduceWindow IntOp.maxsi ![4000000] ![1] ![3999999] ![0] x v reduceWindows_S4000000_S4000000_w4000000s1p3999999_0 h_S_),
    StableHlo.nullary main_c_18 (constantI S_ 32 0#32),
    StableHlo.unary main_c_18 main_v72 (broadcastInDim S4000000 ![] bcast_S_S4000000 : (⟨S_, .i32⟩ : BufTy).Contents (Elt F) → (⟨S4000000, .i32⟩ : BufTy).Contents (Elt F)),
    StableHlo.binary main_v64 main_v71 main_v73 (subi : (⟨S4000000, .i32⟩ : BufTy).Contents (Elt F) → (⟨S4000000, .i32⟩ : BufTy).Contents (Elt F) → (⟨S4000000, .i32⟩ : BufTy).Contents (Elt F)) ]

/-- Operations 69–79 after the cell ids. -/
abbrev r6 : List (HloOp τ sig (Elt F)) :=
  [ StableHlo.nullary main_c_19 (constantI S_ 32 0#32),
    StableHlo.unary main_c_19 main_v74 (broadcastInDim S4000000 ![] bcast_S_S4000000 : (⟨S_, .i32⟩ : BufTy).Contents (Elt F) → (⟨S4000000, .i32⟩ : BufTy).Contents (Elt F)),
    StableHlo.binary main_v56 main_v74 main_v75 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 4000000#32),
    StableHlo.unary main_c_20 main_v76 (broadcastInDim S4000000 ![] bcast_S_S4000000 : (⟨S_, .i32⟩ : BufTy).Contents (Elt F) → (⟨S4000000, .i32⟩ : BufTy).Contents (Elt F)),
    StableHlo.binary main_v56 main_v76 main_v77 (addi : (⟨S4000000, .i32⟩ : BufTy).Contents (Elt F) → (⟨S4000000, .i32⟩ : BufTy).Contents (Elt F) → (⟨S4000000, .i32⟩ : BufTy).Contents (Elt F)),
    StableHlo.ternary main_v75 main_v77 main_v56 main_v78 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v78 main_v79 (broadcastInDim S4000000x1 ![0] bcast_S4000000_S4000000x1_0 : (⟨S4000000, .i32⟩ : BufTy).Contents (Elt F) → (⟨S4000000x1, .i32⟩ : BufTy).Contents (Elt F)),
    StableHlo.ternary main_v72 main_v79 main_v73 main_v80 ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.nullary main_c_21 (constantI S_ 32 40000#32),
    StableHlo.unary main_c_21 main_v81 (broadcastInDim S4000000 ![] bcast_S_S4000000 : (⟨S_, .i32⟩ : BufTy).Contents (Elt F) → (⟨S4000000, .i32⟩ : BufTy).Contents (Elt F)) ]

/-- Operations 80–90 after the cell ids. -/
abbrev r7 : List (HloOp τ sig (Elt F)) :=
  [ StableHlo.binary main_v55 main_v81 main_v82 (cmpi .slt : (⟨S4000000, .i32⟩ : BufTy).Contents (Elt F) → (⟨S4000000, .i32⟩ : BufTy).Contents (Elt F) → (⟨S4000000, .i1⟩ : BufTy).Contents (Elt F)),
    StableHlo.binary main_v15 main_v82 main_v83 (andi : (⟨S4000000, .i1⟩ : BufTy).Contents (Elt F) → (⟨S4000000, .i1⟩ : BufTy).Contents (Elt F) → (⟨S4000000, .i1⟩ : BufTy).Contents (Elt F)),
    StableHlo.nullary main_c_22 (constantI S_ 32 32#32),
    StableHlo.unary main_c_22 main_v84 (broadcastInDim S4000000 ![] bcast_S_S4000000 : (⟨S_, .i32⟩ : BufTy).Contents (Elt F) → (⟨S4000000, .i32⟩ : BufTy).Contents (Elt F)),
    StableHlo.binary main_v80 main_v84 main_v85 (cmpi .slt : (⟨S4000000, .i32⟩ : BufTy).Contents (Elt F) → (⟨S4000000, .i32⟩ : BufTy).Contents (Elt F) → (⟨S4000000, .i1⟩ : BufTy).Contents (Elt F)),
    StableHlo.binary main_v83 main_v85 main_v86 (andi : (⟨S4000000, .i1⟩ : BufTy).Contents (Elt F) → (⟨S4000000, .i1⟩ : BufTy).Contents (Elt F) → (⟨S4000000, .i1⟩ : BufTy).Contents (Elt F)),
    StableHlo.nullary main_c_23 (constantI S_ 32 40000#32),
    StableHlo.TRef.unary (.of main_c_23 : StableHlo.TRef sig ⟨S_, .i32⟩) main_call6.v0 id,
    StableHlo.TRef.unary main_call6.v0 main_call6.v1 (broadcastInDim S4000000 ![] bcast_S_S4000000),
    StableHlo.TRef.ternary (.of main_v86 : StableHlo.TRef sig ⟨S4000000, .i1⟩) (.of main_v55 : StableHlo.TRef sig ⟨S4000000, .i32⟩) main_call6.v1 main_call6.v2 select,
    StableHlo.nullary main_c_24 (constantI S_ 32 0#32) ]

/-- Operations 91–101 after the cell ids. -/
abbrev r8 : List (HloOp τ sig (Elt F)) :=
  [ StableHlo.TRef.unary (.of main_c_24 : StableHlo.TRef sig ⟨S_, .i32⟩) main_call7.v0 id,
    StableHlo.TRef.unary main_call7.v0 main_call7.v1 (broadcastInDim S4000000 ![] bcast_S_S4000000),
    StableHlo.TRef.ternary (.of main_v86 : StableHlo.TRef sig ⟨S4000000, .i1⟩) (.of main_v80 : StableHlo.TRef sig ⟨S4000000, .i32⟩) main_call7.v1 main_call7.v2 select,
    StableHlo.nullary main_cst_25 (constant S_ .f32 0x00000000#32),
    StableHlo.unary main_cst_25 main_v89 (broadcastInDim S40001x32x4 ![] bcast_S_S40001x32x4 : (⟨S_, .f32⟩ : BufTy).Contents (Elt F) → (⟨S40001x32x4, .f32⟩ : BufTy).Contents (Elt F)),
    StableHlo.nullary main_c_26 (constantI S_ 32 0#32),
    StableHlo.unary main_c_26 main_v90 (broadcastInDim S4000000 ![] bcast_S_S4000000 : (⟨S_, .i32⟩ : BufTy).Contents (Elt F) → (⟨S4000000, .i32⟩ : BufTy).Contents (Elt F)),
    StableHlo.binary main_v87 main_v90 main_v91 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 40001#32),
    StableHlo.unary main_c_27 main_v92 (broadcastInDim S4000000 ![] bcast_S_S4000000 : (⟨S_, .i32⟩ : BufTy).Contents (Elt F) → (⟨S4000000, .i32⟩ : BufTy).Contents (Elt F)),
    StableHlo.binary main_v87 main_v92 main_v93 (addi : (⟨S4000000, .i32⟩ : BufTy).Contents (Elt F) → (⟨S4000000, .i32⟩ : BufTy).Contents (Elt F) → (⟨S4000000, .i32⟩ : BufTy).Contents (Elt F)) ]

/-- Operations 102–111 after the cell ids. -/
abbrev r9 : List (HloOp τ sig (Elt F)) :=
  [ StableHlo.ternary main_v91 main_v93 main_v87 main_v94 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_28 (constantI S_ 32 0#32),
    StableHlo.unary main_c_28 main_v95 (broadcastInDim S4000000 ![] bcast_S_S4000000 : (⟨S_, .i32⟩ : BufTy).Contents (Elt F) → (⟨S4000000, .i32⟩ : BufTy).Contents (Elt F)),
    StableHlo.binary main_v88 main_v95 main_v96 (cmpi .slt : (⟨S4000000, .i32⟩ : BufTy).Contents (Elt F) → (⟨S4000000, .i32⟩ : BufTy).Contents (Elt F) → (⟨S4000000, .i1⟩ : BufTy).Contents (Elt F)),
    StableHlo.nullary main_c_29 (constantI S_ 32 32#32),
    StableHlo.unary main_c_29 main_v97 (broadcastInDim S4000000 ![] bcast_S_S4000000 : (⟨S_, .i32⟩ : BufTy).Contents (Elt F) → (⟨S4000000, .i32⟩ : BufTy).Contents (Elt F)),
    StableHlo.binary main_v88 main_v97 main_v98 (addi : (⟨S4000000, .i32⟩ : BufTy).Contents (Elt F) → (⟨S4000000, .i32⟩ : BufTy).Contents (Elt F) → (⟨S4000000, .i32⟩ : BufTy).Contents (Elt F)),
    StableHlo.ternary main_v96 main_v98 main_v88 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v94 main_v100 (broadcastInDim S4000000x1 ![0] bcast_S4000000_S4000000x1_0 : (⟨S4000000, .i32⟩ : BufTy).Contents (Elt F) → (⟨S4000000x1, .i32⟩ : BufTy).Contents (Elt F)),
    StableHlo.unary main_v99 main_v101 (broadcastInDim S4000000x1 ![0] bcast_S4000000_S4000000x1_0 : (⟨S4000000, .i32⟩ : BufTy).Contents (Elt F) → (⟨S4000000x1, .i32⟩ : BufTy).Contents (Elt F)) ]

/-- Operations 112–123 after the cell ids. -/
abbrev r10 : List (HloOp τ sig (Elt F)) :=
  [ StableHlo.binary main_v100 main_v101 main_v102 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v89 main_v102 main_arg0 main_v103 ((fun x i u => Host.scatter scatter_S40001x32x4_S4000000x2_S4000000x4_1_01_01_1 (fun _ b => b) x i u) : (⟨S40001x32x4, .f32⟩ : BufTy).Contents (Elt F) → (⟨S4000000x2, .i32⟩ : BufTy).Contents (Elt F) → (⟨S4000000x4, .f32⟩ : BufTy).Contents (Elt F) → (⟨S40001x32x4, .f32⟩ : BufTy).Contents (Elt F)),
    StableHlo.unary main_v103 main_v104 ((extractStridedSlice S40000x32x4 ![0, 0, 0] · slices_S40001x32x4_S40000x32x4_0_0_0) : (⟨S40001x32x4, .f32⟩ : BufTy).Contents (Elt F) → (⟨S40000x32x4, .f32⟩ : BufTy).Contents (Elt F)),
    StableHlo.nullary main_c_30 (constantI S_ 32 40000#32),
    StableHlo.unary main_c_30 main_v105 (broadcastInDim S4000000 ![] bcast_S_S4000000 : (⟨S_, .i32⟩ : BufTy).Contents (Elt F) → (⟨S4000000, .i32⟩ : BufTy).Contents (Elt F)),
    StableHlo.binary main_v55 main_v105 main_v106 (cmpi .slt : (⟨S4000000, .i32⟩ : BufTy).Contents (Elt F) → (⟨S4000000, .i32⟩ : BufTy).Contents (Elt F) → (⟨S4000000, .i1⟩ : BufTy).Contents (Elt F)),
    StableHlo.binary main_v44 main_v106 main_v107 (andi : (⟨S4000000, .i1⟩ : BufTy).Contents (Elt F) → (⟨S4000000, .i1⟩ : BufTy).Contents (Elt F) → (⟨S4000000, .i1⟩ : BufTy).Contents (Elt F)),
    StableHlo.nullary main_c_31 (constantI S_ 32 40000#32),
    StableHlo.TRef.unary (.of main_c_31 : StableHlo.TRef sig ⟨S_, .i32⟩) main_call8.v0 id,
    StableHlo.TRef.unary main_call8.v0 main_call8.v1 (broadcastInDim S4000000 ![] bcast_S_S4000000),
    StableHlo.TRef.ternary (.of main_v107 : StableHlo.TRef sig ⟨S4000000, .i1⟩) (.of main_v55 : StableHlo.TRef sig ⟨S4000000, .i32⟩) main_call8.v1 main_call8.v2 select,
    StableHlo.nullary main_c_32 (constantI S_ 32 0#32) ]

/-- Operations 124–135 after the cell ids. -/
abbrev r11 : List (HloOp τ sig (Elt F)) :=
  [ StableHlo.unary main_c_32 main_v109 (broadcastInDim S40001x3 ![] bcast_S_S40001x3 : (⟨S_, .i32⟩ : BufTy).Contents (Elt F) → (⟨S40001x3, .i32⟩ : BufTy).Contents (Elt F)),
    StableHlo.nullary main_c_33 (constantI S_ 32 0#32),
    StableHlo.unary main_c_33 main_v110 (broadcastInDim S4000000 ![] bcast_S_S4000000 : (⟨S_, .i32⟩ : BufTy).Contents (Elt F) → (⟨S4000000, .i32⟩ : BufTy).Contents (Elt F)),
    StableHlo.binary main_v108 main_v110 main_v111 (cmpi .slt : (⟨S4000000, .i32⟩ : BufTy).Contents (Elt F) → (⟨S4000000, .i32⟩ : BufTy).Contents (Elt F) → (⟨S4000000, .i1⟩ : BufTy).Contents (Elt F)),
    StableHlo.nullary main_c_34 (constantI S_ 32 40001#32),
    StableHlo.unary main_c_34 main_v112 (broadcastInDim S4000000 ![] bcast_S_S4000000 : (⟨S_, .i32⟩ : BufTy).Contents (Elt F) → (⟨S4000000, .i32⟩ : BufTy).Contents (Elt F)),
    StableHlo.binary main_v108 main_v112 main_v113 (addi : (⟨S4000000, .i32⟩ : BufTy).Contents (Elt F) → (⟨S4000000, .i32⟩ : BufTy).Contents (Elt F) → (⟨S4000000, .i32⟩ : BufTy).Contents (Elt F)),
    StableHlo.ternary main_v111 main_v113 main_v108 main_v114 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v114 main_v115 (broadcastInDim S4000000x1 ![0] bcast_S4000000_S4000000x1_0 : (⟨S4000000, .i32⟩ : BufTy).Contents (Elt F) → (⟨S4000000x1, .i32⟩ : BufTy).Contents (Elt F)),
    StableHlo.ternary main_v109 main_v115 main_v8 main_v116 ((fun x i u => Host.scatter scatter_S40001x3_S4000000x1_S4000000x3_1_0_0_1 (fun _ b => b) x i u) : (⟨S40001x3, .i32⟩ : BufTy).Contents (Elt F) → (⟨S4000000x1, .i32⟩ : BufTy).Contents (Elt F) → (⟨S4000000x3, .i32⟩ : BufTy).Contents (Elt F) → (⟨S40001x3, .i32⟩ : BufTy).Contents (Elt F)),
    StableHlo.unary main_v116 main_v117 ((extractStridedSlice S40000x3 ![0, 0] · slices_S40001x3_S40000x3_0_0) : (⟨S40001x3, .i32⟩ : BufTy).Contents (Elt F) → (⟨S40000x3, .i32⟩ : BufTy).Contents (Elt F)),
    StableHlo.nullary main_c_35 (constantI S_ 32 0#32) ]

/-- Operations 136–150 after the cell ids. -/
abbrev r12 : List (HloOp τ sig (Elt F)) :=
  [ StableHlo.unary main_c_35 main_v118 (broadcastInDim S40001 ![] bcast_S_S40001 : (⟨S_, .i32⟩ : BufTy).Contents (Elt F) → (⟨S40001, .i32⟩ : BufTy).Contents (Elt F)),
    StableHlo.unary main_v86 main_v119 ((extui 32 · natLt_1_32) : (⟨S4000000, .i1⟩ : BufTy).Contents (Elt F) → (⟨S4000000, .i32⟩ : BufTy).Contents (Elt F)),
    StableHlo.nullary main_c_36 (constantI S_ 32 0#32),
    StableHlo.unary main_c_36 main_v120 (broadcastInDim S4000000 ![] bcast_S_S4000000 : (⟨S_, .i32⟩ : BufTy).Contents (Elt F) → (⟨S4000000, .i32⟩ : BufTy).Contents (Elt F)),
    StableHlo.binary main_v87 main_v120 main_v121 (cmpi .slt : (⟨S4000000, .i32⟩ : BufTy).Contents (Elt F) → (⟨S4000000, .i32⟩ : BufTy).Contents (Elt F) → (⟨S4000000, .i1⟩ : BufTy).Contents (Elt F)),
    StableHlo.nullary main_c_37 (constantI S_ 32 40001#32),
    StableHlo.unary main_c_37 main_v122 (broadcastInDim S4000000 ![] bcast_S_S4000000 : (⟨S_, .i32⟩ : BufTy).Contents (Elt F) → (⟨S4000000, .i32⟩ : BufTy).Contents (Elt F)),
    StableHlo.binary main_v87 main_v122 main_v123 (addi : (⟨S4000000, .i32⟩ : BufTy).Contents (Elt F) → (⟨S4000000, .i32⟩ : BufTy).Contents (Elt F) → (⟨S4000000, .i32⟩ : BufTy).Contents (Elt F)),
    StableHlo.ternary main_v121 main_v123 main_v87 main_v124 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v124 main_v125 (broadcastInDim S4000000x1 ![0] bcast_S4000000_S4000000x1_0 : (⟨S4000000, .i32⟩ : BufTy).Contents (Elt F) → (⟨S4000000x1, .i32⟩ : BufTy).Contents (Elt F)),
    StableHlo.ternary main_v118 main_v125 main_v119 main_v126 ((fun x i u => Host.scatter scatter_S40001_S4000000x1_S4000000_n_0_0_1 IntOp.addi x i u) : (⟨S40001, .i32⟩ : BufTy).Contents (Elt F) → (⟨S4000000x1, .i32⟩ : BufTy).Contents (Elt F) → (⟨S4000000, .i32⟩ : BufTy).Contents (Elt F) → (⟨S40001, .i32⟩ : BufTy).Contents (Elt F)),
    StableHlo.unary main_v126 main_v127 ((extractStridedSlice S40000 ![0] · slices_S40001_S40000_0) : (⟨S40001, .i32⟩ : BufTy).Contents (Elt F) → (⟨S40000, .i32⟩ : BufTy).Contents (Elt F)),
    StableHlo.unary main_v107 main_v128 ((extui 32 · natLt_1_32) : (⟨S4000000, .i1⟩ : BufTy).Contents (Elt F) → (⟨S4000000, .i32⟩ : BufTy).Contents (Elt F)),
    StableHlo.nullary main_c_38 (constantI S_ 32 0#32),
    StableHlo.binary main_v128 main_c_38 main_v129 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)) ]

/-- The line after the cell ids is these stretches in a row. -/
theorem tail_steps : (opsTail (F := F)) = r0 ++ (r1 ++ (r2 ++ (r3 ++ (r4 ++ (r5 ++ (r6 ++ (r7 ++ (r8 ++ (r9 ++ (r10 ++ (r11 ++ (r12)))))))))))) := rfl

end Cert.ReferenceIdeal.TailSteps

end
-- ==== Proof.TailStepsA.lean ====
/-
  The two lines agree stretch by stretch (stretches 1–3 of thirteen).

  Each stretch is the same operations written over the two programs' buffers. For arbitrary contents of the
  two sets of buffers that agree on every buffer still read from here on, the contents after the stretch
  agree on every buffer read after it: a buffer the stretch writes holds the same operation of agreeing
  operands on both sides, and a buffer it does not write is as before. Each side's stretch is folded into
  one composed term per buffer; the agreeing operands are identified; the terms are then the same term
  (every whole-array operation kept folded while they are compared).
-/
import proofs.«120821_j73985106641253_2_alg».proof.Proof.TailStepsK
import proofs.«120821_j73985106641253_2_alg».proof.Proof.TailStepsR
import Idealize.ShloMosaic.PureOps.Ideal

noncomputable section

namespace Cert.Agree

open Idealize.ShloMosaic Idealize.ShloMosaic.TcCoe Idealize.SL.Sem Idealize.ShloMosaic.StableHlo

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 1–12 of the common line: buffers that agree before still agree after, and so do the ones these operations write. -/
theorem step_0 (W : Valuation Cert.KernelIdeal.τ Cert.KernelIdeal.sig (Elt Ideal)) (V : Valuation Cert.ReferenceIdeal.τ Cert.ReferenceIdeal.sig (Elt Ideal))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_v1 : V (Cert.ReferenceIdeal.main_v28 : DevRef Cert.ReferenceIdeal.τ Cert.ReferenceIdeal.sig) = W (Cert.KernelIdeal.main_v1 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r0 (F := Ideal)) V (Cert.ReferenceIdeal.main_v28 : DevRef Cert.ReferenceIdeal.τ Cert.ReferenceIdeal.sig)
        = after (Cert.KernelIdeal.TailSteps.k0 (F := Ideal)) W (Cert.KernelIdeal.main_v1 : DevRef Cert.KernelIdeal.τ Cert.KernelIdeal.sig))
    ∧ (after (Cert.ReferenceIdeal.TailSteps.r0 (F := Ideal)) V (Cert.ReferenceIdeal.main_v35 : DevRef Cert.ReferenceIdeal.τ Cert.ReferenceIdeal.sig)
        = after (Cert.KernelIdeal.TailSteps.k0 (F := Ideal)) W (Cert.KernelIdeal.main_v10 : DevRef Cert.KernelIdeal.τ Cert.KernelIdeal.sig))
    ∧ (after (Cert.ReferenceIdeal.TailSteps.r0 (F := Ideal)) V (Cert.ReferenceIdeal.main_v33 : DevRef Cert.ReferenceIdeal.τ Cert.ReferenceIdeal.sig)
        = after (Cert.KernelIdeal.TailSteps.k0 (F := Ideal)) W (Cert.KernelIdeal.main_v8 : DevRef Cert.KernelIdeal.τ Cert.KernelIdeal.sig))
    ∧ (after (Cert.ReferenceIdeal.TailSteps.r0 (F := Ideal)) V (Cert.ReferenceIdeal.main_v29 : DevRef Cert.ReferenceIdeal.τ Cert.ReferenceIdeal.sig)
        = after (Cert.KernelIdeal.TailSteps.k0 (F := Ideal)) W (Cert.KernelIdeal.main_v4 : DevRef Cert.KernelIdeal.τ Cert.KernelIdeal.sig))
    ∧ (after (Cert.ReferenceIdeal.TailSteps.r0 (F := Ideal)) V (Cert.ReferenceIdeal.main_v15 : DevRef Cert.ReferenceIdeal.τ Cert.ReferenceIdeal.sig)
        = after (Cert.KernelIdeal.TailSteps.k0 (F := Ideal)) W (Cert.KernelIdeal.main_v3 : DevRef Cert.KernelIdeal.τ Cert.KernelIdeal.sig))
    ∧ (after (Cert.ReferenceIdeal.TailSteps.r0 (F := Ideal)) V (Cert.ReferenceIdeal.main_arg0 : DevRef Cert.ReferenceIdeal.τ Cert.ReferenceIdeal.sig)
        = after (Cert.KernelIdeal.TailSteps.k0 (F := Ideal)) W (Cert.KernelIdeal.main_arg0 : DevRef Cert.KernelIdeal.τ Cert.KernelIdeal.sig))
    ∧ (after (Cert.ReferenceIdeal.TailSteps.r0 (F := Ideal)) V (Cert.ReferenceIdeal.main_v8 : DevRef Cert.ReferenceIdeal.τ Cert.ReferenceIdeal.sig)
        = after (Cert.KernelIdeal.TailSteps.k0 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v3]
  try rw [h_main_v1]
  try rw [h_main_arg0]
  try rw [h_main_v0_0]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 13–24 of the common line: buffers that agree before still agree after, and so do the ones these operations write. -/
theorem step_1 (W : Valuation Cert.KernelIdeal.τ Cert.KernelIdeal.sig (Elt Ideal)) (V : Valuation Cert.ReferenceIdeal.τ Cert.ReferenceIdeal.sig (Elt Ideal))
    (h_main_v1 : V (Cert.ReferenceIdeal.main_v28 : DevRef Cert.ReferenceIdeal.τ Cert.ReferenceIdeal.sig) = W (Cert.KernelIdeal.main_v1 : DevRef Cert.KernelIdeal.τ Cert.KernelIdeal.sig))
    (h_main_v10 : V (Cert.ReferenceIdeal.main_v35 : DevRef Cert.ReferenceIdeal.τ Cert.ReferenceIdeal.sig) = W (Cert.KernelIdeal.main_v10 : DevRef Cert.KernelIdeal.τ Cert.KernelIdeal.sig))
    (h_main_v8 : V (Cert.ReferenceIdeal.main_v33 : DevRef Cert.ReferenceIdeal.τ Cert.ReferenceIdeal.sig) = W (Cert.KernelIdeal.main_v8 : DevRef Cert.KernelIdeal.τ Cert.KernelIdeal.sig))
    (h_main_v4 : V (Cert.ReferenceIdeal.main_v29 : DevRef Cert.ReferenceIdeal.τ Cert.ReferenceIdeal.sig) = W (Cert.KernelIdeal.main_v4 : DevRef Cert.KernelIdeal.τ Cert.KernelIdeal.sig))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r1 (F := Ideal)) V (Cert.ReferenceIdeal.main_v45 : DevRef Cert.ReferenceIdeal.τ Cert.ReferenceIdeal.sig)
        = after (Cert.KernelIdeal.TailSteps.k1 (F := Ideal)) W (Cert.KernelIdeal.main_v20 : DevRef Cert.KernelIdeal.τ Cert.KernelIdeal.sig))
    ∧ (after (Cert.ReferenceIdeal.TailSteps.r1 (F := Ideal)) V (Cert.ReferenceIdeal.main_v42 : DevRef Cert.ReferenceIdeal.τ Cert.ReferenceIdeal.sig)
        = after (Cert.KernelIdeal.TailSteps.k1 (F := Ideal)) W (Cert.KernelIdeal.main_v17 : DevRef Cert.KernelIdeal.τ Cert.KernelIdeal.sig))
    ∧ (after (Cert.ReferenceIdeal.TailSteps.r1 (F := Ideal)) V (Cert.ReferenceIdeal.main_v28 : DevRef Cert.ReferenceIdeal.τ Cert.ReferenceIdeal.sig)
        = after (Cert.KernelIdeal.TailSteps.k1 (F := Ideal)) W (Cert.KernelIdeal.main_v1 : DevRef Cert.KernelIdeal.τ Cert.KernelIdeal.sig))
    ∧ (after (Cert.ReferenceIdeal.TailSteps.r1 (F := Ideal)) V (Cert.ReferenceIdeal.main_v15 : DevRef Cert.ReferenceIdeal.τ Cert.ReferenceIdeal.sig)
        = after (Cert.KernelIdeal.TailSteps.k1 (F := Ideal)) W (Cert.KernelIdeal.main_v3 : DevRef Cert.KernelIdeal.τ Cert.KernelIdeal.sig))
    ∧ (after (Cert.ReferenceIdeal.TailSteps.r1 (F := Ideal)) V (Cert.ReferenceIdeal.main_arg0 : DevRef Cert.ReferenceIdeal.τ Cert.ReferenceIdeal.sig)
        = after (Cert.KernelIdeal.TailSteps.k1 (F := Ideal)) W (Cert.KernelIdeal.main_arg0 : DevRef Cert.KernelIdeal.τ Cert.KernelIdeal.sig))
    ∧ (after (Cert.ReferenceIdeal.TailSteps.r1 (F := Ideal)) V (Cert.ReferenceIdeal.main_v44 : DevRef Cert.ReferenceIdeal.τ Cert.ReferenceIdeal.sig)
        = after (Cert.KernelIdeal.TailSteps.k1 (F := Ideal)) W (Cert.KernelIdeal.main_v19 : DevRef Cert.KernelIdeal.τ Cert.KernelIdeal.sig))
    ∧ (after (Cert.ReferenceIdeal.TailSteps.r1 (F := Ideal)) V (Cert.ReferenceIdeal.main_v8 : DevRef Cert.ReferenceIdeal.τ Cert.ReferenceIdeal.sig)
        = after (Cert.KernelIdeal.TailSteps.k1 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v1]
  try rw [h_main_v10]
  try rw [h_main_v8]
  try rw [h_main_v4]
  try rw [h_main_v3]
  try rw [h_main_arg0]
  try rw [h_main_v0_0]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 25–36 of the common line: buffers that agree before still agree after, and so do the ones these operations write. -/
theorem step_2 (W : Valuation Cert.KernelIdeal.τ Cert.KernelIdeal.sig (Elt Ideal)) (V : Valuation Cert.ReferenceIdeal.τ Cert.ReferenceIdeal.sig (Elt Ideal))
    (h_main_v20 : V (Cert.ReferenceIdeal.main_v45 : DevRef Cert.ReferenceIdeal.τ Cert.ReferenceIdeal.sig) = W (Cert.KernelIdeal.main_v20 : DevRef Cert.KernelIdeal.τ Cert.KernelIdeal.sig))
    (h_main_v17 : V (Cert.ReferenceIdeal.main_v42 : DevRef Cert.ReferenceIdeal.τ Cert.ReferenceIdeal.sig) = W (Cert.KernelIdeal.main_v17 : DevRef Cert.KernelIdeal.τ Cert.KernelIdeal.sig))
    (h_main_v1 : V (Cert.ReferenceIdeal.main_v28 : DevRef Cert.ReferenceIdeal.τ Cert.ReferenceIdeal.sig) = W (Cert.KernelIdeal.main_v1 : DevRef Cert.KernelIdeal.τ Cert.KernelIdeal.sig))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r2 (F := Ideal)) V (Cert.ReferenceIdeal.main_v50 : DevRef Cert.ReferenceIdeal.τ Cert.ReferenceIdeal.sig)
        = after (Cert.KernelIdeal.TailSteps.k2 (F := Ideal)) W (Cert.KernelIdeal.main_v25 : DevRef Cert.KernelIdeal.τ Cert.KernelIdeal.sig))
    ∧ (after (Cert.ReferenceIdeal.TailSteps.r2 (F := Ideal)) V (Cert.ReferenceIdeal.main_v52 : DevRef Cert.ReferenceIdeal.τ Cert.ReferenceIdeal.sig)
        = after (Cert.KernelIdeal.TailSteps.k2 (F := Ideal)) W (Cert.KernelIdeal.main_v27 : DevRef Cert.KernelIdeal.τ Cert.KernelIdeal.sig))
    ∧ (after (Cert.ReferenceIdeal.TailSteps.r2 (F := Ideal)) V (Cert.ReferenceIdeal.main_v42 : DevRef Cert.ReferenceIdeal.τ Cert.ReferenceIdeal.sig)
        = after (Cert.KernelIdeal.TailSteps.k2 (F := Ideal)) W (Cert.KernelIdeal.main_v17 : DevRef Cert.KernelIdeal.τ Cert.KernelIdeal.sig))
    ∧ (after (Cert.ReferenceIdeal.TailSteps.r2 (F := Ideal)) V (Cert.ReferenceIdeal.main_v48 : DevRef Cert.ReferenceIdeal.τ Cert.ReferenceIdeal.sig)
        = after (Cert.KernelIdeal.TailSteps.k2 (F := Ideal)) W (Cert.KernelIdeal.main_v23 : DevRef Cert.KernelIdeal.τ Cert.KernelIdeal.sig))
    ∧ (after (Cert.ReferenceIdeal.TailSteps.r2 (F := Ideal)) V (Cert.ReferenceIdeal.main_v28 : DevRef Cert.ReferenceIdeal.τ Cert.ReferenceIdeal.sig)
        = after (Cert.KernelIdeal.TailSteps.k2 (F := Ideal)) W (Cert.KernelIdeal.main_v1 : DevRef Cert.KernelIdeal.τ Cert.KernelIdeal.sig))
    ∧ (after (Cert.ReferenceIdeal.TailSteps.r2 (F := Ideal)) V (Cert.ReferenceIdeal.main_v15 : DevRef Cert.ReferenceIdeal.τ Cert.ReferenceIdeal.sig)
        = after (Cert.KernelIdeal.TailSteps.k2 (F := Ideal)) W (Cert.KernelIdeal.main_v3 : DevRef Cert.KernelIdeal.τ Cert.KernelIdeal.sig))
    ∧ (after (Cert.ReferenceIdeal.TailSteps.r2 (F := Ideal)) V (Cert.ReferenceIdeal.main_arg0 : DevRef Cert.ReferenceIdeal.τ Cert.ReferenceIdeal.sig)
        = after (Cert.KernelIdeal.TailSteps.k2 (F := Ideal)) W (Cert.KernelIdeal.main_arg0 : DevRef Cert.KernelIdeal.τ Cert.KernelIdeal.sig))
    ∧ (after (Cert.ReferenceIdeal.TailSteps.r2 (F := Ideal)) V (Cert.ReferenceIdeal.main_v44 : DevRef Cert.ReferenceIdeal.τ Cert.ReferenceIdeal.sig)
        = after (Cert.KernelIdeal.TailSteps.k2 (F := Ideal)) W (Cert.KernelIdeal.main_v19 : DevRef Cert.KernelIdeal.τ Cert.KernelIdeal.sig))
    ∧ (after (Cert.ReferenceIdeal.TailSteps.r2 (F := Ideal)) V (Cert.ReferenceIdeal.main_v8 : DevRef Cert.ReferenceIdeal.τ Cert.ReferenceIdeal.sig)
        = after (Cert.KernelIdeal.TailSteps.k2 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v20]
  try rw [h_main_v17]
  try rw [h_main_v1]
  try rw [h_main_v3]
  try rw [h_main_arg0]
  try rw [h_main_v19]
  try rw [h_main_v0_0]
  try simp only [true_and, and_true]
  all_goals (repeat' apply And.intro)
  all_goals rfl

end Cert.Agree

end
-- ==== Proof.TailStepsB.lean ====
/-
  The two lines agree stretch by stretch (stretches 4–6 of thirteen).

  Each stretch is the same operations written over the two programs' buffers. For arbitrary contents of the
  two sets of buffers that agree on every buffer still read from here on, the contents after the stretch
  agree on every buffer read after it: a buffer the stretch writes holds the same operation of agreeing
  operands on both sides, and a buffer it does not write is as before. Each side's stretch is folded into
  one composed term per buffer; the agreeing operands are identified; the terms are then the same term
  (every whole-array operation kept folded while they are compared).
-/
import proofs.«120821_j73985106641253_2_alg».proof.Proof.TailStepsK
import proofs.«120821_j73985106641253_2_alg».proof.Proof.TailStepsR
import Idealize.ShloMosaic.PureOps.Ideal

noncomputable section

namespace Cert.Agree

open Idealize.ShloMosaic Idealize.ShloMosaic.TcCoe Idealize.SL.Sem Idealize.ShloMosaic.StableHlo

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 37–48 of the common line: buffers that agree before still agree after, and so do the ones these operations write. -/
theorem step_3 (W : Valuation Cert.KernelIdeal.τ Cert.KernelIdeal.sig (Elt Ideal)) (V : Valuation Cert.ReferenceIdeal.τ Cert.ReferenceIdeal.sig (Elt Ideal))
    (h_main_v25 : V (Cert.ReferenceIdeal.main_v50 : DevRef Cert.ReferenceIdeal.τ Cert.ReferenceIdeal.sig) = W (Cert.KernelIdeal.main_v25 : DevRef Cert.KernelIdeal.τ Cert.KernelIdeal.sig))
    (h_main_v27 : V (Cert.ReferenceIdeal.main_v52 : DevRef Cert.ReferenceIdeal.τ Cert.ReferenceIdeal.sig) = W (Cert.KernelIdeal.main_v27 : DevRef Cert.KernelIdeal.τ Cert.KernelIdeal.sig))
    (h_main_v17 : V (Cert.ReferenceIdeal.main_v42 : DevRef Cert.ReferenceIdeal.τ Cert.ReferenceIdeal.sig) = W (Cert.KernelIdeal.main_v17 : DevRef Cert.KernelIdeal.τ Cert.KernelIdeal.sig))
    (h_main_v23 : V (Cert.ReferenceIdeal.main_v48 : DevRef Cert.ReferenceIdeal.τ Cert.ReferenceIdeal.sig) = W (Cert.KernelIdeal.main_v23 : DevRef Cert.KernelIdeal.τ Cert.KernelIdeal.sig))
    (h_main_v1 : V (Cert.ReferenceIdeal.main_v28 : DevRef Cert.ReferenceIdeal.τ Cert.ReferenceIdeal.sig) = W (Cert.KernelIdeal.main_v1 : DevRef Cert.KernelIdeal.τ Cert.KernelIdeal.sig))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r3 (F := Ideal)) V (Cert.ReferenceIdeal.main_v58 : DevRef Cert.ReferenceIdeal.τ Cert.ReferenceIdeal.sig)
        = after (Cert.KernelIdeal.TailSteps.k3 (F := Ideal)) W (Cert.KernelIdeal.main_v33 : DevRef Cert.KernelIdeal.τ Cert.KernelIdeal.sig))
    ∧ (after (Cert.ReferenceIdeal.TailSteps.r3 (F := Ideal)) V (Cert.ReferenceIdeal.main_v60 : DevRef Cert.ReferenceIdeal.τ Cert.ReferenceIdeal.sig)
        = after (Cert.KernelIdeal.TailSteps.k3 (F := Ideal)) W (Cert.KernelIdeal.main_v35 : DevRef Cert.KernelIdeal.τ Cert.KernelIdeal.sig))
    ∧ (after (Cert.ReferenceIdeal.TailSteps.r3 (F := Ideal)) V (Cert.ReferenceIdeal.main_v56 : DevRef Cert.ReferenceIdeal.τ Cert.ReferenceIdeal.sig)
        = after (Cert.KernelIdeal.TailSteps.k3 (F := Ideal)) W (Cert.KernelIdeal.main_v31 : DevRef Cert.KernelIdeal.τ Cert.KernelIdeal.sig))
    ∧ (after (Cert.ReferenceIdeal.TailSteps.r3 (F := Ideal)) V (Cert.ReferenceIdeal.main_v28 : DevRef Cert.ReferenceIdeal.τ Cert.ReferenceIdeal.sig)
        = after (Cert.KernelIdeal.TailSteps.k3 (F := Ideal)) W (Cert.KernelIdeal.main_v1 : DevRef Cert.KernelIdeal.τ Cert.KernelIdeal.sig))
    ∧ (after (Cert.ReferenceIdeal.TailSteps.r3 (F := Ideal)) V (Cert.ReferenceIdeal.main_v55 : DevRef Cert.ReferenceIdeal.τ Cert.ReferenceIdeal.sig)
        = after (Cert.KernelIdeal.TailSteps.k3 (F := Ideal)) W (Cert.KernelIdeal.main_v30 : DevRef Cert.KernelIdeal.τ Cert.KernelIdeal.sig))
    ∧ (after (Cert.ReferenceIdeal.TailSteps.r3 (F := Ideal)) V (Cert.ReferenceIdeal.main_v15 : DevRef Cert.ReferenceIdeal.τ Cert.ReferenceIdeal.sig)
        = after (Cert.KernelIdeal.TailSteps.k3 (F := Ideal)) W (Cert.KernelIdeal.main_v3 : DevRef Cert.KernelIdeal.τ Cert.KernelIdeal.sig))
    ∧ (after (Cert.ReferenceIdeal.TailSteps.r3 (F := Ideal)) V (Cert.ReferenceIdeal.main_arg0 : DevRef Cert.ReferenceIdeal.τ Cert.ReferenceIdeal.sig)
        = after (Cert.KernelIdeal.TailSteps.k3 (F := Ideal)) W (Cert.KernelIdeal.main_arg0 : DevRef Cert.KernelIdeal.τ Cert.KernelIdeal.sig))
    ∧ (after (Cert.ReferenceIdeal.TailSteps.r3 (F := Ideal)) V (Cert.ReferenceIdeal.main_v44 : DevRef Cert.ReferenceIdeal.τ Cert.ReferenceIdeal.sig)
        = after (Cert.KernelIdeal.TailSteps.k3 (F := Ideal)) W (Cert.KernelIdeal.main_v19 : DevRef Cert.KernelIdeal.τ Cert.KernelIdeal.sig))
    ∧ (after (Cert.ReferenceIdeal.TailSteps.r3 (F := Ideal)) V (Cert.ReferenceIdeal.main_v8 : DevRef Cert.ReferenceIdeal.τ Cert.ReferenceIdeal.sig)
        = after (Cert.KernelIdeal.TailSteps.k3 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v25]
  try rw [h_main_v27]
  try rw [h_main_v17]
  try rw [h_main_v23]
  try rw [h_main_v1]
  try rw [h_main_v3]
  try rw [h_main_arg0]
  try rw [h_main_v19]
  try rw [h_main_v0_0]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 49–57 of the common line: buffers that agree before still agree after, and so do the ones these operations write. -/
theorem step_4 (W : Valuation Cert.KernelIdeal.τ Cert.KernelIdeal.sig (Elt Ideal)) (V : Valuation Cert.ReferenceIdeal.τ Cert.ReferenceIdeal.sig (Elt Ideal))
    (h_main_v33 : V (Cert.ReferenceIdeal.main_v58 : DevRef Cert.ReferenceIdeal.τ Cert.ReferenceIdeal.sig) = W (Cert.KernelIdeal.main_v33 : DevRef Cert.KernelIdeal.τ Cert.KernelIdeal.sig))
    (h_main_v35 : V (Cert.ReferenceIdeal.main_v60 : DevRef Cert.ReferenceIdeal.τ Cert.ReferenceIdeal.sig) = W (Cert.KernelIdeal.main_v35 : DevRef Cert.KernelIdeal.τ Cert.KernelIdeal.sig))
    (h_main_v31 : V (Cert.ReferenceIdeal.main_v56 : DevRef Cert.ReferenceIdeal.τ Cert.ReferenceIdeal.sig) = W (Cert.KernelIdeal.main_v31 : DevRef Cert.KernelIdeal.τ Cert.KernelIdeal.sig))
    (h_main_v1 : V (Cert.ReferenceIdeal.main_v28 : DevRef Cert.ReferenceIdeal.τ Cert.ReferenceIdeal.sig) = W (Cert.KernelIdeal.main_v1 : DevRef Cert.KernelIdeal.τ Cert.KernelIdeal.sig))
    (h_main_v30 : V (Cert.ReferenceIdeal.main_v55 : DevRef Cert.ReferenceIdeal.τ Cert.ReferenceIdeal.sig) = W (Cert.KernelIdeal.main_v30 : DevRef Cert.KernelIdeal.τ Cert.KernelIdeal.sig))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r4 (F := Ideal)) V (Cert.ReferenceIdeal.main_v65 : DevRef Cert.ReferenceIdeal.τ Cert.ReferenceIdeal.sig)
        = after (Cert.KernelIdeal.TailSteps.k4 (F := Ideal)) W (Cert.KernelIdeal.main_v40 : DevRef Cert.KernelIdeal.τ Cert.KernelIdeal.sig))
    ∧ (after (Cert.ReferenceIdeal.TailSteps.r4 (F := Ideal)) V (Cert.ReferenceIdeal.main_v68 : DevRef Cert.ReferenceIdeal.τ Cert.ReferenceIdeal.sig)
        = after (Cert.KernelIdeal.TailSteps.k4 (F := Ideal)) W (Cert.KernelIdeal.main_v43 : DevRef Cert.KernelIdeal.τ Cert.KernelIdeal.sig))
    ∧ (after (Cert.ReferenceIdeal.TailSteps.r4 (F := Ideal)) V (Cert.ReferenceIdeal.main_v64 : DevRef Cert.ReferenceIdeal.τ Cert.ReferenceIdeal.sig)
        = after (Cert.KernelIdeal.TailSteps.k4 (F := Ideal)) W (Cert.KernelIdeal.main_v39 : DevRef Cert.KernelIdeal.τ Cert.KernelIdeal.sig))
    ∧ (after (Cert.ReferenceIdeal.TailSteps.r4 (F := Ideal)) V (Cert.ReferenceIdeal.main_v56 : DevRef Cert.ReferenceIdeal.τ Cert.ReferenceIdeal.sig)
        = after (Cert.KernelIdeal.TailSteps.k4 (F := Ideal)) W (Cert.KernelIdeal.main_v31 : DevRef Cert.KernelIdeal.τ Cert.KernelIdeal.sig))
    ∧ (after (Cert.ReferenceIdeal.TailSteps.r4 (F := Ideal)) V (Cert.ReferenceIdeal.main_v55 : DevRef Cert.ReferenceIdeal.τ Cert.ReferenceIdeal.sig)
        = after (Cert.KernelIdeal.TailSteps.k4 (F := Ideal)) W (Cert.KernelIdeal.main_v30 : DevRef Cert.KernelIdeal.τ Cert.KernelIdeal.sig))
    ∧ (after (Cert.ReferenceIdeal.TailSteps.r4 (F := Ideal)) V (Cert.ReferenceIdeal.main_v15 : DevRef Cert.ReferenceIdeal.τ Cert.ReferenceIdeal.sig)
        = after (Cert.KernelIdeal.TailSteps.k4 (F := Ideal)) W (Cert.KernelIdeal.main_v3 : DevRef Cert.KernelIdeal.τ Cert.KernelIdeal.sig))
    ∧ (after (Cert.ReferenceIdeal.TailSteps.r4 (F := Ideal)) V (Cert.ReferenceIdeal.main_arg0 : DevRef Cert.ReferenceIdeal.τ Cert.ReferenceIdeal.sig)
        = after (Cert.KernelIdeal.TailSteps.k4 (F := Ideal)) W (Cert.KernelIdeal.main_arg0 : DevRef Cert.KernelIdeal.τ Cert.KernelIdeal.sig))
    ∧ (after (Cert.ReferenceIdeal.TailSteps.r4 (F := Ideal)) V (Cert.ReferenceIdeal.main_v44 : DevRef Cert.ReferenceIdeal.τ Cert.ReferenceIdeal.sig)
        = after (Cert.KernelIdeal.TailSteps.k4 (F := Ideal)) W (Cert.KernelIdeal.main_v19 : DevRef Cert.KernelIdeal.τ Cert.KernelIdeal.sig))
    ∧ (after (Cert.ReferenceIdeal.TailSteps.r4 (F := Ideal)) V (Cert.ReferenceIdeal.main_v8 : DevRef Cert.ReferenceIdeal.τ Cert.ReferenceIdeal.sig)
        = after (Cert.KernelIdeal.TailSteps.k4 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v33]
  try rw [h_main_v35]
  try rw [h_main_v31]
  try rw [h_main_v1]
  try rw [h_main_v30]
  try rw [h_main_v3]
  try rw [h_main_arg0]
  try rw [h_main_v19]
  try rw [h_main_v0_0]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 58–68 of the common line: buffers that agree before still agree after, and so do the ones these operations write. -/
theorem step_5 (W : Valuation Cert.KernelIdeal.τ Cert.KernelIdeal.sig (Elt Ideal)) (V : Valuation Cert.ReferenceIdeal.τ Cert.ReferenceIdeal.sig (Elt Ideal))
    (h_main_v40 : V (Cert.ReferenceIdeal.main_v65 : DevRef Cert.ReferenceIdeal.τ Cert.ReferenceIdeal.sig) = W (Cert.KernelIdeal.main_v40 : DevRef Cert.KernelIdeal.τ Cert.KernelIdeal.sig))
    (h_main_v43 : V (Cert.ReferenceIdeal.main_v68 : DevRef Cert.ReferenceIdeal.τ Cert.ReferenceIdeal.sig) = W (Cert.KernelIdeal.main_v43 : DevRef Cert.KernelIdeal.τ Cert.KernelIdeal.sig))
    (h_main_v39 : V (Cert.ReferenceIdeal.main_v64 : DevRef Cert.ReferenceIdeal.τ Cert.ReferenceIdeal.sig) = W (Cert.KernelIdeal.main_v39 : DevRef Cert.KernelIdeal.τ Cert.KernelIdeal.sig))
    (h_main_v31 : V (Cert.ReferenceIdeal.main_v56 : DevRef Cert.ReferenceIdeal.τ Cert.ReferenceIdeal.sig) = W (Cert.KernelIdeal.main_v31 : DevRef Cert.KernelIdeal.τ Cert.KernelIdeal.sig))
    (h_main_v30 : V (Cert.ReferenceIdeal.main_v55 : DevRef Cert.ReferenceIdeal.τ Cert.ReferenceIdeal.sig) = W (Cert.KernelIdeal.main_v30 : DevRef Cert.KernelIdeal.τ Cert.KernelIdeal.sig))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r5 (F := Ideal)) V (Cert.ReferenceIdeal.main_v56 : DevRef Cert.ReferenceIdeal.τ Cert.ReferenceIdeal.sig)
        = after (Cert.KernelIdeal.TailSteps.k5 (F := Ideal)) W (Cert.KernelIdeal.main_v31 : DevRef Cert.KernelIdeal.τ Cert.KernelIdeal.sig))
    ∧ (after (Cert.ReferenceIdeal.TailSteps.r5 (F := Ideal)) V (Cert.ReferenceIdeal.main_v72 : DevRef Cert.ReferenceIdeal.τ Cert.ReferenceIdeal.sig)
        = after (Cert.KernelIdeal.TailSteps.k5 (F := Ideal)) W (Cert.KernelIdeal.main_v47 : DevRef Cert.KernelIdeal.τ Cert.KernelIdeal.sig))
    ∧ (after (Cert.ReferenceIdeal.TailSteps.r5 (F := Ideal)) V (Cert.ReferenceIdeal.main_v73 : DevRef Cert.ReferenceIdeal.τ Cert.ReferenceIdeal.sig)
        = after (Cert.KernelIdeal.TailSteps.k5 (F := Ideal)) W (Cert.KernelIdeal.main_v48 : DevRef Cert.KernelIdeal.τ Cert.KernelIdeal.sig))
    ∧ (after (Cert.ReferenceIdeal.TailSteps.r5 (F := Ideal)) V (Cert.ReferenceIdeal.main_v55 : DevRef Cert.ReferenceIdeal.τ Cert.ReferenceIdeal.sig)
        = after (Cert.KernelIdeal.TailSteps.k5 (F := Ideal)) W (Cert.KernelIdeal.main_v30 : DevRef Cert.KernelIdeal.τ Cert.KernelIdeal.sig))
    ∧ (after (Cert.ReferenceIdeal.TailSteps.r5 (F := Ideal)) V (Cert.ReferenceIdeal.main_v15 : DevRef Cert.ReferenceIdeal.τ Cert.ReferenceIdeal.sig)
        = after (Cert.KernelIdeal.TailSteps.k5 (F := Ideal)) W (Cert.KernelIdeal.main_v3 : DevRef Cert.KernelIdeal.τ Cert.KernelIdeal.sig))
    ∧ (after (Cert.ReferenceIdeal.TailSteps.r5 (F := Ideal)) V (Cert.ReferenceIdeal.main_arg0 : DevRef Cert.ReferenceIdeal.τ Cert.ReferenceIdeal.sig)
        = after (Cert.KernelIdeal.TailSteps.k5 (F := Ideal)) W (Cert.KernelIdeal.main_arg0 : DevRef Cert.KernelIdeal.τ Cert.KernelIdeal.sig))
    ∧ (after (Cert.ReferenceIdeal.TailSteps.r5 (F := Ideal)) V (Cert.ReferenceIdeal.main_v44 : DevRef Cert.ReferenceIdeal.τ Cert.ReferenceIdeal.sig)
        = after (Cert.KernelIdeal.TailSteps.k5 (F := Ideal)) W (Cert.KernelIdeal.main_v19 : DevRef Cert.KernelIdeal.τ Cert.KernelIdeal.sig))
    ∧ (after (Cert.ReferenceIdeal.TailSteps.r5 (F := Ideal)) V (Cert.ReferenceIdeal.main_v8 : DevRef Cert.ReferenceIdeal.τ Cert.ReferenceIdeal.sig)
        = after (Cert.KernelIdeal.TailSteps.k5 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v40]
  try rw [h_main_v43]
  try rw [h_main_v39]
  try rw [h_main_v31]
  try rw [h_main_v30]
  try rw [h_main_v3]
  try rw [h_main_arg0]
  try rw [h_main_v19]
  try rw [h_main_v0_0]
  try simp only [true_and, and_true]
  all_goals (repeat' apply And.intro)
  all_goals rfl

end Cert.Agree

end
-- ==== Proof.TailStepsC.lean ====
/-
  The two lines agree stretch by stretch (stretches 7–10 of thirteen).

  Each stretch is the same operations written over the two programs' buffers. For arbitrary contents of the
  two sets of buffers that agree on every buffer still read from here on, the contents after the stretch
  agree on every buffer read after it: a buffer the stretch writes holds the same operation of agreeing
  operands on both sides, and a buffer it does not write is as before. Each side's stretch is folded into
  one composed term per buffer; the agreeing operands are identified; the terms are then the same term
  (every whole-array operation kept folded while they are compared).
-/
import proofs.«120821_j73985106641253_2_alg».proof.Proof.TailStepsK
import proofs.«120821_j73985106641253_2_alg».proof.Proof.TailStepsR
import Idealize.ShloMosaic.PureOps.Ideal

noncomputable section

namespace Cert.Agree

open Idealize.ShloMosaic Idealize.ShloMosaic.TcCoe Idealize.SL.Sem Idealize.ShloMosaic.StableHlo

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 69–79 of the common line: buffers that agree before still agree after, and so do the ones these operations write. -/
theorem step_6 (W : Valuation Cert.KernelIdeal.τ Cert.KernelIdeal.sig (Elt Ideal)) (V : Valuation Cert.ReferenceIdeal.τ Cert.ReferenceIdeal.sig (Elt Ideal))
    (h_main_v31 : V (Cert.ReferenceIdeal.main_v56 : DevRef Cert.ReferenceIdeal.τ Cert.ReferenceIdeal.sig) = W (Cert.KernelIdeal.main_v31 : DevRef Cert.KernelIdeal.τ Cert.KernelIdeal.sig))
    (h_main_v47 : V (Cert.ReferenceIdeal.main_v72 : DevRef Cert.ReferenceIdeal.τ Cert.ReferenceIdeal.sig) = W (Cert.KernelIdeal.main_v47 : DevRef Cert.KernelIdeal.τ Cert.KernelIdeal.sig))
    (h_main_v48 : V (Cert.ReferenceIdeal.main_v73 : DevRef Cert.ReferenceIdeal.τ Cert.ReferenceIdeal.sig) = W (Cert.KernelIdeal.main_v48 : DevRef Cert.KernelIdeal.τ Cert.KernelIdeal.sig))
    (h_main_v30 : V (Cert.ReferenceIdeal.main_v55 : DevRef Cert.ReferenceIdeal.τ Cert.ReferenceIdeal.sig) = W (Cert.KernelIdeal.main_v30 : DevRef Cert.KernelIdeal.τ Cert.KernelIdeal.sig))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r6 (F := Ideal)) V (Cert.ReferenceIdeal.main_v55 : DevRef Cert.ReferenceIdeal.τ Cert.ReferenceIdeal.sig)
        = after (Cert.KernelIdeal.TailSteps.k6 (F := Ideal)) W (Cert.KernelIdeal.main_v30 : DevRef Cert.KernelIdeal.τ Cert.KernelIdeal.sig))
    ∧ (after (Cert.ReferenceIdeal.TailSteps.r6 (F := Ideal)) V (Cert.ReferenceIdeal.main_v81 : DevRef Cert.ReferenceIdeal.τ Cert.ReferenceIdeal.sig)
        = after (Cert.KernelIdeal.TailSteps.k6 (F := Ideal)) W (Cert.KernelIdeal.main_v56 : DevRef Cert.KernelIdeal.τ Cert.KernelIdeal.sig))
    ∧ (after (Cert.ReferenceIdeal.TailSteps.r6 (F := Ideal)) V (Cert.ReferenceIdeal.main_v15 : DevRef Cert.ReferenceIdeal.τ Cert.ReferenceIdeal.sig)
        = after (Cert.KernelIdeal.TailSteps.k6 (F := Ideal)) W (Cert.KernelIdeal.main_v3 : DevRef Cert.KernelIdeal.τ Cert.KernelIdeal.sig))
    ∧ (after (Cert.ReferenceIdeal.TailSteps.r6 (F := Ideal)) V (Cert.ReferenceIdeal.main_v80 : DevRef Cert.ReferenceIdeal.τ Cert.ReferenceIdeal.sig)
        = after (Cert.KernelIdeal.TailSteps.k6 (F := Ideal)) W (Cert.KernelIdeal.main_v55 : DevRef Cert.KernelIdeal.τ Cert.KernelIdeal.sig))
    ∧ (after (Cert.ReferenceIdeal.TailSteps.r6 (F := Ideal)) V (Cert.ReferenceIdeal.main_arg0 : DevRef Cert.ReferenceIdeal.τ Cert.ReferenceIdeal.sig)
        = after (Cert.KernelIdeal.TailSteps.k6 (F := Ideal)) W (Cert.KernelIdeal.main_arg0 : DevRef Cert.KernelIdeal.τ Cert.KernelIdeal.sig))
    ∧ (after (Cert.ReferenceIdeal.TailSteps.r6 (F := Ideal)) V (Cert.ReferenceIdeal.main_v44 : DevRef Cert.ReferenceIdeal.τ Cert.ReferenceIdeal.sig)
        = after (Cert.KernelIdeal.TailSteps.k6 (F := Ideal)) W (Cert.KernelIdeal.main_v19 : DevRef Cert.KernelIdeal.τ Cert.KernelIdeal.sig))
    ∧ (after (Cert.ReferenceIdeal.TailSteps.r6 (F := Ideal)) V (Cert.ReferenceIdeal.main_v8 : DevRef Cert.ReferenceIdeal.τ Cert.ReferenceIdeal.sig)
        = after (Cert.KernelIdeal.TailSteps.k6 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v31]
  try rw [h_main_v47]
  try rw [h_main_v48]
  try rw [h_main_v30]
  try rw [h_main_v3]
  try rw [h_main_arg0]
  try rw [h_main_v19]
  try rw [h_main_v0_0]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 80–90 of the common line: buffers that agree before still agree after, and so do the ones these operations write. -/
theorem step_7 (W : Valuation Cert.KernelIdeal.τ Cert.KernelIdeal.sig (Elt Ideal)) (V : Valuation Cert.ReferenceIdeal.τ Cert.ReferenceIdeal.sig (Elt Ideal))
    (h_main_v30 : V (Cert.ReferenceIdeal.main_v55 : DevRef Cert.ReferenceIdeal.τ Cert.ReferenceIdeal.sig) = W (Cert.KernelIdeal.main_v30 : DevRef Cert.KernelIdeal.τ Cert.KernelIdeal.sig))
    (h_main_v56 : V (Cert.ReferenceIdeal.main_v81 : DevRef Cert.ReferenceIdeal.τ Cert.ReferenceIdeal.sig) = W (Cert.KernelIdeal.main_v56 : DevRef Cert.KernelIdeal.τ Cert.KernelIdeal.sig))
    (h_main_v3 : V (Cert.ReferenceIdeal.main_v15 : DevRef Cert.ReferenceIdeal.τ Cert.ReferenceIdeal.sig) = W (Cert.KernelIdeal.main_v3 : DevRef Cert.KernelIdeal.τ Cert.KernelIdeal.sig))
    (h_main_v55 : V (Cert.ReferenceIdeal.main_v80 : DevRef Cert.ReferenceIdeal.τ Cert.ReferenceIdeal.sig) = W (Cert.KernelIdeal.main_v55 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r7 (F := Ideal)) V (Cert.ReferenceIdeal.main_c_24 : DevRef Cert.ReferenceIdeal.τ Cert.ReferenceIdeal.sig)
        = after (Cert.KernelIdeal.TailSteps.k7 (F := Ideal)) W (Cert.KernelIdeal.main_c_18 : DevRef Cert.KernelIdeal.τ Cert.KernelIdeal.sig))
    ∧ (after (Cert.ReferenceIdeal.TailSteps.r7 (F := Ideal)) V (Cert.ReferenceIdeal.main_v86 : DevRef Cert.ReferenceIdeal.τ Cert.ReferenceIdeal.sig)
        = after (Cert.KernelIdeal.TailSteps.k7 (F := Ideal)) W (Cert.KernelIdeal.main_v61 : DevRef Cert.KernelIdeal.τ Cert.KernelIdeal.sig))
    ∧ (after (Cert.ReferenceIdeal.TailSteps.r7 (F := Ideal)) V (Cert.ReferenceIdeal.main_v80 : DevRef Cert.ReferenceIdeal.τ Cert.ReferenceIdeal.sig)
        = after (Cert.KernelIdeal.TailSteps.k7 (F := Ideal)) W (Cert.KernelIdeal.main_v55 : DevRef Cert.KernelIdeal.τ Cert.KernelIdeal.sig))
    ∧ (after (Cert.ReferenceIdeal.TailSteps.r7 (F := Ideal)) V (Cert.ReferenceIdeal.main_v87 : DevRef Cert.ReferenceIdeal.τ Cert.ReferenceIdeal.sig)
        = after (Cert.KernelIdeal.TailSteps.k7 (F := Ideal)) W (Cert.KernelIdeal.main_v62 : DevRef Cert.KernelIdeal.τ Cert.KernelIdeal.sig))
    ∧ (after (Cert.ReferenceIdeal.TailSteps.r7 (F := Ideal)) V (Cert.ReferenceIdeal.main_arg0 : DevRef Cert.ReferenceIdeal.τ Cert.ReferenceIdeal.sig)
        = after (Cert.KernelIdeal.TailSteps.k7 (F := Ideal)) W (Cert.KernelIdeal.main_arg0 : DevRef Cert.KernelIdeal.τ Cert.KernelIdeal.sig))
    ∧ (after (Cert.ReferenceIdeal.TailSteps.r7 (F := Ideal)) V (Cert.ReferenceIdeal.main_v55 : DevRef Cert.ReferenceIdeal.τ Cert.ReferenceIdeal.sig)
        = after (Cert.KernelIdeal.TailSteps.k7 (F := Ideal)) W (Cert.KernelIdeal.main_v30 : DevRef Cert.KernelIdeal.τ Cert.KernelIdeal.sig))
    ∧ (after (Cert.ReferenceIdeal.TailSteps.r7 (F := Ideal)) V (Cert.ReferenceIdeal.main_v44 : DevRef Cert.ReferenceIdeal.τ Cert.ReferenceIdeal.sig)
        = after (Cert.KernelIdeal.TailSteps.k7 (F := Ideal)) W (Cert.KernelIdeal.main_v19 : DevRef Cert.KernelIdeal.τ Cert.KernelIdeal.sig))
    ∧ (after (Cert.ReferenceIdeal.TailSteps.r7 (F := Ideal)) V (Cert.ReferenceIdeal.main_v8 : DevRef Cert.ReferenceIdeal.τ Cert.ReferenceIdeal.sig)
        = after (Cert.KernelIdeal.TailSteps.k7 (F := Ideal)) W (Cert.KernelIdeal.main_v0_0 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v30]
  try rw [h_main_v56]
  try rw [h_main_v3]
  try rw [h_main_v55]
  try rw [h_main_arg0]
  try rw [h_main_v19]
  try rw [h_main_v0_0]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 91–101 of the common line: buffers that agree before still agree after, and so do the ones these operations write. -/
theorem step_8 (W : Valuation Cert.KernelIdeal.τ Cert.KernelIdeal.sig (Elt Ideal)) (V : Valuation Cert.ReferenceIdeal.τ Cert.ReferenceIdeal.sig (Elt Ideal))
    (h_main_c_18 : V (Cert.ReferenceIdeal.main_c_24 : DevRef Cert.ReferenceIdeal.τ Cert.ReferenceIdeal.sig) = W (Cert.KernelIdeal.main_c_18 : DevRef Cert.KernelIdeal.τ Cert.KernelIdeal.sig))
    (h_main_v61 : V (Cert.ReferenceIdeal.main_v86 : DevRef Cert.ReferenceIdeal.τ Cert.ReferenceIdeal.sig) = W (Cert.KernelIdeal.main_v61 : DevRef Cert.KernelIdeal.τ Cert.KernelIdeal.sig))
    (h_main_v55 : V (Cert.ReferenceIdeal.main_v80 : DevRef Cert.ReferenceIdeal.τ Cert.ReferenceIdeal.sig) = W (Cert.KernelIdeal.main_v55 : DevRef Cert.KernelIdeal.τ Cert.KernelIdeal.sig))
    (h_main_v62 : V (Cert.ReferenceIdeal.main_v87 : DevRef Cert.ReferenceIdeal.τ Cert.ReferenceIdeal.sig) = W (Cert.KernelIdeal.main_v62 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v30 : V (Cert.ReferenceIdeal.main_v55 : DevRef Cert.ReferenceIdeal.τ Cert.ReferenceIdeal.sig) = W (Cert.KernelIdeal.main_v30 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig)) :
    (after (Cert.ReferenceIdeal.TailSteps.r8 (F := Ideal)) V (Cert.ReferenceIdeal.main_v91 : DevRef Cert.ReferenceIdeal.τ Cert.ReferenceIdeal.sig)
        = after (Cert.KernelIdeal.TailSteps.k8 (F := Ideal)) W (Cert.KernelIdeal.main_v66 : DevRef Cert.KernelIdeal.τ Cert.KernelIdeal.sig))
    ∧ (after (Cert.ReferenceIdeal.TailSteps.r8 (F := Ideal)) V (Cert.ReferenceIdeal.main_v93 : DevRef Cert.ReferenceIdeal.τ Cert.ReferenceIdeal.sig)
        = after (Cert.KernelIdeal.TailSteps.k8 (F := Ideal)) W (Cert.KernelIdeal.main_v68 : DevRef Cert.KernelIdeal.τ Cert.KernelIdeal.sig))
    ∧ (after (Cert.ReferenceIdeal.TailSteps.r8 (F := Ideal)) V (Cert.ReferenceIdeal.main_v87 : DevRef Cert.ReferenceIdeal.τ Cert.ReferenceIdeal.sig)
        = after (Cert.KernelIdeal.TailSteps.k8 (F := Ideal)) W (Cert.KernelIdeal.main_v62 : DevRef Cert.KernelIdeal.τ Cert.KernelIdeal.sig))
    ∧ (after (Cert.ReferenceIdeal.TailSteps.r8 (F := Ideal)) V (Cert.ReferenceIdeal.main_v88 : DevRef Cert.ReferenceIdeal.τ Cert.ReferenceIdeal.sig)
        = after (Cert.KernelIdeal.TailSteps.k8 (F := Ideal)) W (Cert.KernelIdeal.main_v63 : DevRef Cert.KernelIdeal.τ Cert.KernelIdeal.sig))
    ∧ (after (Cert.ReferenceIdeal.TailSteps.r8 (F := Ideal)) V (Cert.ReferenceIdeal.main_v89 : DevRef Cert.ReferenceIdeal.τ Cert.ReferenceIdeal.sig)
        = after (Cert.KernelIdeal.TailSteps.k8 (F := Ideal)) W (Cert.KernelIdeal.main_v64 : DevRef Cert.KernelIdeal.τ Cert.KernelIdeal.sig))
    ∧ (after (Cert.ReferenceIdeal.TailSteps.r8 (F := Ideal)) V (Cert.ReferenceIdeal.main_arg0 : DevRef Cert.ReferenceIdeal.τ Cert.ReferenceIdeal.sig)
        = after (Cert.KernelIdeal.TailSteps.k8 (F := Ideal)) W (Cert.KernelIdeal.main_arg0 : DevRef Cert.KernelIdeal.τ Cert.KernelIdeal.sig))
    ∧ (after (Cert.ReferenceIdeal.TailSteps.r8 (F := Ideal)) V (Cert.ReferenceIdeal.main_v55 : DevRef Cert.ReferenceIdeal.τ Cert.ReferenceIdeal.sig)
        = after (Cert.KernelIdeal.TailSteps.k8 (F := Ideal)) W (Cert.KernelIdeal.main_v30 : DevRef Cert.KernelIdeal.τ Cert.KernelIdeal.sig))
    ∧ (after (Cert.ReferenceIdeal.TailSteps.r8 (F := Ideal)) V (Cert.ReferenceIdeal.main_v44 : DevRef Cert.ReferenceIdeal.τ Cert.ReferenceIdeal.sig)
        = after (Cert.KernelIdeal.TailSteps.k8 (F := Ideal)) W (Cert.KernelIdeal.main_v19 : DevRef Cert.KernelIdeal.τ Cert.KernelIdeal.sig))
    ∧ (after (Cert.ReferenceIdeal.TailSteps.r8 (F := Ideal)) V (Cert.ReferenceIdeal.main_v8 : DevRef Cert.ReferenceIdeal.τ Cert.ReferenceIdeal.sig)
        = after (Cert.KernelIdeal.TailSteps.k8 (F := Ideal)) W (Cert.KernelIdeal.main_v0_0 : DevRef Cert.KernelIdeal.τ Cert.KernelIdeal.sig))
    ∧ (after (Cert.ReferenceIdeal.TailSteps.r8 (F := Ideal)) V (Cert.ReferenceIdeal.main_v86 : DevRef Cert.ReferenceIdeal.τ Cert.ReferenceIdeal.sig)
        = after (Cert.KernelIdeal.TailSteps.k8 (F := Ideal)) W (Cert.KernelIdeal.main_v61 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_c_18]
  try rw [h_main_v61]
  try rw [h_main_v55]
  try rw [h_main_v62]
  try rw [h_main_arg0]
  try rw [h_main_v30]
  try rw [h_main_v19]
  try rw [h_main_v0_0]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 102–111 of the common line: buffers that agree before still agree after, and so do the ones these operations write. -/
theorem step_9 (W : Valuation Cert.KernelIdeal.τ Cert.KernelIdeal.sig (Elt Ideal)) (V : Valuation Cert.ReferenceIdeal.τ Cert.ReferenceIdeal.sig (Elt Ideal))
    (h_main_v66 : V (Cert.ReferenceIdeal.main_v91 : DevRef Cert.ReferenceIdeal.τ Cert.ReferenceIdeal.sig) = W (Cert.KernelIdeal.main_v66 : DevRef Cert.KernelIdeal.τ Cert.KernelIdeal.sig))
    (h_main_v68 : V (Cert.ReferenceIdeal.main_v93 : DevRef Cert.ReferenceIdeal.τ Cert.ReferenceIdeal.sig) = W (Cert.KernelIdeal.main_v68 : DevRef Cert.KernelIdeal.τ Cert.KernelIdeal.sig))
    (h_main_v62 : V (Cert.ReferenceIdeal.main_v87 : DevRef Cert.ReferenceIdeal.τ Cert.ReferenceIdeal.sig) = W (Cert.KernelIdeal.main_v62 : DevRef Cert.KernelIdeal.τ Cert.KernelIdeal.sig))
    (h_main_v63 : V (Cert.ReferenceIdeal.main_v88 : DevRef Cert.ReferenceIdeal.τ Cert.ReferenceIdeal.sig) = W (Cert.KernelIdeal.main_v63 : DevRef Cert.KernelIdeal.τ Cert.KernelIdeal.sig))
    (h_main_v64 : V (Cert.ReferenceIdeal.main_v89 : DevRef Cert.ReferenceIdeal.τ Cert.ReferenceIdeal.sig) = W (Cert.KernelIdeal.main_v64 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v30 : V (Cert.ReferenceIdeal.main_v55 : DevRef Cert.ReferenceIdeal.τ Cert.ReferenceIdeal.sig) = W (Cert.KernelIdeal.main_v30 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig))
    (h_main_v61 : V (Cert.ReferenceIdeal.main_v86 : DevRef Cert.ReferenceIdeal.τ Cert.ReferenceIdeal.sig) = W (Cert.KernelIdeal.main_v61 : DevRef Cert.KernelIdeal.τ Cert.KernelIdeal.sig)) :
    (after (Cert.ReferenceIdeal.TailSteps.r9 (F := Ideal)) V (Cert.ReferenceIdeal.main_v100 : DevRef Cert.ReferenceIdeal.τ Cert.ReferenceIdeal.sig)
        = after (Cert.KernelIdeal.TailSteps.k9 (F := Ideal)) W (Cert.KernelIdeal.main_v75 : DevRef Cert.KernelIdeal.τ Cert.KernelIdeal.sig))
    ∧ (after (Cert.ReferenceIdeal.TailSteps.r9 (F := Ideal)) V (Cert.ReferenceIdeal.main_v101 : DevRef Cert.ReferenceIdeal.τ Cert.ReferenceIdeal.sig)
        = after (Cert.KernelIdeal.TailSteps.k9 (F := Ideal)) W (Cert.KernelIdeal.main_v76 : DevRef Cert.KernelIdeal.τ Cert.KernelIdeal.sig))
    ∧ (after (Cert.ReferenceIdeal.TailSteps.r9 (F := Ideal)) V (Cert.ReferenceIdeal.main_v89 : DevRef Cert.ReferenceIdeal.τ Cert.ReferenceIdeal.sig)
        = after (Cert.KernelIdeal.TailSteps.k9 (F := Ideal)) W (Cert.KernelIdeal.main_v64 : DevRef Cert.KernelIdeal.τ Cert.KernelIdeal.sig))
    ∧ (after (Cert.ReferenceIdeal.TailSteps.r9 (F := Ideal)) V (Cert.ReferenceIdeal.main_arg0 : DevRef Cert.ReferenceIdeal.τ Cert.ReferenceIdeal.sig)
        = after (Cert.KernelIdeal.TailSteps.k9 (F := Ideal)) W (Cert.KernelIdeal.main_arg0 : DevRef Cert.KernelIdeal.τ Cert.KernelIdeal.sig))
    ∧ (after (Cert.ReferenceIdeal.TailSteps.r9 (F := Ideal)) V (Cert.ReferenceIdeal.main_v55 : DevRef Cert.ReferenceIdeal.τ Cert.ReferenceIdeal.sig)
        = after (Cert.KernelIdeal.TailSteps.k9 (F := Ideal)) W (Cert.KernelIdeal.main_v30 : DevRef Cert.KernelIdeal.τ Cert.KernelIdeal.sig))
    ∧ (after (Cert.ReferenceIdeal.TailSteps.r9 (F := Ideal)) V (Cert.ReferenceIdeal.main_v44 : DevRef Cert.ReferenceIdeal.τ Cert.ReferenceIdeal.sig)
        = after (Cert.KernelIdeal.TailSteps.k9 (F := Ideal)) W (Cert.KernelIdeal.main_v19 : DevRef Cert.KernelIdeal.τ Cert.KernelIdeal.sig))
    ∧ (after (Cert.ReferenceIdeal.TailSteps.r9 (F := Ideal)) V (Cert.ReferenceIdeal.main_v8 : DevRef Cert.ReferenceIdeal.τ Cert.ReferenceIdeal.sig)
        = after (Cert.KernelIdeal.TailSteps.k9 (F := Ideal)) W (Cert.KernelIdeal.main_v0_0 : DevRef Cert.KernelIdeal.τ Cert.KernelIdeal.sig))
    ∧ (after (Cert.ReferenceIdeal.TailSteps.r9 (F := Ideal)) V (Cert.ReferenceIdeal.main_v86 : DevRef Cert.ReferenceIdeal.τ Cert.ReferenceIdeal.sig)
        = after (Cert.KernelIdeal.TailSteps.k9 (F := Ideal)) W (Cert.KernelIdeal.main_v61 : DevRef Cert.KernelIdeal.τ Cert.KernelIdeal.sig))
    ∧ (after (Cert.ReferenceIdeal.TailSteps.r9 (F := Ideal)) V (Cert.ReferenceIdeal.main_v87 : DevRef Cert.ReferenceIdeal.τ Cert.ReferenceIdeal.sig)
        = after (Cert.KernelIdeal.TailSteps.k9 (F := Ideal)) W (Cert.KernelIdeal.main_v62 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v66]
  try rw [h_main_v68]
  try rw [h_main_v62]
  try rw [h_main_v63]
  try rw [h_main_v64]
  try rw [h_main_arg0]
  try rw [h_main_v30]
  try rw [h_main_v19]
  try rw [h_main_v0_0]
  try rw [h_main_v61]
  try simp only [true_and, and_true]
  all_goals (repeat' apply And.intro)
  all_goals rfl

end Cert.Agree

end
-- ==== Proof.TailStepsD.lean ====
/-
  The two lines agree stretch by stretch (stretches 11–13 of thirteen).

  Each stretch is the same operations written over the two programs' buffers. For arbitrary contents of the
  two sets of buffers that agree on every buffer still read from here on, the contents after the stretch
  agree on every buffer read after it: a buffer the stretch writes holds the same operation of agreeing
  operands on both sides, and a buffer it does not write is as before. Each side's stretch is folded into
  one composed term per buffer; the agreeing operands are identified; the terms are then the same term
  (every whole-array operation kept folded while they are compared).
-/
import proofs.«120821_j73985106641253_2_alg».proof.Proof.TailStepsK
import proofs.«120821_j73985106641253_2_alg».proof.Proof.TailStepsR
import Idealize.ShloMosaic.PureOps.Ideal

noncomputable section

namespace Cert.Agree

open Idealize.ShloMosaic Idealize.ShloMosaic.TcCoe Idealize.SL.Sem Idealize.ShloMosaic.StableHlo

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 112–123 of the common line: buffers that agree before still agree after, and so do the ones these operations write. -/
theorem step_10 (W : Valuation Cert.KernelIdeal.τ Cert.KernelIdeal.sig (Elt Ideal)) (V : Valuation Cert.ReferenceIdeal.τ Cert.ReferenceIdeal.sig (Elt Ideal))
    (h_main_v75 : V (Cert.ReferenceIdeal.main_v100 : DevRef Cert.ReferenceIdeal.τ Cert.ReferenceIdeal.sig) = W (Cert.KernelIdeal.main_v75 : DevRef Cert.KernelIdeal.τ Cert.KernelIdeal.sig))
    (h_main_v76 : V (Cert.ReferenceIdeal.main_v101 : DevRef Cert.ReferenceIdeal.τ Cert.ReferenceIdeal.sig) = W (Cert.KernelIdeal.main_v76 : DevRef Cert.KernelIdeal.τ Cert.KernelIdeal.sig))
    (h_main_v64 : V (Cert.ReferenceIdeal.main_v89 : DevRef Cert.ReferenceIdeal.τ Cert.ReferenceIdeal.sig) = W (Cert.KernelIdeal.main_v64 : DevRef Cert.KernelIdeal.τ Cert.KernelIdeal.sig))
    (h_main_arg0 : V (Cert.ReferenceIdeal.main_arg0 : DevRef Cert.ReferenceIdeal.τ Cert.ReferenceIdeal.sig) = W (Cert.KernelIdeal.main_arg0 : DevRef Cert.KernelIdeal.τ Cert.KernelIdeal.sig))
    (h_main_v30 : V (Cert.ReferenceIdeal.main_v55 : DevRef Cert.ReferenceIdeal.τ Cert.ReferenceIdeal.sig) = W (Cert.KernelIdeal.main_v30 : DevRef Cert.KernelIdeal.τ Cert.KernelIdeal.sig))
    (h_main_v19 : V (Cert.ReferenceIdeal.main_v44 : DevRef Cert.ReferenceIdeal.τ Cert.ReferenceIdeal.sig) = W (Cert.KernelIdeal.main_v19 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig))
    (h_main_v61 : V (Cert.ReferenceIdeal.main_v86 : DevRef Cert.ReferenceIdeal.τ Cert.ReferenceIdeal.sig) = W (Cert.KernelIdeal.main_v61 : DevRef Cert.KernelIdeal.τ Cert.KernelIdeal.sig))
    (h_main_v62 : V (Cert.ReferenceIdeal.main_v87 : DevRef Cert.ReferenceIdeal.τ Cert.ReferenceIdeal.sig) = W (Cert.KernelIdeal.main_v62 : DevRef Cert.KernelIdeal.τ Cert.KernelIdeal.sig)) :
    (after (Cert.ReferenceIdeal.TailSteps.r10 (F := Ideal)) V (Cert.ReferenceIdeal.main_c_32 : DevRef Cert.ReferenceIdeal.τ Cert.ReferenceIdeal.sig)
        = after (Cert.KernelIdeal.TailSteps.k10 (F := Ideal)) W (Cert.KernelIdeal.main_c_25 : DevRef Cert.KernelIdeal.τ Cert.KernelIdeal.sig))
    ∧ (after (Cert.ReferenceIdeal.TailSteps.r10 (F := Ideal)) V (Cert.ReferenceIdeal.main_v108 : DevRef Cert.ReferenceIdeal.τ Cert.ReferenceIdeal.sig)
        = after (Cert.KernelIdeal.TailSteps.k10 (F := Ideal)) W (Cert.KernelIdeal.main_v83 : DevRef Cert.KernelIdeal.τ Cert.KernelIdeal.sig))
    ∧ (after (Cert.ReferenceIdeal.TailSteps.r10 (F := Ideal)) V (Cert.ReferenceIdeal.main_v8 : DevRef Cert.ReferenceIdeal.τ Cert.ReferenceIdeal.sig)
        = after (Cert.KernelIdeal.TailSteps.k10 (F := Ideal)) W (Cert.KernelIdeal.main_v0_0 : DevRef Cert.KernelIdeal.τ Cert.KernelIdeal.sig))
    ∧ (after (Cert.ReferenceIdeal.TailSteps.r10 (F := Ideal)) V (Cert.ReferenceIdeal.main_v86 : DevRef Cert.ReferenceIdeal.τ Cert.ReferenceIdeal.sig)
        = after (Cert.KernelIdeal.TailSteps.k10 (F := Ideal)) W (Cert.KernelIdeal.main_v61 : DevRef Cert.KernelIdeal.τ Cert.KernelIdeal.sig))
    ∧ (after (Cert.ReferenceIdeal.TailSteps.r10 (F := Ideal)) V (Cert.ReferenceIdeal.main_v87 : DevRef Cert.ReferenceIdeal.τ Cert.ReferenceIdeal.sig)
        = after (Cert.KernelIdeal.TailSteps.k10 (F := Ideal)) W (Cert.KernelIdeal.main_v62 : DevRef Cert.KernelIdeal.τ Cert.KernelIdeal.sig))
    ∧ (after (Cert.ReferenceIdeal.TailSteps.r10 (F := Ideal)) V (Cert.ReferenceIdeal.main_v107 : DevRef Cert.ReferenceIdeal.τ Cert.ReferenceIdeal.sig)
        = after (Cert.KernelIdeal.TailSteps.k10 (F := Ideal)) W (Cert.KernelIdeal.main_v82 : DevRef Cert.KernelIdeal.τ Cert.KernelIdeal.sig))
    ∧ (after (Cert.ReferenceIdeal.TailSteps.r10 (F := Ideal)) V (Cert.ReferenceIdeal.main_v104 : DevRef Cert.ReferenceIdeal.τ Cert.ReferenceIdeal.sig)
        = after (Cert.KernelIdeal.TailSteps.k10 (F := Ideal)) W (Cert.KernelIdeal.main_v79 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_v75]
  try rw [h_main_v76]
  try rw [h_main_v64]
  try rw [h_main_arg0]
  try rw [h_main_v30]
  try rw [h_main_v19]
  try rw [h_main_v0_0]
  try rw [h_main_v61]
  try rw [h_main_v62]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 124–135 of the common line: buffers that agree before still agree after, and so do the ones these operations write. -/
theorem step_11 (W : Valuation Cert.KernelIdeal.τ Cert.KernelIdeal.sig (Elt Ideal)) (V : Valuation Cert.ReferenceIdeal.τ Cert.ReferenceIdeal.sig (Elt Ideal))
    (h_main_c_25 : V (Cert.ReferenceIdeal.main_c_32 : DevRef Cert.ReferenceIdeal.τ Cert.ReferenceIdeal.sig) = W (Cert.KernelIdeal.main_c_25 : DevRef Cert.KernelIdeal.τ Cert.KernelIdeal.sig))
    (h_main_v83 : V (Cert.ReferenceIdeal.main_v108 : DevRef Cert.ReferenceIdeal.τ Cert.ReferenceIdeal.sig) = W (Cert.KernelIdeal.main_v83 : DevRef Cert.KernelIdeal.τ Cert.KernelIdeal.sig))
    (h_main_v0_0 : V (Cert.ReferenceIdeal.main_v8 : DevRef Cert.ReferenceIdeal.τ Cert.ReferenceIdeal.sig) = W (Cert.KernelIdeal.main_v0_0 : DevRef Cert.KernelIdeal.τ Cert.KernelIdeal.sig))
    (h_main_v61 : V (Cert.ReferenceIdeal.main_v86 : DevRef Cert.ReferenceIdeal.τ Cert.ReferenceIdeal.sig) = W (Cert.KernelIdeal.main_v61 : DevRef Cert.KernelIdeal.τ Cert.KernelIdeal.sig))
    (h_main_v62 : V (Cert.ReferenceIdeal.main_v87 : DevRef Cert.ReferenceIdeal.τ Cert.ReferenceIdeal.sig) = W (Cert.KernelIdeal.main_v62 : DevRef Cert.KernelIdeal.τ Cert.KernelIdeal.sig))
    (h_main_v82 : V (Cert.ReferenceIdeal.main_v107 : DevRef Cert.ReferenceIdeal.τ Cert.ReferenceIdeal.sig) = W (Cert.KernelIdeal.main_v82 : DevRef Cert.KernelIdeal.τ Cert.KernelIdeal.sig))
    (h_main_v79 : V (Cert.ReferenceIdeal.main_v104 : DevRef Cert.ReferenceIdeal.τ Cert.ReferenceIdeal.sig) = W (Cert.KernelIdeal.main_v79 : DevRef Cert.KernelIdeal.τ Cert.KernelIdeal.sig)) :
    (after (Cert.ReferenceIdeal.TailSteps.r11 (F := Ideal)) V (Cert.ReferenceIdeal.main_c_35 : DevRef Cert.ReferenceIdeal.τ Cert.ReferenceIdeal.sig)
        = after (Cert.KernelIdeal.TailSteps.k11 (F := Ideal)) W (Cert.KernelIdeal.main_c_28 : DevRef Cert.KernelIdeal.τ Cert.KernelIdeal.sig))
    ∧ (after (Cert.ReferenceIdeal.TailSteps.r11 (F := Ideal)) V (Cert.ReferenceIdeal.main_v86 : DevRef Cert.ReferenceIdeal.τ Cert.ReferenceIdeal.sig)
        = after (Cert.KernelIdeal.TailSteps.k11 (F := Ideal)) W (Cert.KernelIdeal.main_v61 : DevRef Cert.KernelIdeal.τ Cert.KernelIdeal.sig))
    ∧ (after (Cert.ReferenceIdeal.TailSteps.r11 (F := Ideal)) V (Cert.ReferenceIdeal.main_v87 : DevRef Cert.ReferenceIdeal.τ Cert.ReferenceIdeal.sig)
        = after (Cert.KernelIdeal.TailSteps.k11 (F := Ideal)) W (Cert.KernelIdeal.main_v62 : DevRef Cert.KernelIdeal.τ Cert.KernelIdeal.sig))
    ∧ (after (Cert.ReferenceIdeal.TailSteps.r11 (F := Ideal)) V (Cert.ReferenceIdeal.main_v107 : DevRef Cert.ReferenceIdeal.τ Cert.ReferenceIdeal.sig)
        = after (Cert.KernelIdeal.TailSteps.k11 (F := Ideal)) W (Cert.KernelIdeal.main_v82 : DevRef Cert.KernelIdeal.τ Cert.KernelIdeal.sig))
    ∧ (after (Cert.ReferenceIdeal.TailSteps.r11 (F := Ideal)) V (Cert.ReferenceIdeal.main_v104 : DevRef Cert.ReferenceIdeal.τ Cert.ReferenceIdeal.sig)
        = after (Cert.KernelIdeal.TailSteps.k11 (F := Ideal)) W (Cert.KernelIdeal.main_v79 : DevRef Cert.KernelIdeal.τ Cert.KernelIdeal.sig))
    ∧ (after (Cert.ReferenceIdeal.TailSteps.r11 (F := Ideal)) V (Cert.ReferenceIdeal.main_v117 : DevRef Cert.ReferenceIdeal.τ Cert.ReferenceIdeal.sig)
        = after (Cert.KernelIdeal.TailSteps.k11 (F := Ideal)) W (Cert.KernelIdeal.main_v92 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_c_25]
  try rw [h_main_v83]
  try rw [h_main_v0_0]
  try rw [h_main_v61]
  try rw [h_main_v62]
  try rw [h_main_v82]
  try rw [h_main_v79]
  try simp only [true_and, and_true]
  all_goals (repeat' apply And.intro)
  all_goals rfl

attribute [local irreducible] Idealize.ShloMosaic.select Idealize.ShloMosaic.cmpi Idealize.ShloMosaic.andi Idealize.ShloMosaic.addi Idealize.ShloMosaic.subi Idealize.ShloMosaic.muli Idealize.ShloMosaic.minsi Idealize.ShloMosaic.maxsi Idealize.ShloMosaic.extui Idealize.ShloMosaic.fptosi Idealize.ShloMosaic.subf Idealize.ShloMosaic.Host.divf Idealize.ShloMosaic.Host.floor Idealize.ShloMosaic.broadcastInDim Idealize.ShloMosaic.extractStridedSlice Idealize.ShloMosaic.shapeCast Idealize.ShloMosaic.concatenate Idealize.ShloMosaic.iotaInDim Idealize.ShloMosaic.constantI Idealize.ShloMosaic.Host.scatter Idealize.ShloMosaic.Host.gather Idealize.ShloMosaic.Host.sort2 Idealize.ShloMosaic.Host.reduceWindow Idealize.ShloMosaic.Host.reduce in
set_option maxRecDepth 16384 in
set_option maxHeartbeats 4000000 in
/-- Operations 136–150 of the common line: buffers that agree before still agree after, and so do the ones these operations write. -/
theorem step_12 (W : Valuation Cert.KernelIdeal.τ Cert.KernelIdeal.sig (Elt Ideal)) (V : Valuation Cert.ReferenceIdeal.τ Cert.ReferenceIdeal.sig (Elt Ideal))
    (h_main_c_28 : V (Cert.ReferenceIdeal.main_c_35 : DevRef Cert.ReferenceIdeal.τ Cert.ReferenceIdeal.sig) = W (Cert.KernelIdeal.main_c_28 : DevRef Cert.KernelIdeal.τ Cert.KernelIdeal.sig))
    (h_main_v61 : V (Cert.ReferenceIdeal.main_v86 : DevRef Cert.ReferenceIdeal.τ Cert.ReferenceIdeal.sig) = W (Cert.KernelIdeal.main_v61 : DevRef Cert.KernelIdeal.τ Cert.KernelIdeal.sig))
    (h_main_v62 : V (Cert.ReferenceIdeal.main_v87 : DevRef Cert.ReferenceIdeal.τ Cert.ReferenceIdeal.sig) = W (Cert.KernelIdeal.main_v62 : DevRef Cert.KernelIdeal.τ Cert.KernelIdeal.sig))
    (h_main_v82 : V (Cert.ReferenceIdeal.main_v107 : DevRef Cert.ReferenceIdeal.τ Cert.ReferenceIdeal.sig) = W (Cert.KernelIdeal.main_v82 : DevRef Cert.KernelIdeal.τ Cert.KernelIdeal.sig))
    (h_main_v79 : V (Cert.ReferenceIdeal.main_v104 : DevRef Cert.ReferenceIdeal.τ Cert.ReferenceIdeal.sig) = W (Cert.KernelIdeal.main_v79 : DevRef Cert.KernelIdeal.τ Cert.KernelIdeal.sig))
    (h_main_v92 : V (Cert.ReferenceIdeal.main_v117 : DevRef Cert.ReferenceIdeal.τ Cert.ReferenceIdeal.sig) = W (Cert.KernelIdeal.main_v92 : DevRef Cert.KernelIdeal.τ Cert.KernelIdeal.sig)) :
    (after (Cert.ReferenceIdeal.TailSteps.r12 (F := Ideal)) V (Cert.ReferenceIdeal.main_v104 : DevRef Cert.ReferenceIdeal.τ Cert.ReferenceIdeal.sig)
        = after (Cert.KernelIdeal.TailSteps.k12 (F := Ideal)) W (Cert.KernelIdeal.main_v79 : DevRef Cert.KernelIdeal.τ Cert.KernelIdeal.sig))
    ∧ (after (Cert.ReferenceIdeal.TailSteps.r12 (F := Ideal)) V (Cert.ReferenceIdeal.main_v117 : DevRef Cert.ReferenceIdeal.τ Cert.ReferenceIdeal.sig)
        = after (Cert.KernelIdeal.TailSteps.k12 (F := Ideal)) W (Cert.KernelIdeal.main_v92 : DevRef Cert.KernelIdeal.τ Cert.KernelIdeal.sig))
    ∧ (after (Cert.ReferenceIdeal.TailSteps.r12 (F := Ideal)) V (Cert.ReferenceIdeal.main_v127 : DevRef Cert.ReferenceIdeal.τ Cert.ReferenceIdeal.sig)
        = after (Cert.KernelIdeal.TailSteps.k12 (F := Ideal)) W (Cert.KernelIdeal.main_v102 : DevRef Cert.KernelIdeal.τ Cert.KernelIdeal.sig))
    ∧ (after (Cert.ReferenceIdeal.TailSteps.r12 (F := Ideal)) V (Cert.ReferenceIdeal.main_v129 : DevRef Cert.ReferenceIdeal.τ Cert.ReferenceIdeal.sig)
        = after (Cert.KernelIdeal.TailSteps.k12 (F := Ideal)) W (Cert.KernelIdeal.main_v104 : DevRef Cert.KernelIdeal.τ Cert.KernelIdeal.sig)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rw [h_main_c_28]
  try rw [h_main_v61]
  try rw [h_main_v62]
  try rw [h_main_v82]
  try rw [h_main_v79]
  try rw [h_main_v92]
  try simp only [true_and, and_true]
  all_goals (repeat' apply And.intro)
  all_goals rfl

end Cert.Agree

end
-- ==== Proof.TailsAgree.lean ====
/-
  The two programs agree from the cell ids on.

  Once each point's cell words, cell id and inside-the-grid bit are known, both programs do the same thing
  with them: find each cell's first point (a scatter-minimum and a gather), rank the cells by first
  appearance (a running sum), rank the points within their cell (a stable sort by cell id, a running
  maximum over the sorted order, a scatter back), keep the first 40000 cells and the first 32 points of
  each, and scatter the points, the cell words and the counts into the result tables. The two lines of
  operations are the same line written over two sets of buffers; the one difference is where the
  inside-the-grid bit comes from (the reference carries it from its comparisons; the kernel's program
  recovers it as "cell id below the sentinel"), which is a hypothesis here.

  So: for any buffer contents `V` (reference, after its head) and `W` (kernel program, at the launch's
  exit) that agree on the points, the cell words, the cell ids and the inside bits, the four results agree —
  by the thirteen stretches in a row, each handing the next the agreement of the buffers still read.
-/
import proofs.«120821_j73985106641253_2_alg».proof.Proof.TailStepsA
import proofs.«120821_j73985106641253_2_alg».proof.Proof.TailStepsB
import proofs.«120821_j73985106641253_2_alg».proof.Proof.TailStepsC
import proofs.«120821_j73985106641253_2_alg».proof.Proof.TailStepsD

noncomputable section

namespace Cert.Agree

open Idealize.ShloMosaic Idealize.ShloMosaic.TcCoe Idealize.SL.Sem Idealize.ShloMosaic.StableHlo

/-- From agreeing points, cell words, cell ids and inside bits, the four results agree. The kernel program's
    cell-id vector and inside bits are what ITS first four operations after the launch (`kPre`) make of the
    one-column cell-id array (`main_v1`, `main_v3`). -/
theorem tails_agree (W : Valuation Cert.KernelIdeal.τ Cert.KernelIdeal.sig (Elt Ideal)) (V : Valuation Cert.ReferenceIdeal.τ Cert.ReferenceIdeal.sig (Elt Ideal))
    (h0 : V (Cert.ReferenceIdeal.main_arg0 : DevRef Cert.ReferenceIdeal.τ Cert.ReferenceIdeal.sig) = W (Cert.KernelIdeal.main_arg0 : DevRef Cert.KernelIdeal.τ Cert.KernelIdeal.sig))
    (h1 : V (Cert.ReferenceIdeal.main_v8 : DevRef Cert.ReferenceIdeal.τ Cert.ReferenceIdeal.sig) = W (Cert.KernelIdeal.main_v0_0 : DevRef Cert.KernelIdeal.τ Cert.KernelIdeal.sig))
    (h2 : V (Cert.ReferenceIdeal.main_v28 : DevRef Cert.ReferenceIdeal.τ Cert.ReferenceIdeal.sig)
      = after (Cert.KernelIdeal.TailSteps.kPre (F := Ideal)) W (Cert.KernelIdeal.main_v1 : DevRef Cert.KernelIdeal.τ Cert.KernelIdeal.sig))
    (h3 : V (Cert.ReferenceIdeal.main_v15 : DevRef Cert.ReferenceIdeal.τ Cert.ReferenceIdeal.sig)
      = after (Cert.KernelIdeal.TailSteps.kPre (F := Ideal)) W (Cert.KernelIdeal.main_v3 : DevRef Cert.KernelIdeal.τ Cert.KernelIdeal.sig)) :
    after (Cert.ReferenceIdeal.Hand.opsTail (F := Ideal)) V (Cert.ReferenceIdeal.main_v104 : DevRef Cert.ReferenceIdeal.τ Cert.ReferenceIdeal.sig)
        = after (Cert.KernelIdeal.Hash.tailOps (F := Ideal)).flatten W (Cert.KernelIdeal.main_v79 : DevRef Cert.KernelIdeal.τ Cert.KernelIdeal.sig)
    ∧ after (Cert.ReferenceIdeal.Hand.opsTail (F := Ideal)) V (Cert.ReferenceIdeal.main_v117 : DevRef Cert.ReferenceIdeal.τ Cert.ReferenceIdeal.sig)
        = after (Cert.KernelIdeal.Hash.tailOps (F := Ideal)).flatten W (Cert.KernelIdeal.main_v92 : DevRef Cert.KernelIdeal.τ Cert.KernelIdeal.sig)
    ∧ after (Cert.ReferenceIdeal.Hand.opsTail (F := Ideal)) V (Cert.ReferenceIdeal.main_v127 : DevRef Cert.ReferenceIdeal.τ Cert.ReferenceIdeal.sig)
        = after (Cert.KernelIdeal.Hash.tailOps (F := Ideal)).flatten W (Cert.KernelIdeal.main_v102 : DevRef Cert.KernelIdeal.τ Cert.KernelIdeal.sig)
    ∧ after (Cert.ReferenceIdeal.Hand.opsTail (F := Ideal)) V (Cert.ReferenceIdeal.main_v129 : DevRef Cert.ReferenceIdeal.τ Cert.ReferenceIdeal.sig)
        = after (Cert.KernelIdeal.Hash.tailOps (F := Ideal)).flatten W (Cert.KernelIdeal.main_v104 : DevRef Cert.KernelIdeal.τ Cert.KernelIdeal.sig) := by
  have p0 : after (Cert.KernelIdeal.TailSteps.kPre (F := Ideal)) W (Cert.KernelIdeal.main_arg0 : DevRef Cert.KernelIdeal.τ Cert.KernelIdeal.sig) = W (Cert.KernelIdeal.main_arg0 : DevRef Cert.KernelIdeal.τ Cert.KernelIdeal.sig) := by
    after_results_simp
  have p1 : after (Cert.KernelIdeal.TailSteps.kPre (F := Ideal)) W (Cert.KernelIdeal.main_v0_0 : DevRef Cert.KernelIdeal.τ Cert.KernelIdeal.sig) = W (Cert.KernelIdeal.main_v0_0 : DevRef Cert.KernelIdeal.τ Cert.KernelIdeal.sig) := by
    after_results_simp
  have s0 := step_0 _ V h3 h2 (h0.trans p0.symm) (h1.trans p1.symm)
  have s1 := step_1 _ _ s0.1 s0.2.1 s0.2.2.1 s0.2.2.2.1 s0.2.2.2.2.1 s0.2.2.2.2.2.1 s0.2.2.2.2.2.2
  have s2 := step_2 _ _ s1.1 s1.2.1 s1.2.2.1 s1.2.2.2.1 s1.2.2.2.2.1 s1.2.2.2.2.2.1 s1.2.2.2.2.2.2
  have s3 := step_3 _ _ s2.1 s2.2.1 s2.2.2.1 s2.2.2.2.1 s2.2.2.2.2.1 s2.2.2.2.2.2.1 s2.2.2.2.2.2.2.1 s2.2.2.2.2.2.2.2.1 s2.2.2.2.2.2.2.2.2
  have s4 := step_4 _ _ s3.1 s3.2.1 s3.2.2.1 s3.2.2.2.1 s3.2.2.2.2.1 s3.2.2.2.2.2.1 s3.2.2.2.2.2.2.1 s3.2.2.2.2.2.2.2.1 s3.2.2.2.2.2.2.2.2
  have s5 := step_5 _ _ s4.1 s4.2.1 s4.2.2.1 s4.2.2.2.1 s4.2.2.2.2.1 s4.2.2.2.2.2.1 s4.2.2.2.2.2.2.1 s4.2.2.2.2.2.2.2.1 s4.2.2.2.2.2.2.2.2
  have s6 := step_6 _ _ s5.1 s5.2.1 s5.2.2.1 s5.2.2.2.1 s5.2.2.2.2.1 s5.2.2.2.2.2.1 s5.2.2.2.2.2.2.1 s5.2.2.2.2.2.2.2
  have s7 := step_7 _ _ s6.1 s6.2.1 s6.2.2.1 s6.2.2.2.1 s6.2.2.2.2.1 s6.2.2.2.2.2.1 s6.2.2.2.2.2.2
  have s8 := step_8 _ _ s7.1 s7.2.1 s7.2.2.1 s7.2.2.2.1 s7.2.2.2.2.1 s7.2.2.2.2.2.1 s7.2.2.2.2.2.2.1 s7.2.2.2.2.2.2.2
  have s9 := step_9 _ _ s8.1 s8.2.1 s8.2.2.1 s8.2.2.2.1 s8.2.2.2.2.1 s8.2.2.2.2.2.1 s8.2.2.2.2.2.2.1 s8.2.2.2.2.2.2.2.1 s8.2.2.2.2.2.2.2.2.1 s8.2.2.2.2.2.2.2.2.2
  have s10 := step_10 _ _ s9.1 s9.2.1 s9.2.2.1 s9.2.2.2.1 s9.2.2.2.2.1 s9.2.2.2.2.2.1 s9.2.2.2.2.2.2.1 s9.2.2.2.2.2.2.2.1 s9.2.2.2.2.2.2.2.2
  have s11 := step_11 _ _ s10.1 s10.2.1 s10.2.2.1 s10.2.2.2.1 s10.2.2.2.2.1 s10.2.2.2.2.2.1 s10.2.2.2.2.2.2
  have s12 := step_12 _ _ s11.1 s11.2.1 s11.2.2.1 s11.2.2.2.1 s11.2.2.2.2.1 s11.2.2.2.2.2
  rw [Cert.KernelIdeal.TailSteps.tail_steps, Cert.ReferenceIdeal.TailSteps.tail_steps]
  simp only [after_append]
  exact s12

end Cert.Agree

end
-- ==== Proof.Spec.lean ====
/-
  Voxel hashing of a point cloud, one point at a time.

  A point's coordinate `x` on axis `k` falls in the cell `⌊(x − o k) / d k⌋`, taken as a 32-bit signed word
  (`cellWord`); the origins `o` and the cell sizes `d` are the float words the programs spell. A point is INSIDE
  the grid when each of its three cell words lies in `[0, n k)` for the extents `n = (440, 500, 1)` (`inGridBit`,
  the conjunction of the six comparisons as one bit); its CELL ID is `c₀ · 500 + c₁ · 1 + c₂` when it is inside
  and the sentinel `220000 = 440 · 500 · 1` otherwise (`cellId`).

  The one arithmetic fact the comparison of the two programs rests on: a point inside the grid has a cell id
  at most `439 · 500 + 499 + 0 = 219999`, so the cell id is below the sentinel EXACTLY when the point is
  inside the grid (`cellId_lt_sentinel`). One program carries the six-comparison bit along; the other
  recovers it from the cell id by that comparison.

  Also here: a conjunction over the three axes, folded from `1` in any order, is the six-comparison bit
  (`fold_axes_eq_inGridBit`): the reference forms it as a row-wise reduction, the kernel as a chain.
-/
import Idealize.ShloMosaic.PureOps
import Idealize.ShloMosaic.PureOps.Ideal
import Idealize.ShloMosaic.PureOps.Reduce
import Idealize.ShloMosaic.Lib.Affine
import Idealize.ShloMosaic.Lib.ValueIdx

noncomputable section

namespace Voxelize

open Idealize.ShloMosaic Idealize.ShloMosaic.Affine

/-- The cell of the coordinate `x` on an axis with origin word `o` and cell-size word `d`: `⌊(x − o) / d⌋` as a
    signed 32-bit word, every operation the exact one on the extended reals. -/
def cellWord (o d : BitVec 32) (x : Ideal .f32) : BitVec 32 :=
  FloatOps.fptosi 32 (FloatOps.floor (FloatOps.divf (FloatOps.subf x (FloatOps.ofBits .f32 o)) (FloatOps.ofBits .f32 d)))

/-- The grid's origin on each axis, as the float words the programs spell (`0`, `−40`, `−3`). -/
def originWord : Fin 3 → BitVec 32 := fun
  | 0 => 0x00000000#32 | 1 => 0xC2200000#32 | 2 => 0xC0400000#32

/-- The cell size on each axis, as the float words the programs spell (`0.16`, `0.16`, `4`, the first two the
    single-precision words nearest `0.16`: the same word on both sides, never evaluated). -/
def sizeWord : Fin 3 → BitVec 32 := fun
  | 0 => 0x3E23D70A#32 | 1 => 0x3E23D70A#32 | 2 => 0x40800000#32

/-- One axis's test: `0 ≤ c < n`, as one bit. -/
def axisBit (c n : BitVec 32) : BitVec 1 := IntOp.andi (IntOp.cmpi .sge c 0#32) (IntOp.cmpi .slt c n)

/-- The point is inside the grid: all six comparisons, in the order the kernel chains them. -/
def inGridBit (c0 c1 c2 : BitVec 32) : BitVec 1 :=
  IntOp.andi (IntOp.andi (IntOp.andi (IntOp.andi (IntOp.andi (IntOp.cmpi .sge c0 0#32) (IntOp.cmpi .slt c0 440#32))
    (IntOp.cmpi .sge c1 0#32)) (IntOp.cmpi .slt c1 500#32)) (IntOp.cmpi .sge c2 0#32)) (IntOp.cmpi .slt c2 1#32)

/-- The row-major cell number `c₀ · 500 + c₁ · 1 + c₂`, in wrapping 32-bit arithmetic. -/
def rowMajorWord (c0 c1 c2 : BitVec 32) : BitVec 32 :=
  IntOp.addi (IntOp.addi (IntOp.muli c0 500#32) (IntOp.muli c1 1#32)) c2

/-- The cell id: the row-major cell number inside the grid, the sentinel `220000` outside. -/
def cellId (c0 c1 c2 : BitVec 32) : BitVec 32 :=
  Scalar.select (inGridBit c0 c1 c2) (rowMajorWord c0 c1 c2) 220000#32

private theorem bit_cases (c : BitVec 1) : c = 0#1 ∨ c = 1#1 := BitVec.eq_zero_or_eq_one c

/-- Two bits are equal when each is `1` exactly when the other is. -/
theorem bit_ext {a b : BitVec 1} (h : a = 1#1 ↔ b = 1#1) : a = b := by
  rcases bit_cases a with ha | ha <;> rcases bit_cases b with hb | hb
  · rw [ha, hb]
  · exact absurd (h.2 hb) (by rw [ha]; decide)
  · exact absurd (h.1 ha) (by rw [hb]; decide)
  · rw [ha, hb]

theorem andi_eq_one {a b : BitVec 1} : IntOp.andi a b = 1#1 ↔ a = 1#1 ∧ b = 1#1 := by
  rcases bit_cases a with ha | ha <;> rcases bit_cases b with hb | hb <;> subst ha hb <;> decide

/-- The six-comparison bit is the conjunction of the three axes' tests. -/
theorem inGridBit_eq_one (c0 c1 c2 : BitVec 32) :
    inGridBit c0 c1 c2 = 1#1 ↔ axisBit c0 440#32 = 1#1 ∧ axisBit c1 500#32 = 1#1 ∧ axisBit c2 1#32 = 1#1 := by
  unfold inGridBit axisBit
  simp only [andi_eq_one]
  tauto

/-- A signed comparison bit read back as an inequality of the words read as integers. -/
theorem sge_zero_eq_one (c : BitVec 32) : IntOp.cmpi .sge c 0#32 = 1#1 ↔ 0 ≤ c.toInt := by
  constructor
  · intro h
    by_contra hn
    exact sge_fails (Affine.word c) (Affine.ofNat (e := 0) 0 (by omega)) (by omega) h
  · intro h
    exact sge_holds (Affine.word c) (Affine.ofNat (e := 0) 0 (by omega)) (by omega)

theorem slt_lit_eq_one (c : BitVec 32) (n : Nat) (hn : n < 2 ^ 31) :
    IntOp.cmpi .slt c (BitVec.ofNat 32 n) = 1#1 ↔ c.toInt < n := by
  constructor
  · intro h
    by_contra hc
    exact slt_fails (Affine.word c) (Affine.ofNat (e := (n : Int)) n ⟨rfl, hn⟩) hc h
  · intro h
    exact slt_holds (Affine.word c) (Affine.ofNat (e := (n : Int)) n ⟨rfl, hn⟩) h

theorem axisBit_eq_one (c : BitVec 32) (n : Nat) (hn : n < 2 ^ 31) :
    axisBit c (BitVec.ofNat 32 n) = 1#1 ↔ 0 ≤ c.toInt ∧ c.toInt < n := by
  unfold axisBit
  rw [andi_eq_one, sge_zero_eq_one, slt_lit_eq_one c n hn]

/-- Inside the grid the cell number does not wrap and is at most `219999`; outside, the cell id IS the
    sentinel: the cell id is below the sentinel exactly when the point is inside the grid. -/
theorem cellId_lt_sentinel (c0 c1 c2 : BitVec 32) :
    IntOp.cmpi .slt (cellId c0 c1 c2) 220000#32 = inGridBit c0 c1 c2 := by
  refine bit_ext ?_
  unfold cellId
  rcases bit_cases (inGridBit c0 c1 c2) with hg | hg
  · rw [hg, ValueIdx.select_zero]
    constructor
    · intro h
      exact absurd h (slt_fails (Affine.ofNat (e := 220000) 220000 (by omega)) (Affine.ofNat (e := 220000) 220000 (by omega)) (by omega))
    · intro h; exact absurd h (by decide)
  · rw [hg, ValueIdx.select_one]
    refine ⟨fun _ => rfl, fun _ => ?_⟩
    obtain ⟨h0, h1, h2⟩ := (inGridBit_eq_one c0 c1 c2).1 hg
    obtain ⟨a0, b0⟩ := (axisBit_eq_one c0 440 (by omega)).1 h0
    obtain ⟨a1, b1⟩ := (axisBit_eq_one c1 500 (by omega)).1 h1
    obtain ⟨a2, b2⟩ := (axisBit_eq_one c2 1 (by omega)).1 h2
    unfold rowMajorWord
    have m0 := Affine.muli (e := c0.toInt * 500) (Affine.word c0) (Affine.ofNat (e := 500) 500 (by omega)) (by omega)
    have m1 := Affine.muli (e := c1.toInt * 1) (Affine.word c1) (Affine.ofNat (e := 1) 1 (by omega)) (by omega)
    have s0 := Affine.addi (e := c0.toInt * 500 + c1.toInt * 1) m0 m1 (by omega)
    have s1 := Affine.addi (e := c0.toInt * 500 + c1.toInt * 1 + c2.toInt) s0 (Affine.word c2) (by omega)
    exact slt_holds s1 (Affine.ofNat (e := 220000) 220000 (by omega)) (by omega)

/-! ## All points at once -/

open Idealize.ShloMosaic.ValueIdx in
/-- The channel of the points that carries axis `k`'s coordinate: the first three of the four. -/
def chan (k : Fin 3) : Fin 4 := Fin.castLE (by omega) k

open Idealize.ShloMosaic.ValueIdx in
/-- The cell words of every point: entry `(r, k)` is the cell of point `r`'s coordinate on axis `k`. -/
def coordsOf (pts : (⟨2, ![4000000, 4]⟩ : Shape).Idx → Ideal .f32) : (⟨2, ![4000000, 3]⟩ : Shape).Idx → BitVec 32 :=
  fun j => cellWord (originWord (j 1)) (sizeWord (j 1)) (pts (ix2 (j 0) (chan (j 1))))

open Idealize.ShloMosaic.ValueIdx in
theorem coordsOf_apply (pts : (⟨2, ![4000000, 4]⟩ : Shape).Idx → Ideal .f32) (r : Fin 4000000) (k : Fin 3) :
    coordsOf pts (ix2 r k) = cellWord (originWord k) (sizeWord k) (pts (ix2 r (chan k))) := rfl

open Idealize.ShloMosaic.ValueIdx in
/-- The cell id of every point, as a one-column array. -/
def cellIdsOf (pts : (⟨2, ![4000000, 4]⟩ : Shape).Idx → Ideal .f32) : (⟨2, ![4000000, 1]⟩ : Shape).Idx → BitVec 32 :=
  fun j => cellId (coordsOf pts (ix2 (j 0) (0 : Fin 3))) (coordsOf pts (ix2 (j 0) (1 : Fin 3))) (coordsOf pts (ix2 (j 0) (2 : Fin 3)))

open Idealize.ShloMosaic.ValueIdx in
theorem cellIdsOf_apply (pts : (⟨2, ![4000000, 4]⟩ : Shape).Idx → Ideal .f32) (r : Fin 4000000) (u : Fin 1) :
    cellIdsOf pts (ix2 r u)
      = cellId (coordsOf pts (ix2 r (0 : Fin 3))) (coordsOf pts (ix2 r (1 : Fin 3))) (coordsOf pts (ix2 r (2 : Fin 3))) := rfl

/-- A fold over the three axes, spelt out: with a commutative and associative operation the order is immaterial. -/
theorem fold_fin3 {α : Type} (op : α → α → α) [Std.Commutative op] [Std.Associative op] (b : α) (f : Fin 3 → α) :
    (Finset.univ : Finset (Fin 3)).fold op b f = op (f 0) (op (f 1) (op (f 2) b)) := by
  have hu : (Finset.univ : Finset (Fin 3)) = insert 0 (insert 1 (insert 2 ∅)) := by decide
  rw [hu, Finset.fold_insert (by decide), Finset.fold_insert (by decide), Finset.fold_insert (by decide), Finset.fold_empty]

/-- The conjunction of the three axes' tests folded from `1`, as the reference's row-wise reduction forms it, is the
    six-comparison bit. -/
theorem fold_axes_eq_inGridBit (c0 c1 c2 : BitVec 32) (g : Fin 3 → BitVec 1)
    (h0 : g 0 = axisBit c0 440#32) (h1 : g 1 = axisBit c1 500#32) (h2 : g 2 = axisBit c2 1#32) :
    (Finset.univ : Finset (Fin 3)).fold IntOp.andi 1#1 g = inGridBit c0 c1 c2 := by
  rw [fold_fin3, h0, h1, h2]
  refine bit_ext ?_
  rw [inGridBit_eq_one]
  simp only [andi_eq_one]
  tauto

end Voxelize

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibColumnStack.lean ====
/-
  Columns stacked side by side, read at an index: three columns `[n, 1]` concatenated along the last axis into
  `[n, 3]` (column `k` of the result is the `k`-th piece), and a column `[a, 1]` cast to the vector `[a]` (entry
  `i` is the column's row `i`). General in the extents and in the element type; they complement the library's
  two-piece concatenation lemmas and its unit-axis casts.
-/
import Idealize.ShloMosaic.Lib.Pipeline.Value
import Idealize.ShloMosaic.Lib.ValueIdx

namespace Idealize.ShloMosaic.ValueIdx

variable {α : Type}

/-- A column `[a, 1]` cast to the vector `[a]` reads, at `i`, the column's row `i`: both sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Three columns side by side: column `0` of the result is the first piece. -/
theorem concatenate_cols3_apply0 {n : ℕ} (a b c : (⟨2, ![n, 1]⟩ : Shape).Idx → α)
    (h : Shape.Concatenates [(⟨2, ![n, 1]⟩ : Shape), ⟨2, ![n, 1]⟩, ⟨2, ![n, 1]⟩] ⟨2, ![n, 3]⟩ 1) (y : Fin n) :
    concatenate ⟨2, ![n, 3]⟩ 1 [⟨⟨2, ![n, 1]⟩, a⟩, ⟨⟨2, ![n, 1]⟩, b⟩, ⟨⟨2, ![n, 1]⟩, c⟩] h (ix2 y (0 : Fin 3))
      = a (ix2 y (0 : Fin 1)) := by
  refine congrArg a (funext fun d => ?_)
  match d with
  | ⟨0, _⟩ => rfl
  | ⟨1, _⟩ => rfl

/-- Column `1` of the result is the second piece. -/
theorem concatenate_cols3_apply1 {n : ℕ} (a b c : (⟨2, ![n, 1]⟩ : Shape).Idx → α)
    (h : Shape.Concatenates [(⟨2, ![n, 1]⟩ : Shape), ⟨2, ![n, 1]⟩, ⟨2, ![n, 1]⟩] ⟨2, ![n, 3]⟩ 1) (y : Fin n) :
    concatenate ⟨2, ![n, 3]⟩ 1 [⟨⟨2, ![n, 1]⟩, a⟩, ⟨⟨2, ![n, 1]⟩, b⟩, ⟨⟨2, ![n, 1]⟩, c⟩] h (ix2 y (1 : Fin 3))
      = b (ix2 y (0 : Fin 1)) := by
  refine congrArg b (funext fun d => ?_)
  match d with
  | ⟨0, _⟩ => rfl
  | ⟨1, _⟩ => rfl

/-- Column `2` of the result is the third piece. -/
theorem concatenate_cols3_apply2 {n : ℕ} (a b c : (⟨2, ![n, 1]⟩ : Shape).Idx → α)
    (h : Shape.Concatenates [(⟨2, ![n, 1]⟩ : Shape), ⟨2, ![n, 1]⟩, ⟨2, ![n, 1]⟩] ⟨2, ![n, 3]⟩ 1) (y : Fin n) :
    concatenate ⟨2, ![n, 3]⟩ 1 [⟨⟨2, ![n, 1]⟩, a⟩, ⟨⟨2, ![n, 1]⟩, b⟩, ⟨⟨2, ![n, 1]⟩, c⟩] h (ix2 y (2 : Fin 3))
      = c (ix2 y (0 : Fin 1)) := by
  refine congrArg c (funext fun d => ?_)
  match d with
  | ⟨0, _⟩ => rfl
  | ⟨1, _⟩ => rfl

end Idealize.ShloMosaic.ValueIdx
-- ==== Proof.KernelBlock.lean ====
/-
  What one grid point of the hashing kernel computes, entry by entry.

  The body loads a block `x` of 8000 points (rows) by 4 channels, takes columns 0, 1, 2, and for each row `y`
  forms the three cell words `cellWord (o k) (d k) (x y k)`; it stores them side by side as the row `y` of the
  coordinates block, and stores the row's cell id (`cellId` of the three words) as row `y` of the one-column
  cell-id block. Every step but the layout ones (taking a column, dropping or adding the unit axis, stacking
  the three columns) is pointwise, so each entry is read by unfolding; the layout steps are read by the
  column lemmas.
-/
import proofs.«120821_j73985106641253_2_alg».proof.Proof.Gen.KernelIdeal.Skeleton
import proofs.«120821_j73985106641253_2_alg».proof.Proof.Spec
import proofs.«120821_j73985106641253_2_alg».proof.Proof.LibColumns
import proofs.«120821_j73985106641253_2_alg».proof.Proof.LibColumnStack
import Idealize.ShloMosaic.Lib.ValueLayout

noncomputable section

namespace Cert.KernelIdeal.Block

open Idealize.ShloMosaic Idealize.ShloMosaic.ValueIdx Cert.KernelIdeal Cert.KernelIdeal.Gen Voxelize
open Cert.KernelIdeal.Facts₀

variable [Cert.KernelIdeal.Facts]

/-- Column `k` of the block as a vector: row `y` is the block's entry `(y, k)`. -/
theorem column_apply (x : Vec Ideal S8000x4 .f32) (k : Fin 4) (hs : S8000x4.Slices ![0, k.val] S8000x1)
    (hc : S8000x1.ShapeCasts S8000) (y : Fin 8000) :
    shapeCast S8000 (extractStridedSlice S8000x1 ![0, k.val] x hs) hc (ix1 y) = x (ix2 y k) := by
  rw [shapeCast_a1_a_apply, slice2_axis1_apply k.val x hs y (0 : Fin 1) k (by simp)]

/-- The first cell word of row `y`. -/
theorem cell0_apply (x : Vec Ideal S8000x4 .f32) (y : Fin 8000) :
    k0_pay3 x (ix1 y) = cellWord (originWord 0) (sizeWord 0) (x (ix2 y (0 : Fin 4))) := by
  unfold k0_pay3 cellWord
  exact congrArg (fun v : Ideal .f32 => FloatOps.fptosi 32 (FloatOps.floor (FloatOps.divf (FloatOps.subf v
    (FloatOps.ofBits .f32 0x00000000#32)) (FloatOps.ofBits .f32 0x3E23D70A#32))))
    (column_apply x (0 : Fin 4) Facts₀.slices_S8000x4_o0_0_S8000x1 Facts₀.shapeCasts_S8000x1_S8000 y)

/-- The second cell word of row `y`. -/
theorem cell1_apply (x : Vec Ideal S8000x4 .f32) (y : Fin 8000) :
    k0_pay4 x (ix1 y) = cellWord (originWord 1) (sizeWord 1) (x (ix2 y (1 : Fin 4))) := by
  unfold k0_pay4 cellWord
  exact congrArg (fun v : Ideal .f32 => FloatOps.fptosi 32 (FloatOps.floor (FloatOps.divf (FloatOps.subf v
    (FloatOps.ofBits .f32 0xC2200000#32)) (FloatOps.ofBits .f32 0x3E23D70A#32))))
    (column_apply x (1 : Fin 4) Facts₀.slices_S8000x4_o0_1_S8000x1 Facts₀.shapeCasts_S8000x1_S8000 y)

/-- The third cell word of row `y`. -/
theorem cell2_apply (x : Vec Ideal S8000x4 .f32) (y : Fin 8000) :
    k0_pay5 x (ix1 y) = cellWord (originWord 2) (sizeWord 2) (x (ix2 y (2 : Fin 4))) := by
  unfold k0_pay5 cellWord
  exact congrArg (fun v : Ideal .f32 => FloatOps.fptosi 32 (FloatOps.floor (FloatOps.divf (FloatOps.subf v
    (FloatOps.ofBits .f32 0xC0400000#32)) (FloatOps.ofBits .f32 0x40800000#32))))
    (column_apply x (2 : Fin 4) Facts₀.slices_S8000x4_o0_2_S8000x1 Facts₀.shapeCasts_S8000x1_S8000 y)

/-- The inside-the-grid bit of row `y` is the six comparisons of its three cell words. -/
theorem inGrid_apply (x : Vec Ideal S8000x4 .f32) (y : Fin 8000) :
    k0_pay6 x (ix1 y) = inGridBit (k0_pay3 x (ix1 y)) (k0_pay4 x (ix1 y)) (k0_pay5 x (ix1 y)) := rfl

/-- The cell-id block: row `y` holds the cell id of the row's three cell words. -/
theorem cellId_block_apply (x : Vec Ideal S8000x4 .f32) (y : Fin 8000) (u : Fin 1) :
    k0_pay2 (k0_pay4 x) (k0_pay5 x) (k0_pay6 x) (k0_pay7 x) (ix2 y u)
      = cellId (k0_pay3 x (ix1 y)) (k0_pay4 x (ix1 y)) (k0_pay5 x (ix1 y)) := by
  unfold k0_pay2
  rw [shapeCast_a_a1_apply]
  rfl

/-- The coordinates block: entry `(y, k)` is the `k`-th cell word of row `y`. -/
theorem coords_block_apply0 (x : Vec Ideal S8000x4 .f32) (y : Fin 8000) :
    k0_pay1 (k0_pay3 x) (k0_pay4 x) (k0_pay5 x) (ix2 y (0 : Fin 3)) = k0_pay3 x (ix1 y) := by
  unfold k0_pay1
  rw [concatenate_cols3_apply0, shapeCast_a_a1_apply]

theorem coords_block_apply1 (x : Vec Ideal S8000x4 .f32) (y : Fin 8000) :
    k0_pay1 (k0_pay3 x) (k0_pay4 x) (k0_pay5 x) (ix2 y (1 : Fin 3)) = k0_pay4 x (ix1 y) := by
  unfold k0_pay1
  rw [concatenate_cols3_apply1, shapeCast_a_a1_apply]

theorem coords_block_apply2 (x : Vec Ideal S8000x4 .f32) (y : Fin 8000) :
    k0_pay1 (k0_pay3 x) (k0_pay4 x) (k0_pay5 x) (ix2 y (2 : Fin 3)) = k0_pay5 x (ix1 y) := by
  unfold k0_pay1
  rw [concatenate_cols3_apply2, shapeCast_a_a1_apply]

end Cert.KernelIdeal.Block

end
-- ==== Proof.KernelArrays.lean ====
/-
  From the kernel's blocks to its two result arrays.

  Grid point `t` stages rows `8000 t … 8000 t + 7999` of the points and writes back the same rows of the
  coordinates array and of the cell-id array. Row `y` of what it writes is computed from row `y` of the block it
  staged, that is from point `8000 t + y`; so each written block is the restriction to those rows of ONE
  function of the whole points array (`coordsOf`, `cellIdsOf`). The 500 blocks tile the 4,000,000 rows (row `r`
  lies in the block of point `r / 8000`), so after the launch the two arrays hold those functions everywhere.
-/
import proofs.«120821_j73985106641253_2_alg».proof.Proof.HashFrameIdeal
import proofs.«120821_j73985106641253_2_alg».proof.Proof.KernelBlock
import Idealize.ShloMosaic.Lib.Pipeline.Value

set_option maxRecDepth 16384

noncomputable section

namespace Cert.KernelIdeal.Arrays

open Cert.KernelIdeal Cert.KernelIdeal.Gen Cert.KernelIdeal.Hash Cert.KernelIdeal.Block
open Idealize.ShloMosaic Idealize.ShloMosaic.TcCoe Idealize.ShloMosaic.ValueIdx Idealize.SL.Sem Voxelize
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The three windows move together: at point `t` each is at block row `t`, block column `0`. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem points_count : cfg0.N = 500 := N_0

/-- Row `y` of the block staged at point `t` is point `8000 t + y`. -/
theorem staged_apply (c : Dev nD) (t : Fin cfg0.N) (y : Fin 8000) (k4 : Fin 4) (r : Fin 4000000)
    (hr : r.val = t.val * 8000 + y.val) :
    iblk m c 0 t (ix2 y k4) = V m c main_arg0 (ix2 r k4) := by
  obtain ⟨e0, e1, -⟩ := block_index t
  show V m c main_arg0 (((cfg0.win 0).blk t).view.emb (ix2 y k4)) = V m c main_arg0 (ix2 r k4)
  refine congrArg _ (funext fun a => Fin.ext ?_)
  match a with
  | ⟨0, _⟩ => show win0_0.index t (0 : Fin 2) * 8000 + 1 * y.val = r.val; omega
  | ⟨1, _⟩ => show win0_0.index t (1 : Fin 2) * 4 + 1 * k4.val = k4.val; omega

/-- Where entry `(y, k)` of the coordinates block written at point `t` lands. -/
theorem coor_lands (t : Fin cfg0.N) (y : Fin 8000) (k : Fin 3) (r : Fin 4000000) (hr : r.val = t.val * 8000 + y.val) :
    ((cfg0.win 1).blk t).view.emb (ix2 y k) = ix2 r k := by
  obtain ⟨-, -, e2, e3, -⟩ := block_index t
  refine funext fun a => Fin.ext ?_
  match a with
  | ⟨0, _⟩ => show win0_1.index t (0 : Fin 2) * 8000 + 1 * y.val = r.val; omega
  | ⟨1, _⟩ => show win0_1.index t (1 : Fin 2) * 3 + 1 * k.val = k.val; omega

/-- Where entry `(y, 0)` of the cell-id block written at point `t` lands. -/
theorem lin_lands (t : Fin cfg0.N) (y : Fin 8000) (u : Fin 1) (r : Fin 4000000) (hr : r.val = t.val * 8000 + y.val) :
    ((cfg0.win 2).blk t).view.emb (ix2 y u) = ix2 r u := by
  obtain ⟨-, -, -, -, e4, e5⟩ := block_index t
  refine funext fun a => Fin.ext ?_
  match a with
  | ⟨0, _⟩ => show win0_2.index t (0 : Fin 2) * 8000 + 1 * y.val = r.val; omega
  | ⟨1, _⟩ => show win0_2.index t (1 : Fin 2) * 1 + 1 * u.val = u.val; omega

/-- The row of the arrays that row `y` of point `t`'s blocks is. -/
def rowOf (t : Fin cfg0.N) (y : Fin 8000) : Fin 4000000 :=
  ⟨t.val * 8000 + y.val, by have ht := t.isLt; have hy := y.isLt; have hN := points_count; omega⟩

/-- The `k`-th cell word of row `y` of the block staged at point `t` is that of point `8000 t + y`. -/
theorem cell_of_staged (c : Dev nD) (t : Fin cfg0.N) (y : Fin 8000) :
    k0_pay3 (iblk m c 0 t) (ix1 y) = coordsOf (V m c main_arg0) (ix2 (rowOf t y) (0 : Fin 3))
    ∧ k0_pay4 (iblk m c 0 t) (ix1 y) = coordsOf (V m c main_arg0) (ix2 (rowOf t y) (1 : Fin 3))
    ∧ k0_pay5 (iblk m c 0 t) (ix1 y) = coordsOf (V m c main_arg0) (ix2 (rowOf t y) (2 : Fin 3)) := by
  refine ⟨?_, ?_, ?_⟩
  · rw [cell0_apply, coordsOf_apply, staged_apply m c t y (0 : Fin 4) (rowOf t y) rfl]; rfl
  · rw [cell1_apply, coordsOf_apply, staged_apply m c t y (1 : Fin 4) (rowOf t y) rfl]; rfl
  · rw [cell2_apply, coordsOf_apply, staged_apply m c t y (2 : Fin 4) (rowOf t y) rfl]; rfl

/-- What point `t` writes back to the coordinates array is block `t` of `coordsOf` of the points. -/
theorem flushed_coor (c : Dev nD) (t : Fin cfg0.N) :
    (dats m 0 c).flushed 1 t = ((cfg0.win 1).blk t).view.read (Elt Ideal) (coordsOf (V m c main_arg0)) := by
  show (cfg0.win 1).cut (grid0.coords t) ((dats m 0 c).after 1 t) = _
  rw [after_coor]
  unfold coorBlk
  rw [View.canon_unit_zero zero_offsets]
  simp only [View.ld_unit_zero (S := S8000x4) zero_offsets]
  funext j
  obtain ⟨y, k, rfl⟩ : ∃ (y : Fin 8000) (k : Fin 3), j = ix2 y k := ⟨j 0, j 1, eq_ix2 j⟩
  show k0_pay1 (k0_pay3 (iblk m c 0 t)) (k0_pay4 (iblk m c 0 t)) (k0_pay5 (iblk m c 0 t)) (ix2 y k)
    = coordsOf (V m c main_arg0) (((cfg0.win 1).blk t).view.emb (ix2 y k))
  rw [coor_lands t y k (rowOf t y) rfl]
  match k with
  | ⟨0, _⟩ => exact (coords_block_apply0 _ y).trans (cell_of_staged m c t y).1
  | ⟨1, _⟩ => exact (coords_block_apply1 _ y).trans (cell_of_staged m c t y).2.1
  | ⟨2, _⟩ => exact (coords_block_apply2 _ y).trans (cell_of_staged m c t y).2.2

/-- What point `t` writes back to the cell-id array is block `t` of `cellIdsOf` of the points. -/
theorem flushed_lin (c : Dev nD) (t : Fin cfg0.N) :
    (dats m 0 c).flushed 2 t = ((cfg0.win 2).blk t).view.read (Elt Ideal) (cellIdsOf (V m c main_arg0)) := by
  show (cfg0.win 2).cut (grid0.coords t) ((dats m 0 c).after 2 t) = _
  rw [after_lin]
  unfold linBlk
  rw [View.canon_unit_zero zero_offsets]
  simp only [View.ld_unit_zero (S := S8000x4) zero_offsets]
  funext j
  obtain ⟨y, u, rfl⟩ : ∃ (y : Fin 8000) (u : Fin 1), j = ix2 y u := ⟨j 0, j 1, eq_ix2 j⟩
  show k0_pay2 (k0_pay4 (iblk m c 0 t)) (k0_pay5 (iblk m c 0 t)) (k0_pay6 (iblk m c 0 t)) (k0_pay7 (iblk m c 0 t)) (ix2 y u)
    = cellIdsOf (V m c main_arg0) (((cfg0.win 2).blk t).view.emb (ix2 y u))
  obtain ⟨h0, h1, h2⟩ := cell_of_staged m c t y
  rw [lin_lands t y u (rowOf t y) rfl, cellId_block_apply, cellIdsOf_apply, h0, h1, h2]

/-- An index of the coordinates array is in point `t`'s block iff each coordinate is in the block's range. -/
theorem mem_coor_block (t : Fin cfg0.N) (i : S4000000x3.Idx) :
    i ∈ ((cfg0.win 1).blk t).view.set ↔ ∀ a : Fin 2, win0_1.index t a * S8000x3.size a ≤ (i a).val ∧ (i a).val < win0_1.index t a * S8000x3.size a + S8000x3.size a := by
  show i ∈ ((View.whole main_v0_0).slice (win0_1.rect t)).set ↔ _
  rw [View.set_slice_whole, Rect.mem_set_unit]
  exact Iff.rfl

theorem mem_lin_block (t : Fin cfg0.N) (i : S4000000x1.Idx) :
    i ∈ ((cfg0.win 2).blk t).view.set ↔ ∀ a : Fin 2, win0_2.index t a * S8000x1.size a ≤ (i a).val ∧ (i a).val < win0_2.index t a * S8000x1.size a + S8000x1.size a := by
  show i ∈ ((View.whole main_v0_1).slice (win0_2.rect t)).set ↔ _
  rw [View.set_slice_whole, Rect.mem_set_unit]
  exact Iff.rfl

/-- Every row is in the block of the point `row / 8000`. -/
theorem coor_covered (i : S4000000x3.Idx) :
    ∃ t : Fin cfg0.N, (cfg0.win 1).flush t = true ∧ i ∈ ((cfg0.win 1).blk t).view.set := by
  have hi0 : (i 0).val < 4000000 := (i 0).isLt
  have hi1 : (i 1).val < 3 := (i 1).isLt
  have hN := points_count
  have ht : (i 0).val / 8000 < cfg0.N := by rw [hN]; omega
  refine ⟨⟨(i 0).val / 8000, ht⟩, flush0_1 _, ?_⟩
  rw [mem_coor_block]
  obtain ⟨-, -, e2, e3, -⟩ := block_index ⟨(i 0).val / 8000, ht⟩
  have e2' : win0_1.index ⟨(i 0).val / 8000, ht⟩ (0 : Fin 2) = (i 0).val / 8000 := e2
  intro a
  match a with
  | ⟨0, _⟩ =>
    show win0_1.index ⟨(i 0).val / 8000, ht⟩ (0 : Fin 2) * 8000 ≤ (i 0).val ∧ (i 0).val < win0_1.index ⟨(i 0).val / 8000, ht⟩ (0 : Fin 2) * 8000 + 8000
    omega
  | ⟨1, _⟩ =>
    show win0_1.index ⟨(i 0).val / 8000, ht⟩ (1 : Fin 2) * 3 ≤ (i 1).val ∧ (i 1).val < win0_1.index ⟨(i 0).val / 8000, ht⟩ (1 : Fin 2) * 3 + 3
    omega

theorem lin_covered (i : S4000000x1.Idx) :
    ∃ t : Fin cfg0.N, (cfg0.win 2).flush t = true ∧ i ∈ ((cfg0.win 2).blk t).view.set := by
  have hi0 : (i 0).val < 4000000 := (i 0).isLt
  have hi1 : (i 1).val < 1 := (i 1).isLt
  have hN := points_count
  have ht : (i 0).val / 8000 < cfg0.N := by rw [hN]; omega
  refine ⟨⟨(i 0).val / 8000, ht⟩, flush0_2 _, ?_⟩
  rw [mem_lin_block]
  obtain ⟨-, -, -, -, e4, e5⟩ := block_index ⟨(i 0).val / 8000, ht⟩
  have e4' : win0_2.index ⟨(i 0).val / 8000, ht⟩ (0 : Fin 2) = (i 0).val / 8000 := e4
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    omega
  | ⟨1, _⟩ =>
    show win0_2.index ⟨(i 0).val / 8000, ht⟩ (1 : Fin 2) * 1 ≤ (i 1).val ∧ (i 1).val < win0_2.index ⟨(i 0).val / 8000, ht⟩ (1 : Fin 2) * 1 + 1
    omega

/-- After the launch the coordinates array holds every point's three cell words. -/
theorem final_coor (c : Dev nD) : (dats m 0 c).arrAt 1 cfg0.N = coordsOf (m ((c : Thread nD τ).loc main_arg0)) :=
  (dats m 0 c).arrAt_eq_of_cover 1 (coordsOf (V m c main_arg0)) (fun t _ => flushed_coor m c t) coor_covered

/-- After the launch the cell-id array holds every point's cell id. -/
theorem final_lin (c : Dev nD) : (dats m 0 c).arrAt 2 cfg0.N = cellIdsOf (m ((c : Thread nD τ).loc main_arg0)) :=
  (dats m 0 c).arrAt_eq_of_cover 2 (cellIdsOf (V m c main_arg0)) (fun t _ => flushed_lin m c t) lin_covered

end Cert.KernelIdeal.Arrays

end
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.RefHead.lean ====
/-
  What the reference computes for one point, entry by entry.

  The reference forms all three cell words of all points at once: the first three channels of the points,
  minus the origin row spread over the points, divided by the cell-size row spread likewise, floored and
  converted (`coords`); a point is inside the grid when the conjunction over its row of `0 ≤ c` and `c < n`
  is `1` (`inside`, a row-wise reduction by `and` from `1`); its cell id is `c₀ · 500 + c₁ · 1 + c₂` where it is
  inside and `220000` elsewhere (`cellIds`). Read at a point these are the scalar quantities of the
  specification: `cellWord`, `inGridBit`, `cellId`.
-/
import proofs.«120821_j73985106641253_2_alg».proof.ReferenceIdeal
import proofs.«120821_j73985106641253_2_alg».proof.Proof.Spec
import proofs.«120821_j73985106641253_2_alg».proof.Proof.LibBroadcastInDim
import proofs.«120821_j73985106641253_2_alg».proof.Proof.LibColumnStack
import Idealize.ShloMosaic.Lib.ValueLayout
import Idealize.ShloMosaic.PureOps.Reduce

noncomputable section

namespace Cert.ReferenceIdeal.Head

open Idealize.ShloMosaic Idealize.ShloMosaic.ValueIdx Cert.ReferenceIdeal Voxelize

variable [Cert.ReferenceIdeal.Facts]

/-- A three-entry table laid out as a row and spread over the points' rows. -/
def overRows {α : Type} (tbl : S3.Idx → α) : S4000000x3.Idx → α :=
  broadcastInDim S4000000x3 ![0, 1] Facts₀.bcast_S1x3_S4000000x3_0_1 (broadcastInDim S1x3 ![1] Facts₀.bcast_S3_S1x3_1 tbl)

theorem overRows_apply {α : Type} (tbl : S3.Idx → α) (r : Fin 4000000) (k : Fin 3) :
    overRows tbl (ix2 r k) = tbl (ix1 k) := by
  unfold overRows
  rw [broadcastInDim_1b_ab_apply, broadcastInDim_b_1b_apply]

/-- The cell words of every point on every axis. -/
def coords (pts : FVec Ideal S4000000x4 .f32) : IVec S4000000x3 32 :=
  fptosi 32 (Host.floor (Host.divf
    (subf (extractStridedSlice (s := S4000000x4) S4000000x3 ![0, 0] pts Facts₀.slices_S4000000x4_S4000000x3_0_0)
      (overRows (fun i => FloatOps.ofBits .f32 (lit0 (S3.rowMajor i)))))
    (overRows (fun i => FloatOps.ofBits .f32 (lit1 (S3.rowMajor i))))))

/-- Point `r`'s cell word on axis `k` is the specification's, of the point's `k`-th channel. -/
theorem coords_apply (pts : FVec Ideal S4000000x4 .f32) (r : Fin 4000000) (k : Fin 3) (k4 : Fin 4) (hk : k4.val = k.val) :
    coords pts (ix2 r k) = cellWord (originWord k) (sizeWord k) (pts (ix2 r k4)) := by
  have hs : extractStridedSlice (s := S4000000x4) S4000000x3 ![0, 0] pts Facts₀.slices_S4000000x4_S4000000x3_0_0 (ix2 r k) = pts (ix2 r k4) :=
    slice2_axis1_apply 0 pts Facts₀.slices_S4000000x4_S4000000x3_0_0 r k k4 (by omega)
  have ho : overRows (fun i => (FloatOps.ofBits .f32 (lit0 (S3.rowMajor i)) : Ideal .f32)) (ix2 r k)
      = FloatOps.ofBits .f32 (originWord k) := by
    rw [overRows_apply]
    match k with
    | ⟨0, _⟩ => rfl
    | ⟨1, _⟩ => rfl
    | ⟨2, _⟩ => rfl
  have hd : overRows (fun i => (FloatOps.ofBits .f32 (lit1 (S3.rowMajor i)) : Ideal .f32)) (ix2 r k)
      = FloatOps.ofBits .f32 (sizeWord k) := by
    rw [overRows_apply]
    match k with
    | ⟨0, _⟩ => rfl
    | ⟨1, _⟩ => rfl
    | ⟨2, _⟩ => rfl
  unfold coords cellWord
  show FloatOps.fptosi 32 (FloatOps.hostUnary .floor (FloatOps.hostDivf (FloatOps.subf
    (extractStridedSlice (s := S4000000x4) S4000000x3 ![0, 0] pts Facts₀.slices_S4000000x4_S4000000x3_0_0 (ix2 r k))
    (overRows (fun i => (FloatOps.ofBits .f32 (lit0 (S3.rowMajor i)) : Ideal .f32)) (ix2 r k)))
    (overRows (fun i => (FloatOps.ofBits .f32 (lit1 (S3.rowMajor i)) : Ideal .f32)) (ix2 r k)))) = _
  rw [hs, ho, hd]
  rfl

/-- The axes' tests of every point: `0 ≤ c` and `c < n`, entry by entry. -/
def axisTests (c : IVec S4000000x3 32) : IVec S4000000x3 1 :=
  andi (cmpi .sge c (broadcastInDim S4000000x3 ![] Facts₀.bcast_S_S4000000x3 (constantI S_ 32 0#32)))
    (cmpi .slt c (overRows (fun i => lit2 (S3.rowMajor i))))

theorem axisTests_apply (c : IVec S4000000x3 32) (r : Fin 4000000) (k : Fin 3) :
    axisTests c (ix2 r k) = axisBit (c (ix2 r k)) (lit2 k) := by
  have hn : overRows (fun i => lit2 (S3.rowMajor i)) (ix2 r k) = lit2 k := by
    rw [overRows_apply]
    match k with
    | ⟨0, _⟩ => rfl
    | ⟨1, _⟩ => rfl
    | ⟨2, _⟩ => rfl
  have hz : broadcastInDim S4000000x3 ![] Facts₀.bcast_S_S4000000x3 (constantI S_ 32 0#32) (ix2 r k) = 0#32 := by
    rw [broadcastInDim_scalar_apply]; rfl
  unfold axisTests axisBit
  show IntOp.andi (IntOp.cmpi .sge (c (ix2 r k)) (broadcastInDim S4000000x3 ![] Facts₀.bcast_S_S4000000x3 (constantI S_ 32 0#32) (ix2 r k)))
    (IntOp.cmpi .slt (c (ix2 r k)) (overRows (fun i => lit2 (S3.rowMajor i)) (ix2 r k))) = _
  rw [hn, hz]

/-- Which points are inside the grid: the conjunction of each row's tests. -/
def inside (c : IVec S4000000x3 32) : IVec S4000000 1 :=
  Host.reduce IntOp.andi (axisTests c) (constantI S_ 1 1#1) Facts₀.reducesTo_S4000000x3_S4000000_d1 Facts₀.h_S_

theorem inside_apply (c : IVec S4000000x3 32) (r : Fin 4000000) :
    inside c (ix1 r) = inGridBit (c (ix2 r (0 : Fin 3))) (c (ix2 r (1 : Fin 3))) (c (ix2 r (2 : Fin 3))) := by
  have hR : S4000000x3.Reduces [(1 : Fin 2)] S4000000 := by decide
  have hl : ∀ k : Fin 3, hR.lift (ix1 r) k = ix2 r k := fun k => funext fun d => Fin.ext (by
    show Shape.Reduces.liftVal hR (ix1 r) k.val d = (ix2 r k d).val
    match d with
    | ⟨0, _⟩ => rfl
    | ⟨1, _⟩ => rfl)
  unfold inside
  rw [Host.reduce_eq_fold_single IntOp.andi (axisTests c) (constantI S_ 1 1#1) Facts₀.reducesTo_S4000000x3_S4000000_d1 hR Facts₀.h_S_ (ix1 r)]
  refine fold_axes_eq_inGridBit _ _ _ _ ?_ ?_ ?_
  · show axisTests c (hR.lift (ix1 r) (0 : Fin 3)) = _
    rw [hl, axisTests_apply]; rfl
  · show axisTests c (hR.lift (ix1 r) (1 : Fin 3)) = _
    rw [hl, axisTests_apply]; rfl
  · show axisTests c (hR.lift (ix1 r) (2 : Fin 3)) = _
    rw [hl, axisTests_apply]; rfl

/-- Column `k` of the cell words as a vector over the points. -/
def column (c : IVec S4000000x3 32) (k : Nat) (hs : S4000000x3.Slices ![0, k] S4000000x1) : IVec S4000000 32 :=
  shapeCast S4000000 (extractStridedSlice S4000000x1 ![0, k] c hs) Facts₀.shapeCasts_S4000000x1_S4000000

theorem column_apply (c : IVec S4000000x3 32) (k : Fin 3) (hs : S4000000x3.Slices ![0, k.val] S4000000x1) (r : Fin 4000000) :
    column c k.val hs (ix1 r) = c (ix2 r k) := by
  unfold column
  rw [shapeCast_a1_a_apply, slice2_axis1_apply k.val c hs r (0 : Fin 1) k (by simp)]

/-- Every point's row-major cell number `c₀ · 500 + c₁ · 1 + c₂`, wrapping. -/
def cellNumbers (c : IVec S4000000x3 32) : IVec S4000000 32 :=
  addi (addi
    (muli (column c 0 Facts₀.slices_S4000000x3_S4000000x1_0_0) (broadcastInDim S4000000 ![] Facts₀.bcast_S_S4000000 (constantI S_ 32 500#32)))
    (muli (column c 1 Facts₀.slices_S4000000x3_S4000000x1_0_1) (broadcastInDim S4000000 ![] Facts₀.bcast_S_S4000000 (constantI S_ 32 1#32))))
    (column c 2 Facts₀.slices_S4000000x3_S4000000x1_0_2)

/-- Every point's cell id: the row-major cell number where the point is inside the grid, the sentinel elsewhere. -/
def cellIds (c : IVec S4000000x3 32) : IVec S4000000 32 :=
  select (inside c) (cellNumbers c)
    (broadcastInDim S4000000 ![] Facts₀.bcast_S_S4000000 (id (constantI S_ 32 220000#32)))

theorem cellIds_apply (c : IVec S4000000x3 32) (r : Fin 4000000) :
    cellIds c (ix1 r) = cellId (c (ix2 r (0 : Fin 3))) (c (ix2 r (1 : Fin 3))) (c (ix2 r (2 : Fin 3))) := by
  have e0 : column c 0 Facts₀.slices_S4000000x3_S4000000x1_0_0 (ix1 r) = c (ix2 r (0 : Fin 3)) := column_apply c (0 : Fin 3) _ r
  have e1 : column c 1 Facts₀.slices_S4000000x3_S4000000x1_0_1 (ix1 r) = c (ix2 r (1 : Fin 3)) := column_apply c (1 : Fin 3) _ r
  have e2 : column c 2 Facts₀.slices_S4000000x3_S4000000x1_0_2 (ix1 r) = c (ix2 r (2 : Fin 3)) := column_apply c (2 : Fin 3) _ r
  have b500 : broadcastInDim S4000000 ![] Facts₀.bcast_S_S4000000 (constantI S_ 32 500#32) (ix1 r) = 500#32 := by
    rw [broadcastInDim_scalar_apply]; rfl
  have b1 : broadcastInDim S4000000 ![] Facts₀.bcast_S_S4000000 (constantI S_ 32 1#32) (ix1 r) = 1#32 := by
    rw [broadcastInDim_scalar_apply]; rfl
  have bs : broadcastInDim S4000000 ![] Facts₀.bcast_S_S4000000 (id (constantI S_ 32 220000#32)) (ix1 r) = 220000#32 := by
    rw [broadcastInDim_scalar_apply]; rfl
  unfold cellIds cellNumbers cellId rowMajorWord
  show Scalar.select (inside c (ix1 r))
    (IntOp.addi (IntOp.addi
      (IntOp.muli (column c 0 Facts₀.slices_S4000000x3_S4000000x1_0_0 (ix1 r)) (broadcastInDim S4000000 ![] Facts₀.bcast_S_S4000000 (constantI S_ 32 500#32) (ix1 r)))
      (IntOp.muli (column c 1 Facts₀.slices_S4000000x3_S4000000x1_0_1 (ix1 r)) (broadcastInDim S4000000 ![] Facts₀.bcast_S_S4000000 (constantI S_ 32 1#32) (ix1 r))))
      (column c 2 Facts₀.slices_S4000000x3_S4000000x1_0_2 (ix1 r)))
    (broadcastInDim S4000000 ![] Facts₀.bcast_S_S4000000 (id (constantI S_ 32 220000#32)) (ix1 r)) = _
  rw [inside_apply, e0, e1, e2, b500, b1, bs]

end Cert.ReferenceIdeal.Head

end
-- ==== Proof.RefHeadValues.lean ====
/-
  The reference's first stretch, read back: after the operations up to the cell ids, the buffers that the rest
  of the program reads hold the points (untouched), every point's cell words, the inside-the-grid bits, and
  the cell ids — the pure functions of the points named in the reading of the reference's head.

  The stretch is read in four steps — the cell words, the inside bits, the cell numbers, the masked choice —
  each stated for arbitrary contents of the buffers it reads (the second also reads the table of the grid's
  extents, which the first writes); the steps are then chained, a buffer written once being unchanged by
  the steps after it.
-/
import proofs.«120821_j73985106641253_2_alg».proof.Proof.RefRun
import proofs.«120821_j73985106641253_2_alg».proof.Proof.RefHead

noncomputable section

namespace Cert.ReferenceIdeal.HeadValues

open Cert.ReferenceIdeal Cert.ReferenceIdeal.Hand Cert.ReferenceIdeal.Head
open Idealize.ShloMosaic Idealize.ShloMosaic.TcCoe Idealize.SL.Sem Idealize.ShloMosaic.StableHlo
open Cert.ReferenceIdeal.Facts₀

variable {F : FTy → Type} [FloatOps F]

/-- The operations that make the cell words (`main_v8`) from the points. -/
abbrev stepCoords : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),
    StableHlo.unary main_cst main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F)),
    StableHlo.binary main_v0 main_v2 main_v3 (subf : (⟨S4000000x3, .f32⟩ : BufTy).Contents (Elt F) → (⟨S4000000x3, .f32⟩ : BufTy).Contents (Elt F) → (⟨S4000000x3, .f32⟩ : BufTy).Contents (Elt F)),
    StableHlo.unary main_cst_0 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S4000000x3 ![0, 1] bcast_S1x3_S4000000x3_0_1 : (⟨S1x3, .f32⟩ : BufTy).Contents (Elt F) → (⟨S4000000x3, .f32⟩ : BufTy).Contents (Elt F)),
    StableHlo.binary main_v3 main_v5 main_v6 (Host.divf : (⟨S4000000x3, .f32⟩ : BufTy).Contents (Elt F) → (⟨S4000000x3, .f32⟩ : BufTy).Contents (Elt F) → (⟨S4000000x3, .f32⟩ : BufTy).Contents (Elt F)),
    StableHlo.unary main_v6 main_v7 (Host.floor : (⟨S4000000x3, .f32⟩ : BufTy).Contents (Elt F) → (⟨S4000000x3, .f32⟩ : BufTy).Contents (Elt F)),
    StableHlo.unary main_v7 main_v8 (fptosi 32 : (⟨S4000000x3, .f32⟩ : BufTy).Contents (Elt F) → (⟨S4000000x3, .i32⟩ : BufTy).Contents (Elt F)) ]

/-- The operations that make the inside bits (`main_v15`) from the cell words. -/
abbrev stepInside : List (HloOp τ sig (Elt F)) :=
  [ StableHlo.nullary main_c_1 (constantI S_ 32 0#32),
    StableHlo.unary main_c_1 main_v9 (broadcastInDim S4000000x3 ![] bcast_S_S4000000x3 : (⟨S_, .i32⟩ : BufTy).Contents (Elt F) → (⟨S4000000x3, .i32⟩ : BufTy).Contents (Elt F)),
    StableHlo.binary main_v8 main_v9 main_v10 (cmpi .sge : (⟨S4000000x3, .i32⟩ : BufTy).Contents (Elt F) → (⟨S4000000x3, .i32⟩ : BufTy).Contents (Elt F) → (⟨S4000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)),
    StableHlo.unary main_v11 main_v12 (broadcastInDim S4000000x3 ![0, 1] bcast_S1x3_S4000000x3_0_1 : (⟨S1x3, .i32⟩ : BufTy).Contents (Elt F) → (⟨S4000000x3, .i32⟩ : BufTy).Contents (Elt F)),
    StableHlo.binary main_v8 main_v12 main_v13 (cmpi .slt : (⟨S4000000x3, .i32⟩ : BufTy).Contents (Elt F) → (⟨S4000000x3, .i32⟩ : BufTy).Contents (Elt F) → (⟨S4000000x3, .i1⟩ : BufTy).Contents (Elt F)),
    StableHlo.binary main_v10 main_v13 main_v14 (andi : (⟨S4000000x3, .i1⟩ : BufTy).Contents (Elt F) → (⟨S4000000x3, .i1⟩ : BufTy).Contents (Elt F) → (⟨S4000000x3, .i1⟩ : BufTy).Contents (Elt F)),
    StableHlo.nullary main_c_2 (constantI S_ 1 1#1),
    StableHlo.binary main_v14 main_c_2 main_v15 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)) ]

/-- The operations that make the cell numbers (`main_v27`) from the cell words, and the sentinel. -/
abbrev stepNumbers : List (HloOp τ sig (Elt F)) :=
  [ StableHlo.unary main_v8 main_v16 ((extractStridedSlice S4000000x1 ![0, 0] · slices_S4000000x3_S4000000x1_0_0) : (⟨S4000000x3, .i32⟩ : BufTy).Contents (Elt F) → (⟨S4000000x1, .i32⟩ : BufTy).Contents (Elt F)),
    StableHlo.reshape main_v16 main_v17 rfl shapeCasts_S4000000x1_S4000000,
    StableHlo.nullary main_c_3 (constantI S_ 32 500#32),
    StableHlo.unary main_c_3 main_v18 (broadcastInDim S4000000 ![] bcast_S_S4000000 : (⟨S_, .i32⟩ : BufTy).Contents (Elt F) → (⟨S4000000, .i32⟩ : BufTy).Contents (Elt F)),
    StableHlo.binary main_v17 main_v18 main_v19 (muli : (⟨S4000000, .i32⟩ : BufTy).Contents (Elt F) → (⟨S4000000, .i32⟩ : BufTy).Contents (Elt F) → (⟨S4000000, .i32⟩ : BufTy).Contents (Elt F)),
    StableHlo.unary main_v8 main_v20 ((extractStridedSlice S4000000x1 ![0, 1] · slices_S4000000x3_S4000000x1_0_1) : (⟨S4000000x3, .i32⟩ : BufTy).Contents (Elt F) → (⟨S4000000x1, .i32⟩ : BufTy).Contents (Elt F)),
    StableHlo.reshape main_v20 main_v21 rfl shapeCasts_S4000000x1_S4000000,
    StableHlo.nullary main_c_4 (constantI S_ 32 1#32),
    StableHlo.unary main_c_4 main_v22 (broadcastInDim S4000000 ![] bcast_S_S4000000 : (⟨S_, .i32⟩ : BufTy).Contents (Elt F) → (⟨S4000000, .i32⟩ : BufTy).Contents (Elt F)),
    StableHlo.binary main_v21 main_v22 main_v23 (muli : (⟨S4000000, .i32⟩ : BufTy).Contents (Elt F) → (⟨S4000000, .i32⟩ : BufTy).Contents (Elt F) → (⟨S4000000, .i32⟩ : BufTy).Contents (Elt F)),
    StableHlo.binary main_v19 main_v23 main_v24 (addi : (⟨S4000000, .i32⟩ : BufTy).Contents (Elt F) → (⟨S4000000, .i32⟩ : BufTy).Contents (Elt F) → (⟨S4000000, .i32⟩ : BufTy).Contents (Elt F)),
    StableHlo.unary main_v8 main_v25 ((extractStridedSlice S4000000x1 ![0, 2] · slices_S4000000x3_S4000000x1_0_2) : (⟨S4000000x3, .i32⟩ : BufTy).Contents (Elt F) → (⟨S4000000x1, .i32⟩ : BufTy).Contents (Elt F)),
    StableHlo.reshape main_v25 main_v26 rfl shapeCasts_S4000000x1_S4000000,
    StableHlo.binary main_v24 main_v26 main_v27 (addi : (⟨S4000000, .i32⟩ : BufTy).Contents (Elt F) → (⟨S4000000, .i32⟩ : BufTy).Contents (Elt F) → (⟨S4000000, .i32⟩ : BufTy).Contents (Elt F)),
    StableHlo.nullary main_c_5 (constantI S_ 32 220000#32) ]

/-- The masked choice between cell number and sentinel (`main_v28`). -/
abbrev stepChoice : List (HloOp τ sig (Elt F)) :=
  [ StableHlo.TRef.unary (.of main_c_5 : StableHlo.TRef sig ⟨S_, .i32⟩) main_call0.v0 id,
    StableHlo.TRef.unary main_call0.v0 main_call0.v1 (broadcastInDim S4000000 ![] bcast_S_S4000000),
    StableHlo.TRef.ternary (.of main_v15 : StableHlo.TRef sig ⟨S4000000, .i1⟩) (.of main_v27 : StableHlo.TRef sig ⟨S4000000, .i32⟩) main_call0.v1 main_call0.v2 select ]

/-- The head is the four steps in a row. -/
theorem head_steps : (opsHead (F := F)) = stepCoords ++ (stepInside ++ (stepNumbers ++ stepChoice)) := rfl

section Steps
variable (V : Valuation τ sig (Elt Ideal))

set_option maxHeartbeats 1000000 in
theorem coords_step :
    after (stepCoords (F := Ideal)) V (main_v8 : DevRef τ sig) = coords (V (main_arg0 : DevRef τ sig)) := by
  after_results_simp
  rfl

/-- The first step also writes the table of the grid's extents, which the second step reads. -/
theorem extents_step :
    after (stepCoords (F := Ideal)) V (main_c : DevRef τ sig) = fun i => lit2 (S3.rowMajor i) := by
  after_results_simp
  rfl

set_option maxHeartbeats 1000000 in
theorem inside_step (hc : V (main_c : DevRef τ sig) = fun i => lit2 (S3.rowMajor i)) :
    after (stepInside (F := Ideal)) V (main_v15 : DevRef τ sig) = inside (V (main_v8 : DevRef τ sig))
    ∧ after (stepInside (F := Ideal)) V (main_v8 : DevRef τ sig) = V (main_v8 : DevRef τ sig) := by
  refine ⟨?_, ?_⟩
  · after_results_simp
    rw [hc]
    rfl
  · after_results_simp

set_option maxHeartbeats 1000000 in
theorem numbers_step :
    after (stepNumbers (F := Ideal)) V (main_v27 : DevRef τ sig) = cellNumbers (V (main_v8 : DevRef τ sig))
    ∧ after (stepNumbers (F := Ideal)) V (main_c_5 : DevRef τ sig) = constantI S_ 32 220000#32
    ∧ after (stepNumbers (F := Ideal)) V (main_v15 : DevRef τ sig) = V (main_v15 : DevRef τ sig) := by
  refine ⟨?_, ?_, ?_⟩
  · after_results_simp
    rfl
  · after_results_simp
  · after_results_simp

set_option maxHeartbeats 1000000 in
theorem choice_step :
    after (stepChoice (F := Ideal)) V (main_v28 : DevRef τ sig)
      = select (V (main_v15 : DevRef τ sig)) (V (main_v27 : DevRef τ sig))
          (broadcastInDim S4000000 ![] bcast_S_S4000000 (id (V (main_c_5 : DevRef τ sig)))) := by
  after_results_simp
  rfl

end Steps

theorem points_kept (V : Valuation τ sig (Elt Ideal)) :
    after (opsHead (F := Ideal)) V (main_arg0 : DevRef τ sig) = V (main_arg0 : DevRef τ sig) :=
  after_of_forall_not_mem _ V (List.forall_iff_forall_mem.mp opsHead_keeps_arg0)

/-- The cell words' buffer is written once, by the first step: the later steps leave it. -/
theorem coords_value (V : Valuation τ sig (Elt Ideal)) :
    after (opsHead (F := Ideal)) V (main_v8 : DevRef τ sig) = coords (V (main_arg0 : DevRef τ sig)) := by
  rw [head_steps, after_append, after_append, after_append]
  have k3 : ∀ W : Valuation τ sig (Elt Ideal), after (stepChoice (F := Ideal)) W (main_v8 : DevRef τ sig) = W (main_v8 : DevRef τ sig) := fun W => by
    after_results_simp
  have k2 : ∀ W : Valuation τ sig (Elt Ideal), after (stepNumbers (F := Ideal)) W (main_v8 : DevRef τ sig) = W (main_v8 : DevRef τ sig) := fun W => by
    after_results_simp
  rw [k3, k2, (inside_step _ (extents_step V)).2, coords_step]

theorem inside_value (V : Valuation τ sig (Elt Ideal)) :
    after (opsHead (F := Ideal)) V (main_v15 : DevRef τ sig) = inside (coords (V (main_arg0 : DevRef τ sig))) := by
  rw [head_steps, after_append, after_append, after_append]
  have k3 : ∀ W : Valuation τ sig (Elt Ideal), after (stepChoice (F := Ideal)) W (main_v15 : DevRef τ sig) = W (main_v15 : DevRef τ sig) := fun W => by
    after_results_simp
  rw [k3, (numbers_step _).2.2, (inside_step _ (extents_step V)).1, coords_step]

theorem cellIds_value (V : Valuation τ sig (Elt Ideal)) :
    after (opsHead (F := Ideal)) V (main_v28 : DevRef τ sig) = cellIds (coords (V (main_arg0 : DevRef τ sig))) := by
  rw [head_steps, after_append, after_append, after_append]
  have k2 : ∀ W : Valuation τ sig (Elt Ideal), after (stepNumbers (F := Ideal)) W (main_v8 : DevRef τ sig) = W (main_v8 : DevRef τ sig) := fun W => by
    after_results_simp
  rw [choice_step, (numbers_step _).2.2, (numbers_step _).2.1, (numbers_step _).1, (inside_step _ (extents_step V)).1, (inside_step _ (extents_step V)).2, coords_step]
  rfl

/-- What the head leaves in the four buffers the tail reads. -/
theorem head_values (V : Valuation τ sig (Elt Ideal)) :
    after (opsHead (F := Ideal)) V (main_arg0 : DevRef τ sig) = V (main_arg0 : DevRef τ sig)
    ∧ after (opsHead (F := Ideal)) V (main_v8 : DevRef τ sig) = coords (V (main_arg0 : DevRef τ sig))
    ∧ after (opsHead (F := Ideal)) V (main_v15 : DevRef τ sig) = inside (coords (V (main_arg0 : DevRef τ sig)))
    ∧ after (opsHead (F := Ideal)) V (main_v28 : DevRef τ sig) = cellIds (coords (V (main_arg0 : DevRef τ sig))) :=
  ⟨points_kept V, coords_value V, inside_value V, cellIds_value V⟩

end Cert.ReferenceIdeal.HeadValues

end
-- ==== Proof.InputsAgree.lean ====
/-
  The inputs of the common tail agree, and with them the results.

  At the launch's exit the kernel program's buffers hold the points (an input array, unchanged), the
  coordinates array `coordsOf points` and the one-column cell-id array `cellIdsOf points`; its next operations
  drop the unit axis of the cell ids and compare them with the sentinel. After its head the reference holds
  the points, its own cell words, inside bits and cell ids. Point by point these are the same numbers:
  both cell words are `⌊(x − o) / d⌋` converted; the cell ids are the same function of the cell words; and
  the kernel program's "cell id below the sentinel" is the reference's six-comparison bit
  (`cellId_lt_sentinel`). The common tail then gives equal results.
-/
import proofs.«120821_j73985106641253_2_alg».proof.Proof.TailsAgree
import proofs.«120821_j73985106641253_2_alg».proof.Proof.KernelArrays
import proofs.«120821_j73985106641253_2_alg».proof.Proof.RefHeadValues

noncomputable section

namespace Cert.Agree

open Idealize.ShloMosaic Idealize.ShloMosaic.TcCoe Idealize.SL.Sem Idealize.ShloMosaic.StableHlo
open Idealize.ShloMosaic.ValueIdx Voxelize

/-- The reference's cell words are the specification's. -/
theorem ref_coords (pts : FVec Ideal Cert.ReferenceIdeal.S4000000x4 .f32) : Cert.ReferenceIdeal.Head.coords pts = coordsOf pts := by
  funext j
  obtain ⟨r, k, rfl⟩ : ∃ (r : Fin 4000000) (k : Fin 3), j = ix2 r k := ⟨j 0, j 1, eq_ix2 j⟩
  rw [Cert.ReferenceIdeal.Head.coords_apply pts r k (chan k) rfl, coordsOf_apply]

/-- The reference's cell ids are the specification's one-column array with its unit axis dropped. -/
theorem ref_cellIds (pts : FVec Ideal Cert.ReferenceIdeal.S4000000x4 .f32) (h : Cert.KernelIdeal.S4000000x1.ShapeCasts Cert.KernelIdeal.S4000000) :
    Cert.ReferenceIdeal.Head.cellIds (coordsOf pts) = shapeCast Cert.KernelIdeal.S4000000 (cellIdsOf pts) h := by
  funext j
  obtain ⟨r, rfl⟩ : ∃ r : Fin 4000000, j = ix1 r := ⟨j 0, eq_ix1 j⟩
  rw [Cert.ReferenceIdeal.Head.cellIds_apply, shapeCast_a1_a_apply, cellIdsOf_apply]

/-- The reference's inside bits are "cell id below the sentinel". -/
theorem ref_inside (pts : FVec Ideal Cert.ReferenceIdeal.S4000000x4 .f32) (h : Cert.KernelIdeal.S4000000x1.ShapeCasts Cert.KernelIdeal.S4000000)
    (hb : Cert.KernelIdeal.S_.BroadcastsInDim Cert.KernelIdeal.S4000000 (![] : Fin 0 → Fin Cert.KernelIdeal.S4000000.rank)) :
    Cert.ReferenceIdeal.Head.inside (coordsOf pts)
      = cmpi .slt (shapeCast Cert.KernelIdeal.S4000000 (cellIdsOf pts) h) (broadcastInDim Cert.KernelIdeal.S4000000 ![] hb (constantI Cert.KernelIdeal.S_ 32 220000#32)) := by
  funext j
  obtain ⟨r, rfl⟩ : ∃ r : Fin 4000000, j = ix1 r := ⟨j 0, eq_ix1 j⟩
  have hs : broadcastInDim Cert.KernelIdeal.S4000000 ![] hb (constantI Cert.KernelIdeal.S_ 32 220000#32) (ix1 r) = 220000#32 := by
    rw [broadcastInDim_scalar_apply]; rfl
  show _ = IntOp.cmpi .slt (shapeCast Cert.KernelIdeal.S4000000 (cellIdsOf pts) h (ix1 r))
    (broadcastInDim Cert.KernelIdeal.S4000000 ![] hb (constantI Cert.KernelIdeal.S_ 32 220000#32) (ix1 r))
  rw [Cert.ReferenceIdeal.Head.inside_apply, hs, shapeCast_a1_a_apply, cellIdsOf_apply, cellId_lt_sentinel]

variable (m : (ℓ : Loc Cert.KernelIdeal.nD Cert.KernelIdeal.τ Cert.KernelIdeal.sig) → Buf (Elt Ideal) ℓ)

/-- The kernel program's buffer contents at the launch's exit: the three arrays as the launch leaves them, every
    other buffer as the program was started. -/
def atExit (c : Dev Cert.KernelIdeal.nD) : Valuation Cert.KernelIdeal.τ Cert.KernelIdeal.sig (Elt Ideal) :=
  Pipeline.withArrays Cert.KernelIdeal.spec0 c (Cert.KernelIdeal.Hash.V0 m c) fun w => (Cert.KernelIdeal.Hash.dats m 0 c).arrAt w Cert.KernelIdeal.cfg0.N

open Cert.KernelIdeal Cert.KernelIdeal.Gen Cert.KernelIdeal.Hash in
theorem atExit_points (c : Dev Cert.KernelIdeal.nD) :
    atExit m c (Cert.KernelIdeal.main_arg0 : DevRef Cert.KernelIdeal.τ Cert.KernelIdeal.sig) = m ((c : Thread nD τ).loc main_arg0) :=
  (Pipeline.withArrays_arr spec0 launch0.win.arr_inj c _ _ 0).trans
    (((dats m 0 c).arrAt_in 0 rfl _).trans ((A_eq m c 0).trans (V_launch m c main_arg0)))

open Cert.KernelIdeal Cert.KernelIdeal.Gen Cert.KernelIdeal.Hash in
theorem atExit_coords (c : Dev Cert.KernelIdeal.nD) :
    atExit m c (Cert.KernelIdeal.main_v0_0 : DevRef Cert.KernelIdeal.τ Cert.KernelIdeal.sig) = coordsOf (m ((c : Thread nD τ).loc main_arg0)) :=
  (Pipeline.withArrays_arr spec0 launch0.win.arr_inj c _ _ 1).trans (Cert.KernelIdeal.Arrays.final_coor m c)

open Cert.KernelIdeal Cert.KernelIdeal.Gen Cert.KernelIdeal.Hash in
theorem atExit_cellIds (c : Dev Cert.KernelIdeal.nD) :
    atExit m c (Cert.KernelIdeal.main_v0_1 : DevRef Cert.KernelIdeal.τ Cert.KernelIdeal.sig) = cellIdsOf (m ((c : Thread nD τ).loc main_arg0)) :=
  (Pipeline.withArrays_arr spec0 launch0.win.arr_inj c _ _ 2).trans (Cert.KernelIdeal.Arrays.final_lin m c)

open Cert.KernelIdeal Cert.KernelIdeal.Gen in
/-- The kernel program's cell-id vector: the one-column array with its unit axis dropped. -/
theorem kernel_cellIds (W : Valuation Cert.KernelIdeal.τ Cert.KernelIdeal.sig (Elt Ideal)) :
    after (TailSteps.kPre (F := Ideal)) W (main_v1 : DevRef τ sig)
      = shapeCast S4000000 (W (main_v0_1 : DevRef τ sig)) Facts₀.shapeCasts_S4000000x1_S4000000 := by
  after_results
  rfl

open Cert.KernelIdeal Cert.KernelIdeal.Gen in
/-- The kernel program's inside bits: its cell ids compared with the sentinel. -/
theorem kernel_inside (W : Valuation Cert.KernelIdeal.τ Cert.KernelIdeal.sig (Elt Ideal)) :
    after (TailSteps.kPre (F := Ideal)) W (main_v3 : DevRef τ sig)
      = cmpi .slt (shapeCast S4000000 (W (main_v0_1 : DevRef τ sig)) Facts₀.shapeCasts_S4000000x1_S4000000)
          (broadcastInDim S4000000 ![] Facts₀.bcast_S_S4000000 (constantI S_ 32 220000#32)) := by
  after_results
  rfl

/-- THE RESULTS AGREE: from memories agreeing on the points, what the reference's whole line leaves in its four
    result buffers is what the kernel program's operations after the launch leave in its four. -/
theorem results_agree (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    after (Cert.ReferenceIdeal.Hand.ops (F := Ideal)) (launchContents m' c) (Cert.ReferenceIdeal.main_v104 : DevRef Cert.ReferenceIdeal.τ Cert.ReferenceIdeal.sig)
        = after (Cert.KernelIdeal.Hash.tailOps (F := Ideal)).flatten (atExit m c) (Cert.KernelIdeal.main_v79 : DevRef Cert.KernelIdeal.τ Cert.KernelIdeal.sig)
    ∧ after (Cert.ReferenceIdeal.Hand.ops (F := Ideal)) (launchContents m' c) (Cert.ReferenceIdeal.main_v117 : DevRef Cert.ReferenceIdeal.τ Cert.ReferenceIdeal.sig)
        = after (Cert.KernelIdeal.Hash.tailOps (F := Ideal)).flatten (atExit m c) (Cert.KernelIdeal.main_v92 : DevRef Cert.KernelIdeal.τ Cert.KernelIdeal.sig)
    ∧ after (Cert.ReferenceIdeal.Hand.ops (F := Ideal)) (launchContents m' c) (Cert.ReferenceIdeal.main_v127 : DevRef Cert.ReferenceIdeal.τ Cert.ReferenceIdeal.sig)
        = after (Cert.KernelIdeal.Hash.tailOps (F := Ideal)).flatten (atExit m c) (Cert.KernelIdeal.main_v102 : DevRef Cert.KernelIdeal.τ Cert.KernelIdeal.sig)
    ∧ after (Cert.ReferenceIdeal.Hand.ops (F := Ideal)) (launchContents m' c) (Cert.ReferenceIdeal.main_v129 : DevRef Cert.ReferenceIdeal.τ Cert.ReferenceIdeal.sig)
        = after (Cert.KernelIdeal.Hash.tailOps (F := Ideal)).flatten (atExit m c) (Cert.KernelIdeal.main_v104 : DevRef Cert.KernelIdeal.τ Cert.KernelIdeal.sig) := by
  obtain ⟨g0, g1, g2, g3⟩ := Cert.ReferenceIdeal.HeadValues.head_values (launchContents m' c)
  have hp : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := hagree
  rw [Cert.ReferenceIdeal.Hand.after_ops]
  refine tails_agree (atExit m c) _ ?_ ?_ ?_ ?_
  · rw [g0, hp, atExit_points]
  · rw [g1, hp, atExit_coords, ref_coords]
  · rw [g3, hp, kernel_cellIds, atExit_cellIds, ref_coords, ref_cellIds _ Cert.KernelIdeal.Facts₀.shapeCasts_S4000000x1_S4000000]
  · rw [g2, hp, kernel_inside, atExit_cellIds, ref_coords,
      ref_inside _ Cert.KernelIdeal.Facts₀.shapeCasts_S4000000x1_S4000000 Cert.KernelIdeal.Facts₀.bcast_S_S4000000]

end Cert.Agree

end
-- ==== Proof.lean ====
/-
  Voxelising a point cloud: the hashing kernel's program against the plain reference.

  Both programs take 4,000,000 points (x, y, z, reflectivity) and return, for the first 40000 occupied cells
  of a 440 × 500 × 1 grid in order of first appearance, up to 32 points per cell, the cells' coordinates, the
  per-cell counts and the number of cells. They differ only in how each point's cell is found. The reference
  does it with whole-array operations; the kernel does it in a launch over 500 blocks of 8000 points and
  hands the rest of its program the cell words and the cell ids, from which that program recovers "the point
  is inside the grid" as "its cell id is below the sentinel 220000".

  On the extended reals the two agree point by point: the cell of a coordinate is `⌊(x − o) / d⌋` converted to
  a 32-bit word on both sides, with the same origin and cell-size words; the cell id is the same function of
  the three cell words; and inside the grid the cell id is at most 439 · 500 + 499 = 219999, so the
  comparison with the sentinel IS the six-comparison bit. From there on the two programs run the same line
  of operations, so their four results are equal. No finiteness is needed: nothing is rearranged.

  The frames: the two kernel programs run their launch and the operations after it without fault and leave
  the points unchanged (the points are an input array of the launch; no later operation writes them); the
  reference is a straight line that never writes its argument. The ideal pass rewrote nothing, so there is
  nothing to preserve.
-/
import proofs.«120821_j73985106641253_2_alg».proof.Defs
import proofs.«120821_j73985106641253_2_alg».proof.Proof.Gen.Kernel
import proofs.«120821_j73985106641253_2_alg».proof.Proof.Gen.KernelIdeal
import proofs.«120821_j73985106641253_2_alg».proof.Proof.Gen.ReferenceIdeal
import proofs.«120821_j73985106641253_2_alg».proof.Proof.Gen.Pre_finite_inputs
import proofs.«120821_j73985106641253_2_alg».proof.Proof.HashFrameBits
import proofs.«120821_j73985106641253_2_alg».proof.Proof.HashFrameIdeal
import proofs.«120821_j73985106641253_2_alg».proof.Proof.RefRun
import proofs.«120821_j73985106641253_2_alg».proof.Proof.InputsAgree

noncomputable section

namespace Cert.Proof

open Idealize.ShloMosaic Idealize.ShloMosaic.TcCoe Idealize.SL.Sem Idealize.ShloMosaic.StableHlo

theorem frame_kernel : Cert.frame_Kernel := fun m ρ _ => Cert.Kernel.Hash.frame m ρ

theorem frame_kernelIdeal : Cert.frame_KernelIdeal := fun m ρ _ => Cert.KernelIdeal.Hash.frame m ρ

theorem frame_reference : Cert.frame_ReferenceIdeal := fun m ρ _ => Cert.ReferenceIdeal.Hand.frame m ρ

/-- The ideal pass rewrote no operation. -/
theorem preserves : Cert.preserves_Kernel_KernelIdeal := trivial

open Cert.KernelIdeal Cert.KernelIdeal.Gen Cert.KernelIdeal.Hash in
/-- The kernel program's run with its four results named: each is what the operations after the launch leave,
    from the launch's exit contents, in that result's buffer; the points end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v79) = after (tailOps (F := Ideal)).flatten (Cert.Agree.atExit m c) (main_v79 : DevRef τ sig)
      ∧ r.2.mem ((c.tc : Thread nD τ).loc main_v92) = after (tailOps (F := Ideal)).flatten (Cert.Agree.atExit m c) (main_v92 : DevRef τ sig)
      ∧ r.2.mem ((c.tc : Thread nD τ).loc main_v102) = after (tailOps (F := Ideal)).flatten (Cert.Agree.atExit m c) (main_v102 : DevRef τ sig)
      ∧ r.2.mem ((c.tc : Thread nD τ).loc main_v104) = after (tailOps (F := Ideal)).flatten (Cert.Agree.atExit m c) (main_v104 : DevRef τ sig)
      ∧ r.2.mem ((c.tc : Thread nD τ).loc main_arg0) = m ((c.tc : Thread nD τ).loc main_arg0)) :=
  (θ_run defs _ _).mono (fun _ h c =>
    ⟨(h c).2 main_v79 (Pipeline.mem_restRefs_of main_v79 (by decide) (by decide)),
     (h c).2 main_v92 (Pipeline.mem_restRefs_of main_v92 (by decide) (by decide)),
     (h c).2 main_v102 (Pipeline.mem_restRefs_of main_v102 (by decide) (by decide)),
     (h c).2 main_v104 (Pipeline.mem_restRefs_of main_v104 (by decide) (by decide)),
     ((h c).1 0).trans (((dats m 0 c).arrAt_in 0 rfl _).trans ((A_eq m c 0).trans (V_launch m c main_arg0)))⟩)
    (run_main m ρ)

/-- From memories agreeing on the points both programs run, and end with equal results and unchanged points. -/
theorem algebraic : Cert.algebraic_KernelIdeal_ReferenceIdeal := by
  intro m ρ m' ρ' _ hagree
  refine ⟨_, _, _, _, kernel_run m ρ, ?_⟩
  refine (θ_run Cert.ReferenceIdeal.defs _ _).mono (fun _ h c => ?_) (Cert.ReferenceIdeal.Hand.run_main (F := Ideal) m' ρ')
  obtain ⟨e0, e1, e2, e3⟩ := Cert.Agree.results_agree m m' c (hagree c)
  exact ⟨(h c Cert.ReferenceIdeal.main_v104).trans e0, (h c Cert.ReferenceIdeal.main_v117).trans e1,
    (h c Cert.ReferenceIdeal.main_v127).trans e2, (h c Cert.ReferenceIdeal.main_v129).trans e3,
    (h c Cert.ReferenceIdeal.main_arg0).trans (Cert.ReferenceIdeal.Hand.arg0_kept _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
